-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64 .f32) (main_arg14 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128 .f32) (main_arg9 : FVec F S128 .f32) (main_arg10 : FVec F S128 .f32) (main_arg11 : FVec F S128x64 .f32) (main_arg12 : FVec F S64 .f32) (main_arg13 : FVec F S64 .f32) (main_arg14 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) (main_arg13 : FVec F S64 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) (main_arg13 : FVec F S64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S5000x1 : Shape := ⟨2, ![5000, 1]⟩
abbrev S1x128 : Shape := ⟨2, ![1, 128]⟩
abbrev S5000 : Shape := ⟨1, ![5000]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 126
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000, .i32⟩
  | .hbm, ⟨20, _⟩ => ⟨S850000, .i32⟩
  | .hbm, ⟨21, _⟩ => ⟨S850000, .i32⟩
  | .hbm, ⟨22, _⟩ => ⟨S_, .f32⟩
  | .hbm, ⟨23, _⟩ => ⟨S50000, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .i1⟩
  | .hbm, ⟨42, _⟩ => ⟨S_, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000, .f32⟩
  | .hbm, ⟨65, _⟩ => ⟨S850000, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x128, .f32⟩
  | .hbm, ⟨96, _⟩ => ⟨S850000x1, .f32⟩
  | .hbm, ⟨97, _⟩ => ⟨S850000x128, .f32⟩
  | .hbm, ⟨98, _⟩ => ⟨S_, .f32⟩
  | .hbm, ⟨99, _⟩ => ⟨S50000x128, .f32⟩
  | .hbm, ⟨100, _⟩ => ⟨S850000x1, .i32⟩
  | .hbm, ⟨101, _⟩ => ⟨S50000x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S50000x128, .f32⟩
  | .hbm, ⟨106, _⟩ => ⟨S50000x64, .f32⟩
  | .hbm, ⟨107, _⟩ => ⟨S_, .i32⟩
  | .hbm, ⟨108, _⟩ => ⟨S850000, .i32⟩
  | .hbm, ⟨109, _⟩ => ⟨S850000, .i1⟩
  | .hbm, ⟨110, _⟩ => ⟨S_, .i32⟩
  | .hbm, ⟨111, _⟩ => ⟨S850000, .i32⟩
  | .hbm, ⟨112, _⟩ => ⟨S850000, .i32⟩
  | .hbm, ⟨113, _⟩ => ⟨S850000, .i32⟩
  | .hbm, ⟨114, _⟩ => ⟨S850000x1, .i32⟩
  | .hbm, ⟨115, _⟩ => ⟨S850000x64, .f32⟩
  | .hbm, ⟨116, _⟩ => ⟨S850000x1, .f32⟩
  | .hbm, ⟨117, _⟩ => ⟨S850000x64, .f32⟩
  | .hbm, ⟨118, _⟩ => ⟨S_, .f32⟩
  | .hbm, ⟨119, _⟩ => ⟨S50000x64, .f32⟩
  | .hbm, ⟨120, _⟩ => ⟨S850000x1, .i32⟩
  | .hbm, ⟨121, _⟩ => ⟨S50000x64, .f32⟩
  | .hbm, ⟨122, _⟩ => ⟨S1x64, .f32⟩
  | .hbm, ⟨123, _⟩ => ⟨S1x64, .f32⟩
  | .hbm, ⟨124, _⟩ => ⟨S1x64, .f32⟩
  | .hbm, ⟨125, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x1, .f32⟩
  | .local _ .vmem, ⟨44, _⟩ => ⟨S5000x1, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_c : Ref sig .tc := ⟨.hbm, 46, rfl⟩
abbrev main_v20 : Ref sig .tc := ⟨.hbm, 47, rfl⟩
abbrev main_v21 : Ref sig .tc := ⟨.hbm, 48, rfl⟩
abbrev main_c_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_v29 : Ref sig .tc := ⟨.hbm, 58, rfl⟩
abbrev main_c_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_v37 : Ref sig .tc := ⟨.hbm, 68, rfl⟩
abbrev main_v38 : Ref sig .tc := ⟨.hbm, 69, rfl⟩
abbrev main_c_10 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_12 : Ref sig .tc := ⟨.hbm, 87, rfl⟩
abbrev main_v54 : Ref sig .tc := ⟨.hbm, 88, rfl⟩
abbrev main_v55 : Ref sig .tc := ⟨.hbm, 89, rfl⟩
abbrev main_c_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_15 : Ref sig .tc := ⟨.hbm, 107, rfl⟩
abbrev main_v71 : Ref sig .tc := ⟨.hbm, 108, rfl⟩
abbrev main_v72 : Ref sig .tc := ⟨.hbm, 109, rfl⟩
abbrev main_c_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_17 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg3_0 : Ref sig .tc := ⟨.vmem, 51, rfl⟩
abbrev cc8_stg4_0 : Ref sig .tc := ⟨.vmem, 52, rfl⟩
abbrev cc8_stg4_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem2_0 : DmaSem sig := 50
abbrev cc8_sem3_0 : DmaSem sig := 51
abbrev cc8_sem4_0 : DmaSem sig := 52
abbrev cc8_sem4_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S850000x128.size a
  hwx1_0 : ∀ i : grid1.Coords, EltTy.bits .f32 = 32 ∨ (Rect.block (s := S850000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S850000x1.size a
  hwx1_1 : ∀ i : grid1.Coords, EltTy.bits .f32 = 32 ∨ (Rect.block (s := S850000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S850000x128.size a
  hwx1_2 : ∀ i : grid1.Coords, EltTy.bits .f32 = 32 ∨ (Rect.block (s := S850000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S850000x128.size a
  hwx4_0 : ∀ i : grid4.Coords, EltTy.bits .f32 = 32 ∨ (Rect.block (s := S850000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S850000x1.size a
  hwx4_1 : ∀ i : grid4.Coords, EltTy.bits .f32 = 32 ∨ (Rect.block (s := S850000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S850000x128.size a
  hwx4_2 : ∀ i : grid4.Coords, EltTy.bits .f32 = 32 ∨ (Rect.block (s := S850000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S850000x64.size a
  hwx7_0 : ∀ i : grid7.Coords, EltTy.bits .f32 = 32 ∨ (Rect.block (s := S850000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S850000x1.size a
  hwx7_1 : ∀ i : grid7.Coords, EltTy.bits .f32 = 32 ∨ (Rect.block (s := S850000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S850000x64.size a
  hwx7_2 : ∀ i : grid7.Coords, EltTy.bits .f32 = 32 ∨ (Rect.block (s := S850000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S50000x64.size a
  hwx8_4 : ∀ i : grid8.Coords, EltTy.bits .f32 = 32 ∨ (Rect.block (s := S50000x64) S5000x64.size (cc8_transform_4 i) (hinb8_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v65) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v69) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v70) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v77) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v79) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v82) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v83) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v84) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v85) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v86) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 313
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x64, .f32⟩
  | 12 => ⟨S64, .f32⟩
  | 13 => ⟨S64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S50000, .i32⟩
  | 20 => ⟨S850000, .i32⟩
  | 21 => ⟨S850000, .i32⟩
  | 22 => ⟨S_, .f32⟩
  | 23 => ⟨S50000, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S_, .f32⟩
  | 40 => ⟨S50000, .f32⟩
  | 41 => ⟨S50000, .i1⟩
  | 42 => ⟨S_, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000, .f32⟩
  | 65 => ⟨S850000, .f32⟩
  | 66 => ⟨S50000x128, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x128, .f32⟩
  | 76 => ⟨S850000x1, .f32⟩
  | 77 => ⟨S850000x128, .f32⟩
  | 78 => ⟨S850000x128, .f32⟩
  | 79 => ⟨S_, .f32⟩
  | 80 => ⟨S50000x128, .f32⟩
  | 81 => ⟨S850000x1, .i32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S50000x128, .f32⟩
  | 95 => ⟨S_, .f32⟩
  | 96 => ⟨S50000, .f32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S_, .f32⟩
  | 104 => ⟨S50000x1, .f32⟩
  | 105 => ⟨S50000x1, .f32⟩
  | 106 => ⟨S50000x1, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000, .i32⟩
  | 119 => ⟨S850000, .i32⟩
  | 120 => ⟨S850000, .i32⟩
  | 121 => ⟨S_, .f32⟩
  | 122 => ⟨S50000, .f32⟩
  | 123 => ⟨S850000, .f32⟩
  | 124 => ⟨S_, .f32⟩
  | 125 => ⟨S50000, .f32⟩
  | 126 => ⟨S850000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .i1⟩
  | 3 => ⟨S_, .f32⟩
  | 4 => ⟨S_, .f32⟩
  | 5 => ⟨S50000, .f32⟩
  | 6 => ⟨S50000, .f32⟩
  | 7 => ⟨S_, .f32⟩
  | 8 => ⟨S50000, .f32⟩
  | 9 => ⟨S50000, .f32⟩
  | 10 => ⟨S_, .f32⟩
  | 11 => ⟨S50000, .f32⟩
  | 12 => ⟨S50000, .i1⟩
  | 13 => ⟨S_, .f32⟩
  | 14 => ⟨S_, .f32⟩
  | 15 => ⟨S50000, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S850000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S850000, .f32⟩
  | 37 => ⟨S50000x128, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x128, .f32⟩
  | 47 => ⟨S850000x1, .f32⟩
  | 48 => ⟨S850000x128, .f32⟩
  | 49 => ⟨S850000x128, .f32⟩
  | 50 => ⟨S_, .f32⟩
  | 51 => ⟨S50000x128, .f32⟩
  | 52 => ⟨S850000x1, .i32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S50000x128, .f32⟩
  | 66 => ⟨S_, .f32⟩
  | 67 => ⟨S50000, .f32⟩
  | 68 => ⟨S50000x1, .f32⟩
  | 69 => ⟨S_, .f32⟩
  | 70 => ⟨S50000x1, .f32⟩
  | 71 => ⟨S50000x1, .f32⟩
  | 72 => ⟨S50000x128, .f32⟩
  | 73 => ⟨S50000x128, .f32⟩
  | 74 => ⟨S_, .f32⟩
  | 75 => ⟨S50000x1, .f32⟩
  | 76 => ⟨S50000x1, .f32⟩
  | 77 => ⟨S50000x1, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000, .i32⟩
  | 90 => ⟨S850000, .i32⟩
  | 91 => ⟨S850000, .i32⟩
  | 92 => ⟨S_, .f32⟩
  | 93 => ⟨S50000, .f32⟩
  | 94 => ⟨S850000, .f32⟩
  | 95 => ⟨S_, .f32⟩
  | 96 => ⟨S50000, .f32⟩
  | 97 => ⟨S850000x1, .i32⟩
  | 98 => ⟨S50000, .f32⟩
  | 99 => ⟨S_, .f32⟩
  | 100 => ⟨S50000, .f32⟩
  | 101 => ⟨S50000, .i1⟩
  | 102 => ⟨S_, .f32⟩
  | 103 => ⟨S_, .f32⟩
  | 104 => ⟨S50000, .f32⟩
  | 105 => ⟨S50000, .f32⟩
  | 106 => ⟨S_, .f32⟩
  | 107 => ⟨S50000, .f32⟩
  | 108 => ⟨S50000, .f32⟩
  | 109 => ⟨S_, .f32⟩
  | 110 => ⟨S50000, .f32⟩
  | 111 => ⟨S50000, .i1⟩
  | 112 => ⟨S_, .f32⟩
  | 113 => ⟨S_, .f32⟩
  | 114 => ⟨S50000, .f32⟩
  | 115 => ⟨S50000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S850000, .f32⟩
  | 126 => ⟨S_, .i32⟩
  | 127 => ⟨S850000, .i32⟩
  | _ => ⟨S50000x128, .f32⟩

abbrev hbmTy0_2 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S850000, .f32⟩
  | 8 => ⟨S50000x64, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000x64, .f32⟩
  | 18 => ⟨S850000x1, .f32⟩
  | 19 => ⟨S850000x64, .f32⟩
  | 20 => ⟨S850000x64, .f32⟩
  | 21 => ⟨S_, .f32⟩
  | 22 => ⟨S50000x64, .f32⟩
  | 23 => ⟨S850000x1, .i32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x64, .f32⟩
  | 35 => ⟨S50000x64, .f32⟩
  | 36 => ⟨S50000x64, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x64, .f32⟩
  | 44 => ⟨S50000x64, .f32⟩
  | 45 => ⟨S_, .f32⟩
  | 46 => ⟨S50000x1, .f32⟩
  | 47 => ⟨S50000x1, .f32⟩
  | 48 => ⟨S50000x1, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_c : Ref sig .tc := ⟨.hbm, 46, rfl⟩
abbrev main_v20 : Ref sig .tc := ⟨.hbm, 47, rfl⟩
abbrev main_v21 : Ref sig .tc := ⟨.hbm, 48, rfl⟩
abbrev main_c_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_v29 : Ref sig .tc := ⟨.hbm, 58, rfl⟩
abbrev main_c_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_v37 : Ref sig .tc := ⟨.hbm, 68, rfl⟩
abbrev main_v38 : Ref sig .tc := ⟨.hbm, 69, rfl⟩
abbrev main_c_10 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_16 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call2_cst : Ref sig .tc := ⟨.hbm, 115, rfl⟩
abbrev main_call2_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_17 : Ref sig .tc := ⟨.hbm, 121, rfl⟩
abbrev main_v81 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_19 : Ref sig .tc := ⟨.hbm, 128, rfl⟩
abbrev main_v86 : Ref sig .tc := ⟨.hbm, 129, rfl⟩
abbrev main_v87 : Ref sig .tc := ⟨.hbm, 130, rfl⟩
abbrev main_cst_20 : Ref sig .tc := ⟨.hbm, 131, rfl⟩
abbrev main_call3_v0 : Ref sig .tc := ⟨.hbm, 132, rfl⟩
abbrev main_call3_v1 : Ref sig .tc := ⟨.hbm, 133, rfl⟩
abbrev main_v88 : Ref sig .tc := ⟨.hbm, 134, rfl⟩
abbrev main_cst_21 : Ref sig .tc := ⟨.hbm, 135, rfl⟩
abbrev main_v89 : Ref sig .tc := ⟨.hbm, 136, rfl⟩
abbrev main_v90 : Ref sig .tc := ⟨.hbm, 137, rfl⟩
abbrev main_cst_22 : Ref sig .tc := ⟨.hbm, 138, rfl⟩
abbrev main_v91 : Ref sig .tc := ⟨.hbm, 139, rfl⟩
abbrev main_v92 : Ref sig .tc := ⟨.hbm, 140, rfl⟩
abbrev main_cst_23 : Ref sig .tc := ⟨.hbm, 141, rfl⟩
abbrev main_call4_v0 : Ref sig .tc := ⟨.hbm, 142, rfl⟩
abbrev main_call4_v1 : Ref sig .tc := ⟨.hbm, 143, rfl⟩
abbrev main_v93 : Ref sig .tc := ⟨.hbm, 144, rfl⟩
abbrev main_c_24 : Ref sig .tc := ⟨.hbm, 145, rfl⟩
abbrev main_v94 : Ref sig .tc := ⟨.hbm, 146, rfl⟩
abbrev main_v95 : Ref sig .tc := ⟨.hbm, 147, rfl⟩
abbrev main_c_25 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_26 : Ref sig .tc := ⟨.hbm, 155, rfl⟩
abbrev main_v102 : Ref sig .tc := ⟨.hbm, 156, rfl⟩
abbrev main_v103 : Ref sig .tc := ⟨.hbm, 157, rfl⟩
abbrev main_c_27 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_c_28 : Ref sig .tc := ⟨.hbm, 166, rfl⟩
abbrev main_v111 : Ref sig .tc := ⟨.hbm, 167, rfl⟩
abbrev main_v112 : Ref sig .tc := ⟨.hbm, 168, rfl⟩
abbrev main_c_29 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_30 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_31 : Ref sig .tc := ⟨.hbm, 185, rfl⟩
abbrev main_v127 : Ref sig .tc := ⟨.hbm, 186, rfl⟩
abbrev main_v128 : Ref sig .tc := ⟨.hbm, 187, rfl⟩
abbrev main_cst_32 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_33 : Ref sig .tc := ⟨.hbm, 194, rfl⟩
abbrev main_v134 : Ref sig .tc := ⟨.hbm, 195, rfl⟩
abbrev main_v135 : Ref sig .tc := ⟨.hbm, 196, rfl⟩
abbrev main_cst_34 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_35 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_call5_cst : Ref sig .tc := ⟨.hbm, 214, rfl⟩
abbrev main_call5_v0 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_cst_36 : Ref sig .tc := ⟨.hbm, 220, rfl⟩
abbrev main_v155 : Ref sig .tc := ⟨.hbm, 221, rfl⟩
abbrev main_v156 : Ref sig .tc := ⟨.hbm, 222, rfl⟩
abbrev main_cst_37 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_cst_38 : Ref sig .tc := ⟨.hbm, 227, rfl⟩
abbrev main_v160 : Ref sig .tc := ⟨.hbm, 228, rfl⟩
abbrev main_v161 : Ref sig .tc := ⟨.hbm, 229, rfl⟩
abbrev main_cst_39 : Ref sig .tc := ⟨.hbm, 230, rfl⟩
abbrev main_call6_v0 : Ref sig .tc := ⟨.hbm, 231, rfl⟩
abbrev main_call6_v1 : Ref sig .tc := ⟨.hbm, 232, rfl⟩
abbrev main_v162 : Ref sig .tc := ⟨.hbm, 233, rfl⟩
abbrev main_cst_40 : Ref sig .tc := ⟨.hbm, 234, rfl⟩
abbrev main_v163 : Ref sig .tc := ⟨.hbm, 235, rfl⟩
abbrev main_v164 : Ref sig .tc := ⟨.hbm, 236, rfl⟩
abbrev main_cst_41 : Ref sig .tc := ⟨.hbm, 237, rfl⟩
abbrev main_v165 : Ref sig .tc := ⟨.hbm, 238, rfl⟩
abbrev main_v166 : Ref sig .tc := ⟨.hbm, 239, rfl⟩
abbrev main_cst_42 : Ref sig .tc := ⟨.hbm, 240, rfl⟩
abbrev main_call7_v0 : Ref sig .tc := ⟨.hbm, 241, rfl⟩
abbrev main_call7_v1 : Ref sig .tc := ⟨.hbm, 242, rfl⟩
abbrev main_v167 : Ref sig .tc := ⟨.hbm, 243, rfl⟩
abbrev main_c_43 : Ref sig .tc := ⟨.hbm, 244, rfl⟩
abbrev main_v168 : Ref sig .tc := ⟨.hbm, 245, rfl⟩
abbrev main_v169 : Ref sig .tc := ⟨.hbm, 246, rfl⟩
abbrev main_c_44 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_c_45 : Ref sig .tc := ⟨.hbm, 254, rfl⟩
abbrev main_v176 : Ref sig .tc := ⟨.hbm, 255, rfl⟩
abbrev main_v177 : Ref sig .tc := ⟨.hbm, 256, rfl⟩
abbrev main_c_46 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_c_47 : Ref sig .tc := ⟨.hbm, 265, rfl⟩
abbrev main_v185 : Ref sig .tc := ⟨.hbm, 266, rfl⟩
abbrev main_v186 : Ref sig .tc := ⟨.hbm, 267, rfl⟩
abbrev main_c_48 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_cst_49 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_cst_50 : Ref sig .tc := ⟨.hbm, 284, rfl⟩
abbrev main_v201 : Ref sig .tc := ⟨.hbm, 285, rfl⟩
abbrev main_v202 : Ref sig .tc := ⟨.hbm, 286, rfl⟩
abbrev main_cst_51 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_cst_52 : Ref sig .tc := ⟨.hbm, 293, rfl⟩
abbrev main_v208 : Ref sig .tc := ⟨.hbm, 294, rfl⟩
abbrev main_v209 : Ref sig .tc := ⟨.hbm, 295, rfl⟩
abbrev main_cst_53 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_cst_54 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The run of the tiled program, with its result kept.

  The tiled program's main function is a chain of twenty segments: stretches of host operations and nine tiled
  regions.  The buffer contents at every boundary are a fold from the launch memory; the last boundary's
  contents are `W20`.  Every weakly fair execution terminates, without a fault, in a state whose unscoped
  buffers hold exactly `W20`: so the result buffer holds `W20` read at the result, and each argument holds
  what it held at launch (no segment writes an argument).
-/
import proofs.«148666_j65377992179783_1_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the tiled program terminates, nothing faulting, with the result buffer at the
    last boundary's contents and every argument as launched. -/
theorem kernel_run : θ_run defs (onTc (τ := τ) (main (F := F))) ⟨m, fun _ => 0, ρ⟩ (fun r => ∀ c : Dev nD,
      r.2.mem ((c.tc : Thread nD τ).loc main_v86) = W20 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v86 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c)⟩)

end Cert.Bridge

end
-- ==== Proof.Keep.lean ====
/-
  Buffers that later segments leave alone.

  The contents of the tiled program's buffers at the boundaries between its segments are a fold from the launch
  memory: a stretch of host operations rewrites the buffers its operations write, a tiled region rewrites its
  own arrays, and every other buffer keeps its contents.  The node indices of the edges (sources and
  destinations, with the self loops appended), the edge coefficients, and the weight, bias, gain and shift
  arguments are each written at most once, early; this module walks a buffer forward from one boundary to a
  later one, given that nothing in between writes it.
-/
import proofs.«148666_j65377992179783_1_alg».proof.Proof.Gen.KernelIdeal.Frame

set_option maxRecDepth 16384

noncomputable section

namespace Cert.Bridge

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the stretch writes the buffer. -/
abbrev NotWritten (ops : List (HloOp τ sig (Elt F))) (b : Ref sig .tc) : Prop :=
  ∀ op ∈ ops, (Proc.devRef .tc b : DevRef τ sig) ∉ op.writes

/-- The buffer is none of the region's arrays. -/
abbrev NoArray {W : Nat} (arr : Fin W → Ref sig .tc) (b : Ref sig .tc) : Prop := ∀ w, arr w ≠ b

/-- Decides `NotWritten` for a literal stretch and a literal buffer: each operation writes one buffer, and that
    buffer is another one. -/
macro "not_written" : tactic => `(tactic| (
  refine List.forall_iff_forall_mem.mp ?_
  simp only [hostOps0, hostOps0_1, hostOps0_2, hostOps0_3, hostOps0_4, hostOps1, hostOps2, hostOps4, hostOps5, hostOps7, hostOps8,
    List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- A side condition of a walk: the stretch does not write the buffer, or the buffer is not a region's array. -/
macro "untouched" : tactic => `(tactic| first | not_written | decide)

/-! ## One step: a stretch of host operations -/

theorem host1 (b : Ref sig .tc) (h : NotWritten (F := F) hostOps0 b) : W1 m ρ c (Proc.devRef .tc b) = W0 m ρ c (Proc.devRef .tc b) := StableHlo.after_of_forall_not_mem _ _ h
theorem host2 (b : Ref sig .tc) (h : NotWritten (F := F) hostOps0_1 b) : W2 m ρ c (Proc.devRef .tc b) = W1 m ρ c (Proc.devRef .tc b) := StableHlo.after_of_forall_not_mem _ _ h
theorem host3 (b : Ref sig .tc) (h : NotWritten (F := F) hostOps0_2 b) : W3 m ρ c (Proc.devRef .tc b) = W2 m ρ c (Proc.devRef .tc b) := StableHlo.after_of_forall_not_mem _ _ h
theorem host4 (b : Ref sig .tc) (h : NotWritten (F := F) hostOps0_3 b) : W4 m ρ c (Proc.devRef .tc b) = W3 m ρ c (Proc.devRef .tc b) := StableHlo.after_of_forall_not_mem _ _ h
theorem host5 (b : Ref sig .tc) (h : NotWritten (F := F) hostOps0_4 b) : W5 m ρ c (Proc.devRef .tc b) = W4 m ρ c (Proc.devRef .tc b) := StableHlo.after_of_forall_not_mem _ _ h
theorem host7 (b : Ref sig .tc) (h : NotWritten (F := F) hostOps1 b) : W7 m ρ c (Proc.devRef .tc b) = W6 m ρ c (Proc.devRef .tc b) := StableHlo.after_of_forall_not_mem _ _ h
theorem host9 (b : Ref sig .tc) (h : NotWritten (F := F) hostOps2 b) : W9 m ρ c (Proc.devRef .tc b) = W8 m ρ c (Proc.devRef .tc b) := StableHlo.after_of_forall_not_mem _ _ h
theorem host12 (b : Ref sig .tc) (h : NotWritten (F := F) hostOps4 b) : W12 m ρ c (Proc.devRef .tc b) = W11 m ρ c (Proc.devRef .tc b) := StableHlo.after_of_forall_not_mem _ _ h
theorem host14 (b : Ref sig .tc) (h : NotWritten (F := F) hostOps5 b) : W14 m ρ c (Proc.devRef .tc b) = W13 m ρ c (Proc.devRef .tc b) := StableHlo.after_of_forall_not_mem _ _ h
theorem host17 (b : Ref sig .tc) (h : NotWritten (F := F) hostOps7 b) : W17 m ρ c (Proc.devRef .tc b) = W16 m ρ c (Proc.devRef .tc b) := StableHlo.after_of_forall_not_mem _ _ h

/-! ## Walks between the boundaries where something is read

The boundaries: 5 is the first matrix product's entry, 6 its exit, 8 the first scaling's exit, 10 the first
normalization's exit, 11 the second matrix product's exit, 13 the second scaling's exit, 15 the second
normalization's exit, 16 the third matrix product's exit, 18 the third scaling's exit. -/

/-- From the launch to boundary 5: five stretches of host operations. -/
theorem keep_0_5 (b : Ref sig .tc) (h1 : NotWritten (F := F) hostOps0 b) (h2 : NotWritten (F := F) hostOps0_1 b)
    (h3 : NotWritten (F := F) hostOps0_2 b) (h4 : NotWritten (F := F) hostOps0_3 b) (h5 : NotWritten (F := F) hostOps0_4 b) :
    W5 m ρ c (Proc.devRef .tc b) = m ((c : Thread nD τ).loc b) :=
  (host5 m ρ c b h5).trans <| (host4 m ρ c b h4).trans <| (host3 m ρ c b h3).trans <| (host2 m ρ c b h2).trans <|
    (host1 m ρ c b h1).trans rfl

/-- Boundary 5 to 8: the first matrix product, the first gather stretch, the first scaling. -/
theorem keep_5_8 (b : Ref sig .tc) (r0 : NoArray (Pipeline.arrRef spec0) b) (h : NotWritten (F := F) hostOps1 b)
    (r1 : NoArray (Pipeline.arrRef spec1) b) : W8 m ρ c (Proc.devRef .tc b) = W5 m ρ c (Proc.devRef .tc b) :=
  (W8_of_ne m ρ c b r1).trans <| (host7 m ρ c b h).trans (W6_of_ne m ρ c b r0)

/-- Boundary 8 to 10: the first scatter stretch and the first normalization. -/
theorem keep_8_10 (b : Ref sig .tc) (h : NotWritten (F := F) hostOps2 b) (r2 : NoArray (Pipeline.arrRef spec2) b) :
    W10 m ρ c (Proc.devRef .tc b) = W8 m ρ c (Proc.devRef .tc b) :=
  (W10_of_ne m ρ c b r2).trans (host9 m ρ c b h)

/-- Boundary 10 to 13: the second matrix product, gather stretch and scaling. -/
theorem keep_10_13 (b : Ref sig .tc) (r3 : NoArray (Pipeline.arrRef spec3) b) (h : NotWritten (F := F) hostOps4 b)
    (r4 : NoArray (Pipeline.arrRef spec4) b) : W13 m ρ c (Proc.devRef .tc b) = W10 m ρ c (Proc.devRef .tc b) :=
  (W13_of_ne m ρ c b r4).trans <| (host12 m ρ c b h).trans (W11_of_ne m ρ c b r3)

/-- Boundary 13 to 15: the second scatter stretch and the second normalization. -/
theorem keep_13_15 (b : Ref sig .tc) (h : NotWritten (F := F) hostOps5 b) (r5 : NoArray (Pipeline.arrRef spec5) b) :
    W15 m ρ c (Proc.devRef .tc b) = W13 m ρ c (Proc.devRef .tc b) :=
  (W15_of_ne m ρ c b r5).trans (host14 m ρ c b h)

/-- Boundary 15 to 18: the third matrix product, gather stretch and scaling. -/
theorem keep_15_18 (b : Ref sig .tc) (r6 : NoArray (Pipeline.arrRef spec6) b) (h : NotWritten (F := F) hostOps7 b)
    (r7 : NoArray (Pipeline.arrRef spec7) b) : W18 m ρ c (Proc.devRef .tc b) = W15 m ρ c (Proc.devRef .tc b) :=
  (W18_of_ne m ρ c b r7).trans <| (host17 m ρ c b h).trans (W16_of_ne m ρ c b r6)

/-- Boundary 5 to 11 (where the second gather stretch reads). -/
theorem keep_5_11 (b : Ref sig .tc) (r0 : NoArray (Pipeline.arrRef spec0) b) (h1 : NotWritten (F := F) hostOps1 b)
    (r1 : NoArray (Pipeline.arrRef spec1) b) (h2 : NotWritten (F := F) hostOps2 b) (r2 : NoArray (Pipeline.arrRef spec2) b)
    (r3 : NoArray (Pipeline.arrRef spec3) b) : W11 m ρ c (Proc.devRef .tc b) = W5 m ρ c (Proc.devRef .tc b) :=
  (W11_of_ne m ρ c b r3).trans <| (keep_8_10 m ρ c b h2 r2).trans (keep_5_8 m ρ c b r0 h1 r1)

/-- Boundary 11 to 16 (where the third gather stretch reads). -/
theorem keep_11_16 (b : Ref sig .tc) (h4 : NotWritten (F := F) hostOps4 b) (r4 : NoArray (Pipeline.arrRef spec4) b)
    (h5 : NotWritten (F := F) hostOps5 b) (r5 : NoArray (Pipeline.arrRef spec5) b) (r6 : NoArray (Pipeline.arrRef spec6) b) :
    W16 m ρ c (Proc.devRef .tc b) = W11 m ρ c (Proc.devRef .tc b) :=
  (W16_of_ne m ρ c b r6).trans <| (keep_13_15 m ρ c b h5 r5).trans <| (W13_of_ne m ρ c b r4).trans (host12 m ρ c b h4)

/-! ## An argument nobody writes, from the launch to a boundary -/

theorem arg_at_8 (b : Ref sig .tc) (h1 : NotWritten (F := F) hostOps0 b) (h2 : NotWritten (F := F) hostOps0_1 b)
    (h3 : NotWritten (F := F) hostOps0_2 b) (h4 : NotWritten (F := F) hostOps0_3 b) (h5 : NotWritten (F := F) hostOps0_4 b)
    (r0 : NoArray (Pipeline.arrRef spec0) b) (h7 : NotWritten (F := F) hostOps1 b) (r1 : NoArray (Pipeline.arrRef spec1) b) :
    W8 m ρ c (Proc.devRef .tc b) = m ((c : Thread nD τ).loc b) :=
  (keep_5_8 m ρ c b r0 h7 r1).trans (keep_0_5 m ρ c b h1 h2 h3 h4 h5)

theorem arg_at_10 (b : Ref sig .tc) (h1 : NotWritten (F := F) hostOps0 b) (h2 : NotWritten (F := F) hostOps0_1 b)
    (h3 : NotWritten (F := F) hostOps0_2 b) (h4 : NotWritten (F := F) hostOps0_3 b) (h5 : NotWritten (F := F) hostOps0_4 b)
    (r0 : NoArray (Pipeline.arrRef spec0) b) (h7 : NotWritten (F := F) hostOps1 b) (r1 : NoArray (Pipeline.arrRef spec1) b)
    (h9 : NotWritten (F := F) hostOps2 b) (r2 : NoArray (Pipeline.arrRef spec2) b) :
    W10 m ρ c (Proc.devRef .tc b) = m ((c : Thread nD τ).loc b) :=
  (keep_8_10 m ρ c b h9 r2).trans (arg_at_8 m ρ c b h1 h2 h3 h4 h5 r0 h7 r1)

theorem arg_at_13 (b : Ref sig .tc) (h1 : NotWritten (F := F) hostOps0 b) (h2 : NotWritten (F := F) hostOps0_1 b)
    (h3 : NotWritten (F := F) hostOps0_2 b) (h4 : NotWritten (F := F) hostOps0_3 b) (h5 : NotWritten (F := F) hostOps0_4 b)
    (r0 : NoArray (Pipeline.arrRef spec0) b) (h7 : NotWritten (F := F) hostOps1 b) (r1 : NoArray (Pipeline.arrRef spec1) b)
    (h9 : NotWritten (F := F) hostOps2 b) (r2 : NoArray (Pipeline.arrRef spec2) b)
    (r3 : NoArray (Pipeline.arrRef spec3) b) (h12 : NotWritten (F := F) hostOps4 b) (r4 : NoArray (Pipeline.arrRef spec4) b) :
    W13 m ρ c (Proc.devRef .tc b) = m ((c : Thread nD τ).loc b) :=
  (keep_10_13 m ρ c b r3 h12 r4).trans (arg_at_10 m ρ c b h1 h2 h3 h4 h5 r0 h7 r1 h9 r2)

theorem arg_at_15 (b : Ref sig .tc) (h1 : NotWritten (F := F) hostOps0 b) (h2 : NotWritten (F := F) hostOps0_1 b)
    (h3 : NotWritten (F := F) hostOps0_2 b) (h4 : NotWritten (F := F) hostOps0_3 b) (h5 : NotWritten (F := F) hostOps0_4 b)
    (r0 : NoArray (Pipeline.arrRef spec0) b) (h7 : NotWritten (F := F) hostOps1 b) (r1 : NoArray (Pipeline.arrRef spec1) b)
    (h9 : NotWritten (F := F) hostOps2 b) (r2 : NoArray (Pipeline.arrRef spec2) b)
    (r3 : NoArray (Pipeline.arrRef spec3) b) (h12 : NotWritten (F := F) hostOps4 b) (r4 : NoArray (Pipeline.arrRef spec4) b)
    (h14 : NotWritten (F := F) hostOps5 b) (r5 : NoArray (Pipeline.arrRef spec5) b) :
    W15 m ρ c (Proc.devRef .tc b) = m ((c : Thread nD τ).loc b) :=
  (keep_13_15 m ρ c b h14 r5).trans (arg_at_13 m ρ c b h1 h2 h3 h4 h5 r0 h7 r1 h9 r2 r3 h12 r4)

theorem arg_at_18 (b : Ref sig .tc) (h1 : NotWritten (F := F) hostOps0 b) (h2 : NotWritten (F := F) hostOps0_1 b)
    (h3 : NotWritten (F := F) hostOps0_2 b) (h4 : NotWritten (F := F) hostOps0_3 b) (h5 : NotWritten (F := F) hostOps0_4 b)
    (r0 : NoArray (Pipeline.arrRef spec0) b) (h7 : NotWritten (F := F) hostOps1 b) (r1 : NoArray (Pipeline.arrRef spec1) b)
    (h9 : NotWritten (F := F) hostOps2 b) (r2 : NoArray (Pipeline.arrRef spec2) b)
    (r3 : NoArray (Pipeline.arrRef spec3) b) (h12 : NotWritten (F := F) hostOps4 b) (r4 : NoArray (Pipeline.arrRef spec4) b)
    (h14 : NotWritten (F := F) hostOps5 b) (r5 : NoArray (Pipeline.arrRef spec5) b)
    (r6 : NoArray (Pipeline.arrRef spec6) b) (h17 : NotWritten (F := F) hostOps7 b) (r7 : NoArray (Pipeline.arrRef spec7) b) :
    W18 m ρ c (Proc.devRef .tc b) = m ((c : Thread nD τ).loc b) :=
  (keep_15_18 m ρ c b r6 h17 r7).trans (arg_at_15 m ρ c b h1 h2 h3 h4 h5 r0 h7 r1 h9 r2 r3 h12 r4 h14 r5)

end Cert.Bridge

end
-- ==== Proof.Coef.lean ====
/-
  The edge coefficients, stretch by stretch.

  The coefficient of an edge is its weight times the inverse square roots of the weighted degrees of its two
  endpoints (zero where a degree is not positive).  The tiled program computes them before the first region in five
  stretches of host operations: the index vectors, the weights with the self loops' ones appended, the degrees
  (a scatter-add) and their sign test; the degree or one where it is not positive (a small called function); its
  power −1/2 and the sign test again; that power or zero (the same called function); and the two gathers and two
  products.  Each stretch is folded here from contents about which only the few buffers it reads are known; what
  it writes is the reference's stage of the same buffer.  The called function's operations act through typed
  references, whose conversions are the identity.
-/
import proofs.«148666_j65377992179783_1_alg».proof.Proof.Gen.KernelIdeal.Frame
import proofs.«148666_j65377992179783_1_alg».proof.Proof.RefRead

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.ReferenceIdeal.ReadP

variable (U : Valuation τ sig (Elt Ideal))
variable (x1 : (⟨S2x800000, .i32⟩ : BufTy).Contents (Elt Ideal)) (x2 : (⟨S800000, .f32⟩ : BufTy).Contents (Elt Ideal))

/-! ## Values crossing a function call

The called function's operations name each buffer together with the type of the value it holds, and move a value
between that type and the buffer's own along the equation of the two.  For each of the twelve buffers so named the
two types are the same type, so the move is the identity. -/

theorem kernel_toBuf_main_cst_2 (h1 h2 h3) (v : (⟨S_, .f32⟩ : BufTy).Contents (Elt Ideal)) : (TRef.of (sig := sig) (T := ⟨S_, .f32⟩) main_cst_2 h1 h2 h3).toBuf (Val := Elt Ideal) v = v := rfl
theorem kernel_ofBuf_main_cst_2 (h1 h2 h3) (v : (⟨S_, .f32⟩ : BufTy).Contents (Elt Ideal)) : (TRef.of (sig := sig) (T := ⟨S_, .f32⟩) main_cst_2 h1 h2 h3).ofBuf (Val := Elt Ideal) v = v := rfl
theorem kernel_toBuf_main_call0_v0 (h1 h2 h3) (v : (⟨S_, .f32⟩ : BufTy).Contents (Elt Ideal)) : (TRef.of (sig := sig) (T := ⟨S_, .f32⟩) main_call0_v0 h1 h2 h3).toBuf (Val := Elt Ideal) v = v := rfl
theorem kernel_ofBuf_main_call0_v0 (h1 h2 h3) (v : (⟨S_, .f32⟩ : BufTy).Contents (Elt Ideal)) : (TRef.of (sig := sig) (T := ⟨S_, .f32⟩) main_call0_v0 h1 h2 h3).ofBuf (Val := Elt Ideal) v = v := rfl
theorem kernel_toBuf_main_call0_v1 (h1 h2 h3) (v : (⟨S50000, .f32⟩ : BufTy).Contents (Elt Ideal)) : (TRef.of (sig := sig) (T := ⟨S50000, .f32⟩) main_call0_v1 h1 h2 h3).toBuf (Val := Elt Ideal) v = v := rfl
theorem kernel_ofBuf_main_call0_v1 (h1 h2 h3) (v : (⟨S50000, .f32⟩ : BufTy).Contents (Elt Ideal)) : (TRef.of (sig := sig) (T := ⟨S50000, .f32⟩) main_call0_v1 h1 h2 h3).ofBuf (Val := Elt Ideal) v = v := rfl
theorem kernel_ofBuf_main_v13 (h1 h2 h3) (v : (⟨S50000, .i1⟩ : BufTy).Contents (Elt Ideal)) : (TRef.of (sig := sig) (T := ⟨S50000, .i1⟩) main_v13 h1 h2 h3).ofBuf (Val := Elt Ideal) v = v := rfl
theorem kernel_ofBuf_main_v11 (h1 h2 h3) (v : (⟨S50000, .f32⟩ : BufTy).Contents (Elt Ideal)) : (TRef.of (sig := sig) (T := ⟨S50000, .f32⟩) main_v11 h1 h2 h3).ofBuf (Val := Elt Ideal) v = v := rfl
theorem kernel_toBuf_main_v14 (h1 h2 h3) (v : (⟨S50000, .f32⟩ : BufTy).Contents (Elt Ideal)) : (TRef.of (sig := sig) (T := ⟨S50000, .f32⟩) main_v14 h1 h2 h3).toBuf (Val := Elt Ideal) v = v := rfl
theorem kernel_toBuf_main_cst_5 (h1 h2 h3) (v : (⟨S_, .f32⟩ : BufTy).Contents (Elt Ideal)) : (TRef.of (sig := sig) (T := ⟨S_, .f32⟩) main_cst_5 h1 h2 h3).toBuf (Val := Elt Ideal) v = v := rfl
theorem kernel_ofBuf_main_cst_5 (h1 h2 h3) (v : (⟨S_, .f32⟩ : BufTy).Contents (Elt Ideal)) : (TRef.of (sig := sig) (T := ⟨S_, .f32⟩) main_cst_5 h1 h2 h3).ofBuf (Val := Elt Ideal) v = v := rfl
theorem kernel_toBuf_main_call1_v0 (h1 h2 h3) (v : (⟨S_, .f32⟩ : BufTy).Contents (Elt Ideal)) : (TRef.of (sig := sig) (T := ⟨S_, .f32⟩) main_call1_v0 h1 h2 h3).toBuf (Val := Elt Ideal) v = v := rfl
theorem kernel_ofBuf_main_call1_v0 (h1 h2 h3) (v : (⟨S_, .f32⟩ : BufTy).Contents (Elt Ideal)) : (TRef.of (sig := sig) (T := ⟨S_, .f32⟩) main_call1_v0 h1 h2 h3).ofBuf (Val := Elt Ideal) v = v := rfl
theorem kernel_toBuf_main_call1_v1 (h1 h2 h3) (v : (⟨S50000, .f32⟩ : BufTy).Contents (Elt Ideal)) : (TRef.of (sig := sig) (T := ⟨S50000, .f32⟩) main_call1_v1 h1 h2 h3).toBuf (Val := Elt Ideal) v = v := rfl
theorem kernel_ofBuf_main_call1_v1 (h1 h2 h3) (v : (⟨S50000, .f32⟩ : BufTy).Contents (Elt Ideal)) : (TRef.of (sig := sig) (T := ⟨S50000, .f32⟩) main_call1_v1 h1 h2 h3).ofBuf (Val := Elt Ideal) v = v := rfl
theorem kernel_ofBuf_main_v18 (h1 h2 h3) (v : (⟨S50000, .i1⟩ : BufTy).Contents (Elt Ideal)) : (TRef.of (sig := sig) (T := ⟨S50000, .i1⟩) main_v18 h1 h2 h3).ofBuf (Val := Elt Ideal) v = v := rfl
theorem kernel_ofBuf_main_v16 (h1 h2 h3) (v : (⟨S50000, .f32⟩ : BufTy).Contents (Elt Ideal)) : (TRef.of (sig := sig) (T := ⟨S50000, .f32⟩) main_v16 h1 h2 h3).ofBuf (Val := Elt Ideal) v = v := rfl
theorem kernel_toBuf_main_v19 (h1 h2 h3) (v : (⟨S50000, .f32⟩ : BufTy).Contents (Elt Ideal)) : (TRef.of (sig := sig) (T := ⟨S50000, .f32⟩) main_v19 h1 h2 h3).toBuf (Val := Elt Ideal) v = v := rfl

/-- The moves of a value across a function call, all the identity. -/
macro "across_calls" : tactic => `(tactic| simp only [id_eq,
  kernel_toBuf_main_cst_2, kernel_ofBuf_main_cst_2, kernel_toBuf_main_call0_v0, kernel_ofBuf_main_call0_v0, kernel_toBuf_main_call0_v1, kernel_ofBuf_main_call0_v1,
  kernel_ofBuf_main_v13, kernel_ofBuf_main_v11, kernel_toBuf_main_v14, kernel_toBuf_main_cst_5, kernel_ofBuf_main_cst_5, kernel_toBuf_main_call1_v0, kernel_ofBuf_main_call1_v0,
  kernel_toBuf_main_call1_v1, kernel_ofBuf_main_call1_v1, kernel_ofBuf_main_v18, kernel_ofBuf_main_v16, kernel_toBuf_main_v19])

/-! ## The first stretch: indices, weights, degrees -/

set_option maxHeartbeats 4000000 in
/-- The weights with the self loops' ones appended. -/
theorem first_weights (a2 : U (Proc.devRef .tc main_arg2) = x2) :
    StableHlo.after hostOps0 U (Proc.devRef .tc main_v8) = val_main_v8 (F := Ideal) x2 := by
  after_results
  rw [a2]
  rfl

set_option maxHeartbeats 4000000 in
/-- The weighted degrees. -/
theorem first_degrees (a1 : U (Proc.devRef .tc main_arg1) = x1) (a2 : U (Proc.devRef .tc main_arg2) = x2) :
    StableHlo.after hostOps0 U (Proc.devRef .tc main_v11) = val_main_v11 (F := Ideal) x1 x2 := by
  after_results
  rw [a1, a2]
  rfl

set_option maxHeartbeats 4000000 in
/-- Where the degree is positive. -/
theorem first_positive (a1 : U (Proc.devRef .tc main_arg1) = x1) (a2 : U (Proc.devRef .tc main_arg2) = x2) :
    StableHlo.after hostOps0 U (Proc.devRef .tc main_v13) = val_main_v13 (F := Ideal) x1 x2 := by
  after_results
  rw [a1, a2]
  rfl

/-- The constant one the first called function is given. -/
theorem first_one : StableHlo.after hostOps0 U (Proc.devRef .tc main_cst_2) = val_main_cst_2 (F := Ideal) := by
  after_results
  rfl

/-! ## The second stretch: the degree, or one where it is not positive -/

set_option maxHeartbeats 4000000 in
theorem safe_degree (h13 : U (Proc.devRef .tc main_v13) = val_main_v13 (F := Ideal) x1 x2)
    (h11 : U (Proc.devRef .tc main_v11) = val_main_v11 (F := Ideal) x1 x2)
    (hc : U (Proc.devRef .tc main_cst_2) = val_main_cst_2 (F := Ideal)) :
    StableHlo.after hostOps0_1 U (Proc.devRef .tc main_v14) = val_main_v14 (F := Ideal) x1 x2 := by
  after_results
  across_calls
  rw [h13, h11, hc]
  rfl

/-! ## The third stretch: the power −1/2, and the sign test again -/

set_option maxHeartbeats 4000000 in
theorem inv_sqrt (h14 : U (Proc.devRef .tc main_v14) = val_main_v14 (F := Ideal) x1 x2) :
    StableHlo.after hostOps0_2 U (Proc.devRef .tc main_v16) = val_main_v16 (F := Ideal) x1 x2 := by
  after_results
  rw [h14]
  rfl

set_option maxHeartbeats 4000000 in
theorem positive_again (h11 : U (Proc.devRef .tc main_v11) = val_main_v11 (F := Ideal) x1 x2) :
    StableHlo.after hostOps0_2 U (Proc.devRef .tc main_v18) = val_main_v18 (F := Ideal) x1 x2 := by
  after_results
  rw [h11]
  rfl

/-- The constant zero the second called function is given. -/
theorem second_zero : StableHlo.after hostOps0_2 U (Proc.devRef .tc main_cst_5) = val_main_cst_5 (F := Ideal) := by
  after_results
  rfl

/-! ## The fourth stretch: that power, or zero where the degree is not positive -/

set_option maxHeartbeats 4000000 in
theorem inv_sqrt_or_zero (h18 : U (Proc.devRef .tc main_v18) = val_main_v18 (F := Ideal) x1 x2)
    (h16 : U (Proc.devRef .tc main_v16) = val_main_v16 (F := Ideal) x1 x2)
    (hc : U (Proc.devRef .tc main_cst_5) = val_main_cst_5 (F := Ideal)) :
    StableHlo.after hostOps0_3 U (Proc.devRef .tc main_v19) = val_main_v19 (F := Ideal) x1 x2 := by
  after_results
  across_calls
  rw [h18, h16, hc]
  rfl

/-! ## The fifth stretch: the two gathers and the two products -/

set_option maxHeartbeats 4000000 in
theorem coefficients (h5 : U (Proc.devRef .tc main_v5) = val_main_v5 (F := Ideal) x1)
    (h6 : U (Proc.devRef .tc main_v6) = val_main_v6 (F := Ideal) x1)
    (h8 : U (Proc.devRef .tc main_v8) = val_main_v8 (F := Ideal) x2)
    (h19 : U (Proc.devRef .tc main_v19) = val_main_v19 (F := Ideal) x1 x2) :
    StableHlo.after hostOps0_4 U (Proc.devRef .tc main_v35) = val_main_v35 (F := Ideal) x1 x2 := by
  after_results
  rw [h5, h6, h8, h19]
  rfl

end Cert.Bridge

end
-- ==== Proof.Stage0.lean ====
/-
  What the tiled program's later segments find in the buffers written early.

  The first stretches of host operations compute, from the edge list and the edge weights alone, three arrays
  that every layer reads again: the source node of every edge and self loop, the destination node of every edge
  and self loop, and the edge coefficient (the weight times the inverse square roots of the weighted degrees of
  its two endpoints).  They are the same host operations, in the same order, as the reference's; so each array is
  the reference's stage of the same name, applied to the launch contents of the arguments.  No later segment
  writes these arrays, nor any argument, so each is found unchanged wherever it is read.
-/
import proofs.«148666_j65377992179783_1_alg».proof.Proof.Keep
import proofs.«148666_j65377992179783_1_alg».proof.Proof.Coef
import proofs.«148666_j65377992179783_1_alg».proof.Proof.RefRead

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## The arguments, where they are read -/

/-- The node features at the first matrix product's entry. -/
theorem arg0_W5 : W5 m ρ c (Proc.devRef .tc main_arg0) = m ((c : Thread nD τ).loc main_arg0) := by
  refine keep_0_5 m ρ c main_arg0 ?_ ?_ ?_ ?_ ?_ <;> untouched
/-- The first weight matrix at the first matrix product's entry. -/
theorem arg3_W5 : W5 m ρ c (Proc.devRef .tc main_arg3) = m ((c : Thread nD τ).loc main_arg3) := by
  refine keep_0_5 m ρ c main_arg3 ?_ ?_ ?_ ?_ ?_ <;> untouched
/-- The first layer's bias, gain and shift where the first scatter stretch reshapes them. -/
theorem arg4_W8 : W8 m ρ c (Proc.devRef .tc main_arg4) = m ((c : Thread nD τ).loc main_arg4) := by
  refine arg_at_8 m ρ c main_arg4 ?_ ?_ ?_ ?_ ?_ ?_ ?_ ?_ <;> untouched
theorem arg5_W8 : W8 m ρ c (Proc.devRef .tc main_arg5) = m ((c : Thread nD τ).loc main_arg5) := by
  refine arg_at_8 m ρ c main_arg5 ?_ ?_ ?_ ?_ ?_ ?_ ?_ ?_ <;> untouched
theorem arg6_W8 : W8 m ρ c (Proc.devRef .tc main_arg6) = m ((c : Thread nD τ).loc main_arg6) := by
  refine arg_at_8 m ρ c main_arg6 ?_ ?_ ?_ ?_ ?_ ?_ ?_ ?_ <;> untouched
/-- The second weight matrix at the second matrix product's entry. -/
theorem arg7_W10 : W10 m ρ c (Proc.devRef .tc main_arg7) = m ((c : Thread nD τ).loc main_arg7) := by
  refine arg_at_10 m ρ c main_arg7 ?_ ?_ ?_ ?_ ?_ ?_ ?_ ?_ ?_ ?_ <;> untouched
/-- The second layer's bias, gain and shift where the second scatter stretch reshapes them. -/
theorem arg8_W13 : W13 m ρ c (Proc.devRef .tc main_arg8) = m ((c : Thread nD τ).loc main_arg8) := by
  refine arg_at_13 m ρ c main_arg8 ?_ ?_ ?_ ?_ ?_ ?_ ?_ ?_ ?_ ?_ ?_ ?_ ?_ <;> untouched
theorem arg9_W13 : W13 m ρ c (Proc.devRef .tc main_arg9) = m ((c : Thread nD τ).loc main_arg9) := by
  refine arg_at_13 m ρ c main_arg9 ?_ ?_ ?_ ?_ ?_ ?_ ?_ ?_ ?_ ?_ ?_ ?_ ?_ <;> untouched
theorem arg10_W13 : W13 m ρ c (Proc.devRef .tc main_arg10) = m ((c : Thread nD τ).loc main_arg10) := by
  refine arg_at_13 m ρ c main_arg10 ?_ ?_ ?_ ?_ ?_ ?_ ?_ ?_ ?_ ?_ ?_ ?_ ?_ <;> untouched
/-- The third weight matrix at the third matrix product's entry. -/
theorem arg11_W15 : W15 m ρ c (Proc.devRef .tc main_arg11) = m ((c : Thread nD τ).loc main_arg11) := by
  refine arg_at_15 m ρ c main_arg11 ?_ ?_ ?_ ?_ ?_ ?_ ?_ ?_ ?_ ?_ ?_ ?_ ?_ ?_ ?_ <;> untouched
/-- The third layer's bias, gain and shift where the third scatter stretch reshapes them. -/
theorem arg12_W18 : W18 m ρ c (Proc.devRef .tc main_arg12) = m ((c : Thread nD τ).loc main_arg12) := by
  refine arg_at_18 m ρ c main_arg12 ?_ ?_ ?_ ?_ ?_ ?_ ?_ ?_ ?_ ?_ ?_ ?_ ?_ ?_ ?_ ?_ ?_ ?_ <;> untouched
theorem arg13_W18 : W18 m ρ c (Proc.devRef .tc main_arg13) = m ((c : Thread nD τ).loc main_arg13) := by
  refine arg_at_18 m ρ c main_arg13 ?_ ?_ ?_ ?_ ?_ ?_ ?_ ?_ ?_ ?_ ?_ ?_ ?_ ?_ ?_ ?_ ?_ ?_ <;> untouched
theorem arg14_W18 : W18 m ρ c (Proc.devRef .tc main_arg14) = m ((c : Thread nD τ).loc main_arg14) := by
  refine arg_at_18 m ρ c main_arg14 ?_ ?_ ?_ ?_ ?_ ?_ ?_ ?_ ?_ ?_ ?_ ?_ ?_ ?_ ?_ ?_ ?_ ?_ <;> untouched

/-! ## The three early arrays at the first matrix product's entry -/

set_option maxHeartbeats 4000000 in
/-- The source nodes (edges, then self loops) after the first stretch are the reference's. -/
theorem src_W1 : W1 m ρ c (Proc.devRef .tc main_v5) = val_main_v5 (F := Ideal) (m ((c : Thread nD τ).loc main_arg1)) := by
  show StableHlo.after hostOps0 (W0 m ρ c) (Proc.devRef .tc main_v5) = _
  after_results
  rfl

set_option maxHeartbeats 4000000 in
/-- The destination nodes (edges, then self loops) after the first stretch are the reference's. -/
theorem dst_W1 : W1 m ρ c (Proc.devRef .tc main_v6) = val_main_v6 (F := Ideal) (m ((c : Thread nD τ).loc main_arg1)) := by
  show StableHlo.after hostOps0 (W0 m ρ c) (Proc.devRef .tc main_v6) = _
  after_results
  rfl

/-- The source nodes at the first matrix product's entry. -/
theorem src_W5 : W5 m ρ c (Proc.devRef .tc main_v5) = val_main_v5 (F := Ideal) (m ((c : Thread nD τ).loc main_arg1)) :=
  (host5 m ρ c main_v5 (by not_written)).trans <| (host4 m ρ c main_v5 (by not_written)).trans <|
    (host3 m ρ c main_v5 (by not_written)).trans <| (host2 m ρ c main_v5 (by not_written)).trans (src_W1 m ρ c)

/-- The destination nodes at the first matrix product's entry. -/
theorem dst_W5 : W5 m ρ c (Proc.devRef .tc main_v6) = val_main_v6 (F := Ideal) (m ((c : Thread nD τ).loc main_arg1)) :=
  (host5 m ρ c main_v6 (by not_written)).trans <| (host4 m ρ c main_v6 (by not_written)).trans <|
    (host3 m ρ c main_v6 (by not_written)).trans <| (host2 m ρ c main_v6 (by not_written)).trans (dst_W1 m ρ c)

/-- The edge coefficients are the reference's: the five stretches in order, each reading what the earlier ones left. -/
theorem coef_W5 : W5 m ρ c (Proc.devRef .tc main_v35) = val_main_v35 (F := Ideal) (m ((c : Thread nD τ).loc main_arg1)) (m ((c : Thread nD τ).loc main_arg2)) := by
  have a1 : W0 m ρ c (Proc.devRef .tc main_arg1) = (m ((c : Thread nD τ).loc main_arg1)) := rfl
  have a2 : W0 m ρ c (Proc.devRef .tc main_arg2) = (m ((c : Thread nD τ).loc main_arg2)) := rfl
  -- after the first stretch
  have w8 : W1 m ρ c (Proc.devRef .tc main_v8) = val_main_v8 (F := Ideal) (m ((c : Thread nD τ).loc main_arg2)) := first_weights (W0 m ρ c) (m ((c : Thread nD τ).loc main_arg2)) a2
  have d11 : W1 m ρ c (Proc.devRef .tc main_v11) = val_main_v11 (F := Ideal) (m ((c : Thread nD τ).loc main_arg1)) (m ((c : Thread nD τ).loc main_arg2)) := first_degrees (W0 m ρ c) (m ((c : Thread nD τ).loc main_arg1)) (m ((c : Thread nD τ).loc main_arg2)) a1 a2
  have p13 : W1 m ρ c (Proc.devRef .tc main_v13) = val_main_v13 (F := Ideal) (m ((c : Thread nD τ).loc main_arg1)) (m ((c : Thread nD τ).loc main_arg2)) := first_positive (W0 m ρ c) (m ((c : Thread nD τ).loc main_arg1)) (m ((c : Thread nD τ).loc main_arg2)) a1 a2
  have one : W1 m ρ c (Proc.devRef .tc main_cst_2) = val_main_cst_2 (F := Ideal) := first_one (W0 m ρ c)
  -- after the second
  have s14 : W2 m ρ c (Proc.devRef .tc main_v14) = val_main_v14 (F := Ideal) (m ((c : Thread nD τ).loc main_arg1)) (m ((c : Thread nD τ).loc main_arg2)) := safe_degree (W1 m ρ c) (m ((c : Thread nD τ).loc main_arg1)) (m ((c : Thread nD τ).loc main_arg2)) p13 d11 one
  have d11' : W2 m ρ c (Proc.devRef .tc main_v11) = val_main_v11 (F := Ideal) (m ((c : Thread nD τ).loc main_arg1)) (m ((c : Thread nD τ).loc main_arg2)) := (host2 m ρ c main_v11 (by not_written)).trans d11
  -- after the third
  have r16 : W3 m ρ c (Proc.devRef .tc main_v16) = val_main_v16 (F := Ideal) (m ((c : Thread nD τ).loc main_arg1)) (m ((c : Thread nD τ).loc main_arg2)) := inv_sqrt (W2 m ρ c) (m ((c : Thread nD τ).loc main_arg1)) (m ((c : Thread nD τ).loc main_arg2)) s14
  have p18 : W3 m ρ c (Proc.devRef .tc main_v18) = val_main_v18 (F := Ideal) (m ((c : Thread nD τ).loc main_arg1)) (m ((c : Thread nD τ).loc main_arg2)) := positive_again (W2 m ρ c) (m ((c : Thread nD τ).loc main_arg1)) (m ((c : Thread nD τ).loc main_arg2)) d11'
  have zero : W3 m ρ c (Proc.devRef .tc main_cst_5) = val_main_cst_5 (F := Ideal) := second_zero (W2 m ρ c)
  -- after the fourth
  have r19 : W4 m ρ c (Proc.devRef .tc main_v19) = val_main_v19 (F := Ideal) (m ((c : Thread nD τ).loc main_arg1)) (m ((c : Thread nD τ).loc main_arg2)) := inv_sqrt_or_zero (W3 m ρ c) (m ((c : Thread nD τ).loc main_arg1)) (m ((c : Thread nD τ).loc main_arg2)) p18 r16 zero
  have s5 : W4 m ρ c (Proc.devRef .tc main_v5) = val_main_v5 (F := Ideal) (m ((c : Thread nD τ).loc main_arg1)) :=
    (host4 m ρ c main_v5 (by not_written)).trans <| (host3 m ρ c main_v5 (by not_written)).trans <|
      (host2 m ρ c main_v5 (by not_written)).trans (src_W1 m ρ c)
  have d6 : W4 m ρ c (Proc.devRef .tc main_v6) = val_main_v6 (F := Ideal) (m ((c : Thread nD τ).loc main_arg1)) :=
    (host4 m ρ c main_v6 (by not_written)).trans <| (host3 m ρ c main_v6 (by not_written)).trans <|
      (host2 m ρ c main_v6 (by not_written)).trans (dst_W1 m ρ c)
  have w8' : W4 m ρ c (Proc.devRef .tc main_v8) = val_main_v8 (F := Ideal) (m ((c : Thread nD τ).loc main_arg2)) :=
    (host4 m ρ c main_v8 (by not_written)).trans <| (host3 m ρ c main_v8 (by not_written)).trans <|
      (host2 m ρ c main_v8 (by not_written)).trans w8
  -- the fifth
  exact coefficients (W4 m ρ c) (m ((c : Thread nD τ).loc main_arg1)) (m ((c : Thread nD τ).loc main_arg2)) s5 d6 w8' r19

/-! ## The same three arrays where the layers read them -/

theorem src_W6 : W6 m ρ c (Proc.devRef .tc main_v5) = val_main_v5 (F := Ideal) (m ((c : Thread nD τ).loc main_arg1)) :=
  (W6_of_ne m ρ c main_v5 (by decide)).trans (src_W5 m ρ c)
theorem coef_W6 : W6 m ρ c (Proc.devRef .tc main_v35)
    = val_main_v35 (F := Ideal) (m ((c : Thread nD τ).loc main_arg1)) (m ((c : Thread nD τ).loc main_arg2)) :=
  (W6_of_ne m ρ c main_v35 (by decide)).trans (coef_W5 m ρ c)
theorem dst_W8 : W8 m ρ c (Proc.devRef .tc main_v6) = val_main_v6 (F := Ideal) (m ((c : Thread nD τ).loc main_arg1)) := by
  refine (keep_5_8 m ρ c main_v6 ?_ ?_ ?_).trans (dst_W5 m ρ c) <;> untouched

theorem src_W11 : W11 m ρ c (Proc.devRef .tc main_v5) = val_main_v5 (F := Ideal) (m ((c : Thread nD τ).loc main_arg1)) := by
  refine (keep_5_11 m ρ c main_v5 ?_ ?_ ?_ ?_ ?_ ?_).trans (src_W5 m ρ c) <;> untouched
theorem coef_W11 : W11 m ρ c (Proc.devRef .tc main_v35)
    = val_main_v35 (F := Ideal) (m ((c : Thread nD τ).loc main_arg1)) (m ((c : Thread nD τ).loc main_arg2)) := by
  refine (keep_5_11 m ρ c main_v35 ?_ ?_ ?_ ?_ ?_ ?_).trans (coef_W5 m ρ c) <;> untouched
theorem dst_W13 : W13 m ρ c (Proc.devRef .tc main_v6) = val_main_v6 (F := Ideal) (m ((c : Thread nD τ).loc main_arg1)) := by
  refine (keep_10_13 m ρ c main_v6 ?_ ?_ ?_).trans <| (keep_8_10 m ρ c main_v6 ?_ ?_).trans (dst_W8 m ρ c) <;> untouched

theorem src_W16 : W16 m ρ c (Proc.devRef .tc main_v5) = val_main_v5 (F := Ideal) (m ((c : Thread nD τ).loc main_arg1)) := by
  refine (keep_11_16 m ρ c main_v5 ?_ ?_ ?_ ?_ ?_).trans (src_W11 m ρ c) <;> untouched
theorem coef_W16 : W16 m ρ c (Proc.devRef .tc main_v35)
    = val_main_v35 (F := Ideal) (m ((c : Thread nD τ).loc main_arg1)) (m ((c : Thread nD τ).loc main_arg2)) := by
  refine (keep_11_16 m ρ c main_v35 ?_ ?_ ?_ ?_ ?_).trans (coef_W11 m ρ c) <;> untouched
theorem dst_W18 : W18 m ρ c (Proc.devRef .tc main_v6) = val_main_v6 (F := Ideal) (m ((c : Thread nD τ).loc main_arg1)) := by
  refine (keep_15_18 m ρ c main_v6 ?_ ?_ ?_).trans <| (keep_13_15 m ρ c main_v6 ?_ ?_).trans (dst_W13 m ρ c) <;> untouched

end Cert.Bridge

end
-- ==== Proof.Rows.lean ====
/-
  One row, two spellings.

  A vector of `n` entries becomes a `1 × n` row either by a reshape or by a broadcast that maps its one axis to
  the second axis of the row.  Both read entry `(0, j)` of the row from entry `j` of the vector, so they are the
  same array.  The tiled program spells the bias, gain and shift rows the first way, the reference the second.
-/
import proofs.«148666_j65377992179783_1_alg».proof.KernelIdeal
import proofs.«148666_j65377992179783_1_alg».proof.ReferenceIdeal
import proofs.«148666_j65377992179783_1_alg».proof.Proof.Gen.KernelIdeal
import proofs.«148666_j65377992179783_1_alg».proof.Proof.Gen.ReferenceIdeal
import Idealize.ShloMosaic.Lib.Pipeline.Value

noncomputable section

namespace Cert.Bridge

open Idealize.ShloMosaic

variable {α : Type}

/-- Entry `(0, j)` of a row of 128 comes from entry `j` of the vector. -/
abbrev rowIdx128 (i : Cert.ReferenceIdeal.S1x128.Idx) : Cert.ReferenceIdeal.S128.Idx := fun a => match a with
  | ⟨0, _⟩ => ⟨(i 1).val, (i 1).isLt⟩

/-- Entry `(0, j)` of a row of 64 comes from entry `j` of the vector. -/
abbrev rowIdx64 (i : Cert.ReferenceIdeal.S1x64.Idx) : Cert.ReferenceIdeal.S64.Idx := fun a => match a with
  | ⟨0, _⟩ => ⟨(i 1).val, (i 1).isLt⟩

/-- A vector of 128 entries reshaped to a row is the vector broadcast to a row. -/
theorem row128 (x : Cert.ReferenceIdeal.S128.Idx → α) :
    shapeCast Cert.KernelIdeal.S1x128 x Cert.KernelIdeal.Gen.shapeCasts_S128_S1x128
      = broadcastInDim Cert.ReferenceIdeal.S1x128 ![1] Cert.ReferenceIdeal.Gen.bcast_S128_S1x128_1 x := by
  funext i
  have hL := shapeCast_apply x Cert.KernelIdeal.Gen.shapeCasts_S128_S1x128 i (rowIdx128 i)
    (by rewrite [Shape.rowMajor_val_two, Shape.rowMajor_val_one]
        have h0 : (i 0).val < 1 := (i 0).isLt
        have h1 : (i 1).val < 128 := (i 1).isLt
        show (i 1).val = (i 0).val * 128 + (i 1).val
        omega)
  have hR := broadcastInDim_apply ![1] Cert.ReferenceIdeal.Gen.bcast_S128_S1x128_1 x i (rowIdx128 i)
    (fun a => match a with
      | ⟨0, _⟩ => by show (i 1).val = if (128 : Nat) = 1 then 0 else (i 1).val; rw [if_neg (by decide)])
  exact hL.trans hR.symm

/-- A vector of 64 entries reshaped to a row is the vector broadcast to a row. -/
theorem row64 (x : Cert.ReferenceIdeal.S64.Idx → α) :
    shapeCast Cert.KernelIdeal.S1x64 x Cert.KernelIdeal.Gen.shapeCasts_S64_S1x64
      = broadcastInDim Cert.ReferenceIdeal.S1x64 ![1] Cert.ReferenceIdeal.Gen.bcast_S64_S1x64_1 x := by
  funext i
  have hL := shapeCast_apply x Cert.KernelIdeal.Gen.shapeCasts_S64_S1x64 i (rowIdx64 i)
    (by rewrite [Shape.rowMajor_val_two, Shape.rowMajor_val_one]
        have h0 : (i 0).val < 1 := (i 0).isLt
        have h1 : (i 1).val < 64 := (i 1).isLt
        show (i 1).val = (i 0).val * 64 + (i 1).val
        omega)
  have hR := broadcastInDim_apply ![1] Cert.ReferenceIdeal.Gen.bcast_S64_S1x64_1 x i (rowIdx64 i)
    (fun a => match a with
      | ⟨0, _⟩ => by show (i 1).val = if (64 : Nat) = 1 then 0 else (i 1).val; rw [if_neg (by decide)])
  exact hL.trans hR.symm

end Cert.Bridge

end
-- ==== Proof.KStage.lean ====
/-
  The host stretches between the tiled regions, read as the reference's stages.

  Between two tiled regions the tiled program runs a few host operations: before a scaling, the gather of the
  matrix product's rows by source node and the edge coefficients laid out as a column; before a normalization,
  the scatter-add of the scaled rows by destination node and the bias, gain and shift laid out as rows.  They are
  the reference's own operations on the same operands, so whenever the buffers a stretch reads hold the
  reference's stages, the buffers it writes hold the reference's next stages.  The reference recomputes the edge
  indices and coefficients in every layer, by the same operations from the same arguments: the recomputed stages
  are the first layer's.
-/
import proofs.«148666_j65377992179783_1_alg».proof.Proof.Gen.KernelIdeal.Frame
import proofs.«148666_j65377992179783_1_alg».proof.Proof.RefRead
import proofs.«148666_j65377992179783_1_alg».proof.Proof.Rows

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.ReferenceIdeal.ReadP

/-- The buffer contents of the tiled program's TensorCore, as the folds are stated over them. -/
abbrev KVal := Valuation τ sig (Elt Ideal)

/-! ## What the reference recomputes in its later layers is what it computed in the first -/

section Again
variable (x1 : (⟨Cert.ReferenceIdeal.S2x800000, .i32⟩ : BufTy).Contents (Elt Ideal)) (x2 : (⟨Cert.ReferenceIdeal.S800000, .f32⟩ : BufTy).Contents (Elt Ideal))

theorem src_again2 : val_main_v79 (F := Ideal) x1 = val_main_v5 (F := Ideal) x1 := rfl
theorem dst_again2 : val_main_v80 (F := Ideal) x1 = val_main_v6 (F := Ideal) x1 := rfl
set_option maxHeartbeats 2000000 in
theorem coef_again2 : val_main_v109 (F := Ideal) x1 x2 = val_main_v35 (F := Ideal) x1 x2 := rfl
theorem src_again3 : val_main_v153 (F := Ideal) x1 = val_main_v5 (F := Ideal) x1 := rfl
theorem dst_again3 : val_main_v154 (F := Ideal) x1 = val_main_v6 (F := Ideal) x1 := rfl
set_option maxHeartbeats 2000000 in
theorem coef_again3 : val_main_v183 (F := Ideal) x1 x2 = val_main_v35 (F := Ideal) x1 x2 := rfl
end Again

/-! ## Layer one -/

section L1
variable (U : KVal) (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal))

set_option maxHeartbeats 4000000 in
/-- The matrix product's rows gathered by source node. -/
theorem gather1 (h36 : U (Proc.devRef .tc main_v36) = val_main_v36 (F := Ideal) x0 x3)
    (h5 : U (Proc.devRef .tc main_v5) = val_main_v5 (F := Ideal) x1) :
    StableHlo.after hostOps1 U (Proc.devRef .tc main_v43) = val_main_v43 (F := Ideal) x0 x1 x3 := by
  after_results
  rw [h36, h5]
  rfl

set_option maxHeartbeats 4000000 in
/-- The edge coefficients as a column. -/
theorem coefcol1 (h35 : U (Proc.devRef .tc main_v35) = val_main_v35 (F := Ideal) x1 x2) :
    StableHlo.after hostOps1 U (Proc.devRef .tc main_v44) = val_main_v44 (F := Ideal) x1 x2 := by
  after_results
  rw [h35]
  rfl

set_option maxHeartbeats 4000000 in
/-- The scaled rows added up by destination node. -/
theorem scatter1 (h45 : U (Proc.devRef .tc main_v45) = val_main_v46 (F := Ideal) x0 x1 x2 x3)
    (h6 : U (Proc.devRef .tc main_v6) = val_main_v6 (F := Ideal) x1) :
    StableHlo.after hostOps2 U (Proc.devRef .tc main_v48) = val_main_v49 (F := Ideal) x0 x1 x2 x3 := by
  after_results
  rw [h45, h6]
  rfl

/-- The bias as a row. -/
theorem biasrow1 (x4 : (⟨S128, .f32⟩ : BufTy).Contents (Elt Ideal)) (a : U (Proc.devRef .tc main_arg4) = x4) :
    StableHlo.after hostOps2 U (Proc.devRef .tc main_v49) = val_main_v50 (F := Ideal) x4 := by
  after_results
  rw [a]
  exact row128 x4

/-- The gain as a row. -/
theorem gainrow1 (x5 : (⟨S128, .f32⟩ : BufTy).Contents (Elt Ideal)) (a : U (Proc.devRef .tc main_arg5) = x5) :
    StableHlo.after hostOps2 U (Proc.devRef .tc main_v50) = val_main_v71 (F := Ideal) x5 := by
  after_results
  rw [a]
  exact row128 x5

/-- The shift as a row. -/
theorem shiftrow1 (x6 : (⟨S128, .f32⟩ : BufTy).Contents (Elt Ideal)) (a : U (Proc.devRef .tc main_arg6) = x6) :
    StableHlo.after hostOps2 U (Proc.devRef .tc main_v51) = val_main_v74 (F := Ideal) x6 := by
  after_results
  rw [a]
  exact row128 x6

end L1

/-! ## Layer two -/

section L2
variable (U : KVal) (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal))

set_option maxHeartbeats 4000000 in
/-- The second matrix product's rows gathered by source node. -/
theorem gather2 (h53 : U (Proc.devRef .tc main_v53) = val_main_v110 (F := Ideal) x0 x1 x2 x3 x4 x5 x6 x7)
    (h5 : U (Proc.devRef .tc main_v5) = val_main_v5 (F := Ideal) x1) :
    StableHlo.after hostOps4 U (Proc.devRef .tc main_v60) = val_main_v117 (F := Ideal) x0 x1 x2 x3 x4 x5 x6 x7 := by
  after_results
  rw [h53, h5, ← src_again2 x1]
  rfl

set_option maxHeartbeats 4000000 in
/-- The edge coefficients as a column, again. -/
theorem coefcol2 (h35 : U (Proc.devRef .tc main_v35) = val_main_v35 (F := Ideal) x1 x2) :
    StableHlo.after hostOps4 U (Proc.devRef .tc main_v61) = val_main_v118 (F := Ideal) x1 x2 := by
  after_results
  rw [h35, ← coef_again2 x1 x2]
  rfl

set_option maxHeartbeats 4000000 in
/-- The second layer's scaled rows added up by destination node. -/
theorem scatter2 (h62 : U (Proc.devRef .tc main_v62) = val_main_v120 (F := Ideal) x0 x1 x2 x3 x4 x5 x6 x7)
    (h6 : U (Proc.devRef .tc main_v6) = val_main_v6 (F := Ideal) x1) :
    StableHlo.after hostOps5 U (Proc.devRef .tc main_v65) = val_main_v123 (F := Ideal) x0 x1 x2 x3 x4 x5 x6 x7 := by
  after_results
  rw [h62, h6, ← dst_again2 x1]
  rfl

/-- The second bias as a row. -/
theorem biasrow2 (x8 : (⟨S128, .f32⟩ : BufTy).Contents (Elt Ideal)) (a : U (Proc.devRef .tc main_arg8) = x8) :
    StableHlo.after hostOps5 U (Proc.devRef .tc main_v66) = val_main_v124 (F := Ideal) x8 := by
  after_results
  rw [a]
  exact row128 x8

/-- The second gain as a row. -/
theorem gainrow2 (x9 : (⟨S128, .f32⟩ : BufTy).Contents (Elt Ideal)) (a : U (Proc.devRef .tc main_arg9) = x9) :
    StableHlo.after hostOps5 U (Proc.devRef .tc main_v67) = val_main_v145 (F := Ideal) x9 := by
  after_results
  rw [a]
  exact row128 x9

/-- The second shift as a row. -/
theorem shiftrow2 (x10 : (⟨S128, .f32⟩ : BufTy).Contents (Elt Ideal)) (a : U (Proc.devRef .tc main_arg10) = x10) :
    StableHlo.after hostOps5 U (Proc.devRef .tc main_v68) = val_main_v148 (F := Ideal) x10 := by
  after_results
  rw [a]
  exact row128 x10

end L2

/-! ## Layer three -/

section L3
variable (U : KVal) (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal))

set_option maxHeartbeats 4000000 in
/-- The third matrix product's rows gathered by source node. -/
theorem gather3 (h70 : U (Proc.devRef .tc main_v70) = val_main_v184 (F := Ideal) x0 x1 x2 x3 x4 x5 x6 x7 x8 x9 x10 x11)
    (h5 : U (Proc.devRef .tc main_v5) = val_main_v5 (F := Ideal) x1) :
    StableHlo.after hostOps7 U (Proc.devRef .tc main_v77) = val_main_v191 (F := Ideal) x0 x1 x2 x3 x4 x5 x6 x7 x8 x9 x10 x11 := by
  after_results
  rw [h70, h5, ← src_again3 x1]
  rfl

set_option maxHeartbeats 4000000 in
/-- The edge coefficients as a column, a third time. -/
theorem coefcol3 (h35 : U (Proc.devRef .tc main_v35) = val_main_v35 (F := Ideal) x1 x2) :
    StableHlo.after hostOps7 U (Proc.devRef .tc main_v78) = val_main_v192 (F := Ideal) x1 x2 := by
  after_results
  rw [h35, ← coef_again3 x1 x2]
  rfl

set_option maxHeartbeats 4000000 in
/-- The third layer's scaled rows added up by destination node. -/
theorem scatter3 (h79 : U (Proc.devRef .tc main_v79) = val_main_v194 (F := Ideal) x0 x1 x2 x3 x4 x5 x6 x7 x8 x9 x10 x11)
    (h6 : U (Proc.devRef .tc main_v6) = val_main_v6 (F := Ideal) x1) :
    StableHlo.after hostOps8 U (Proc.devRef .tc main_v82) = val_main_v197 (F := Ideal) x0 x1 x2 x3 x4 x5 x6 x7 x8 x9 x10 x11 := by
  after_results
  rw [h79, h6, ← dst_again3 x1]
  rfl

/-- The third bias as a row. -/
theorem biasrow3 (x12 : (⟨S64, .f32⟩ : BufTy).Contents (Elt Ideal)) (a : U (Proc.devRef .tc main_arg12) = x12) :
    StableHlo.after hostOps8 U (Proc.devRef .tc main_v83) = val_main_v198 (F := Ideal) x12 := by
  after_results
  rw [a]
  exact row64 x12

/-- The third gain as a row. -/
theorem gainrow3 (x13 : (⟨S64, .f32⟩ : BufTy).Contents (Elt Ideal)) (a : U (Proc.devRef .tc main_arg13) = x13) :
    StableHlo.after hostOps8 U (Proc.devRef .tc main_v84) = val_main_v219 (F := Ideal) x13 := by
  after_results
  rw [a]
  exact row64 x13

/-- The third shift as a row. -/
theorem shiftrow3 (x14 : (⟨S64, .f32⟩ : BufTy).Contents (Elt Ideal)) (a : U (Proc.devRef .tc main_arg14) = x14) :
    StableHlo.after hostOps8 U (Proc.devRef .tc main_v85) = val_main_v222 (F := Ideal) x14 := by
  after_results
  rw [a]
  exact row64 x14

end L3

end Cert.Bridge

end
-- ==== Proof.Spec.lean ====
/-
  The whole-array functions on which the two programs are compared, layer by layer.

  One layer of the network is: a matrix product, a gather of rows by source node, a scaling of every
  gathered row by its edge coefficient, a scatter-add of the rows by destination node, and then — row by row —
  the addition of a bias, the subtraction of the row's mean, the division by the square root of the row's
  variance plus a small constant, a gain, a shift, and (in the first two layers) a clamp at zero.
  The gather, the scatter-add and the edge coefficients are the same host operations in both programs; the
  matrix product, the scaling and the row normalization are host operations in the reference and tiled
  kernels in the other program.  This module writes the reference's spelling of the scaling and of the row
  normalization as functions of arbitrary whole arrays, so that each kernel can be shown to compute exactly
  that function of the arrays it is entered with.
-/
import proofs.«148666_j65377992179783_1_alg».proof.ReferenceIdeal
import proofs.«148666_j65377992179783_1_alg».proof.Proof.Gen.ReferenceIdeal
import Idealize.ShloMosaic.PureOps.Ideal

noncomputable section

namespace Cert.Bridge

open Idealize.ShloMosaic Cert.ReferenceIdeal Cert.ReferenceIdeal.Gen

variable {F : FTy → Type} [FloatOps F]

/-- Every gathered row (width 128) times its edge coefficient, the coefficient held as a column. -/
def scale128 (h : FVec F S850000x128 .f32) (n : FVec F S850000x1 .f32) : FVec F S850000x128 .f32 :=
  mulf h (broadcastInDim S850000x128 ![0, 1] bcast_S850000x1_S850000x128_0_1 n)

/-- Every gathered row (width 64) times its edge coefficient, the coefficient held as a column. -/
def scale64 (h : FVec F S850000x64 .f32) (n : FVec F S850000x1 .f32) : FVec F S850000x64 .f32 :=
  mulf h (broadcastInDim S850000x64 ![0, 1] bcast_S850000x1_S850000x64_0_1 n)

/-- The biased rows `a + b` of width 128. -/
def biased128 (a : FVec F S50000x128 .f32) (b : FVec F S1x128 .f32) : FVec F S50000x128 .f32 :=
  addf a (broadcastInDim S50000x128 ![0, 1] bcast_S1x128_S50000x128_0_1 b)

/-- The mean of every row of width 128, as a column: the row's sum divided by 128. -/
def rowMean128 (h : FVec F S50000x128 .f32) : FVec F S50000x1 .f32 :=
  Host.divf (broadcastInDim S50000x1 ![0] bcast_S50000_S50000x1_0
      (Host.reduceAdd h (constant S_ .f32 0x00000000#32) reducesTo_S50000x128_S50000_d1 h_S_))
    (broadcastInDim S50000x1 ![] bcast_S_S50000x1 (constant S_ .f32 0x43000000#32))

/-- Rows of width 128 minus a column. -/
def centred128 (h : FVec F S50000x128 .f32) (mu : FVec F S50000x1 .f32) : FVec F S50000x128 .f32 :=
  subf h (broadcastInDim S50000x128 ![0, 1] bcast_S50000x1_S50000x128_0_1 mu)

/-- Row normalization at width 128 without the final clamp: with `h = a + b`, `μ` the row mean of `h`,
    `d = h − μ` and `v` the row mean of `d²`, the value `d · (v + ε)^(−1/2) · g + t`. -/
def norm128 (a : FVec F S50000x128 .f32) (b g t : FVec F S1x128 .f32) : FVec F S50000x128 .f32 :=
  addf
    (mulf
      (mulf (centred128 (biased128 a b) (rowMean128 (biased128 a b)))
        (broadcastInDim S50000x128 ![0, 1] bcast_S50000x1_S50000x128_0_1
          (Host.rsqrt (addf
            (rowMean128 (mulf (centred128 (biased128 a b) (rowMean128 (biased128 a b)))
                              (centred128 (biased128 a b) (rowMean128 (biased128 a b)))))
            (broadcastInDim S50000x1 ![] bcast_S_S50000x1 (constant S_ .f32 0x3727C5AC#32))))))
      (broadcastInDim S50000x128 ![0, 1] bcast_S1x128_S50000x128_0_1 g))
    (broadcastInDim S50000x128 ![0, 1] bcast_S1x128_S50000x128_0_1 t)

/-- Row normalization at width 128 followed by the clamp at zero (layers one and two). -/
def ln128 (a : FVec F S50000x128 .f32) (b g t : FVec F S1x128 .f32) : FVec F S50000x128 .f32 :=
  maximumf (norm128 a b g t) (broadcastInDim S50000x128 ![] bcast_S_S50000x128 (constant S_ .f32 0x00000000#32))

/-- The biased rows `a + b` of width 64. -/
def biased64 (a : FVec F S50000x64 .f32) (b : FVec F S1x64 .f32) : FVec F S50000x64 .f32 :=
  addf a (broadcastInDim S50000x64 ![0, 1] bcast_S1x64_S50000x64_0_1 b)

/-- The mean of every row of width 64, as a column: the row's sum divided by 64. -/
def rowMean64 (h : FVec F S50000x64 .f32) : FVec F S50000x1 .f32 :=
  Host.divf (broadcastInDim S50000x1 ![0] bcast_S50000_S50000x1_0
      (Host.reduceAdd h (constant S_ .f32 0x00000000#32) reducesTo_S50000x64_S50000_d1 h_S_))
    (broadcastInDim S50000x1 ![] bcast_S_S50000x1 (constant S_ .f32 0x42800000#32))

/-- Rows of width 64 minus a column. -/
def centred64 (h : FVec F S50000x64 .f32) (mu : FVec F S50000x1 .f32) : FVec F S50000x64 .f32 :=
  subf h (broadcastInDim S50000x64 ![0, 1] bcast_S50000x1_S50000x64_0_1 mu)

/-- Row normalization at width 64, no clamp (the last layer). -/
def ln64 (a : FVec F S50000x64 .f32) (b g t : FVec F S1x64 .f32) : FVec F S50000x64 .f32 :=
  addf
    (mulf
      (mulf (centred64 (biased64 a b) (rowMean64 (biased64 a b)))
        (broadcastInDim S50000x64 ![0, 1] bcast_S50000x1_S50000x64_0_1
          (Host.rsqrt (addf
            (rowMean64 (mulf (centred64 (biased64 a b) (rowMean64 (biased64 a b)))
                             (centred64 (biased64 a b) (rowMean64 (biased64 a b)))))
            (broadcastInDim S50000x1 ![] bcast_S_S50000x1 (constant S_ .f32 0x3727C5AC#32))))))
      (broadcastInDim S50000x64 ![0, 1] bcast_S1x64_S50000x64_0_1 g))
    (broadcastInDim S50000x64 ![0, 1] bcast_S1x64_S50000x64_0_1 t)

end Cert.Bridge

end
-- ==== Proof.SpecStages.lean ====
/-
  The interface functions on the reference's stages.

  The reference spells a layer's scaling as one product with a broadcast column, and a layer's row normalization
  as some twenty-five host operations.  The interface functions of this certificate are those spellings applied to
  arbitrary arrays; applied to the reference's own stages they are, by unfolding, the reference's next stages.
-/
import proofs.«148666_j65377992179783_1_alg».proof.Proof.Spec
import proofs.«148666_j65377992179783_1_alg».proof.Proof.RefRead

set_option maxRecDepth 16384

noncomputable section

namespace Cert.Bridge

open Idealize.ShloMosaic Cert.ReferenceIdeal Cert.ReferenceIdeal.Gen Cert.ReferenceIdeal.ReadP

variable (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 x13 x14 : (⟨S64, .f32⟩ : BufTy).Contents (Elt Ideal))

/-- The first layer's scaled rows. -/
theorem scale_stage1 : scale128 (F := Ideal) (val_main_v43 (F := Ideal) x0 x1 x3) (val_main_v44 (F := Ideal) x1 x2) = val_main_v46 (F := Ideal) x0 x1 x2 x3 := rfl

/-- The second layer's scaled rows. -/
theorem scale_stage2 : scale128 (F := Ideal) (val_main_v117 (F := Ideal) x0 x1 x2 x3 x4 x5 x6 x7) (val_main_v118 (F := Ideal) x1 x2)
    = val_main_v120 (F := Ideal) x0 x1 x2 x3 x4 x5 x6 x7 := rfl

/-- The third layer's scaled rows. -/
theorem scale_stage3 : scale64 (F := Ideal) (val_main_v191 (F := Ideal) x0 x1 x2 x3 x4 x5 x6 x7 x8 x9 x10 x11) (val_main_v192 (F := Ideal) x1 x2)
    = val_main_v194 (F := Ideal) x0 x1 x2 x3 x4 x5 x6 x7 x8 x9 x10 x11 := rfl

set_option maxHeartbeats 4000000 in
/-- The first layer's output: the normalized, clamped rows of the first aggregate. -/
theorem ln_stage1 : ln128 (F := Ideal) (val_main_v49 (F := Ideal) x0 x1 x2 x3) (val_main_v50 (F := Ideal) x4) (val_main_v71 (F := Ideal) x5) (val_main_v74 (F := Ideal) x6)
    = val_main_v77 (F := Ideal) x0 x1 x2 x3 x4 x5 x6 := rfl

set_option maxHeartbeats 4000000 in
/-- The second layer's output. -/
theorem ln_stage2 : ln128 (F := Ideal) (val_main_v123 (F := Ideal) x0 x1 x2 x3 x4 x5 x6 x7) (val_main_v124 (F := Ideal) x8) (val_main_v145 (F := Ideal) x9) (val_main_v148 (F := Ideal) x10)
    = val_main_v151 (F := Ideal) x0 x1 x2 x3 x4 x5 x6 x7 x8 x9 x10 := rfl

set_option maxHeartbeats 4000000 in
/-- The result: the normalized rows of the third aggregate. -/
theorem ln_stage3 : ln64 (F := Ideal) (val_main_v197 (F := Ideal) x0 x1 x2 x3 x4 x5 x6 x7 x8 x9 x10 x11) (val_main_v198 (F := Ideal) x12) (val_main_v219 (F := Ideal) x13) (val_main_v222 (F := Ideal) x14)
    = val_main_v224 (F := Ideal) x0 x1 x2 x3 x4 x5 x6 x7 x8 x9 x10 x11 x12 x13 x14 := rfl

end Cert.Bridge

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LinDots.lean ====
/-
  The four matrix products of the network read at one entry.

  A block of 5000 rows of width 128 times a 128×128 (or 128×64) matrix, accumulated on the TensorCore from zero, and
  the host's product of all 50000 rows by the same matrix, have the same shape of answer: entry (p, q) is the sum over
  the 128 positions k of left (p, k) · right (k, q).  Each product's dimension numbers contract the left factor's
  columns against the right factor's rows and keep rows then columns.
-/
import proofs.«148666_j65377992179783_1_alg».proof.Proof.Gen.KernelIdeal
import proofs.«148666_j65377992179783_1_alg».proof.Proof.Gen.ReferenceIdeal
import proofs.«148666_j65377992179783_1_alg».proof.Proof.LibDotEntry

noncomputable section

namespace Cert.Bridge

open Idealize.ShloMosaic Idealize.ShloMosaic.ValueIdx

/-- A block of 5000 rows times a 128×128 matrix, accumulated from zero, at entry (p, q). -/
theorem blockProduct128_apply {φ₁ φ₂ : FTy} (lhs : FVec Ideal Cert.KernelIdeal.S5000x128 φ₁) (rhs : FVec Ideal Cert.KernelIdeal.S128x128 φ₂)
    (p : Fin 5000) (q : Fin 128) :
    matmul Cert.KernelIdeal.dot_S5000x128_S128x128_S5000x128_1_0_0_1_n_n none lhs rhs
        (constant (F := Ideal) Cert.KernelIdeal.S5000x128 .f32 0x00000000#32) (ix2 p q)
      = ∑ k : Fin 128, lhs (ix2 p k) * rhs (ix2 k q) :=
  Cert.Lib.DotEntry.matmul_zero_ix2 Cert.KernelIdeal.dot_S5000x128_S128x128_S5000x128_1_0_0_1_n_n rfl rfl
    (fun i c => by
      unfold DotDims.lhsIdx
      rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
      rfl)
    (fun i c => Cert.KernelIdeal.dot_S5000x128_S128x128_S5000x128_1_0_0_1_n_n.lhsIdx_val_of_single rfl i c)
    (fun i c => Cert.KernelIdeal.dot_S5000x128_S128x128_S5000x128_1_0_0_1_n_n.rhsIdx_val_of_single rfl i c)
    (fun i c => by
      unfold DotDims.rhsIdx
      rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
      rfl)
    lhs rhs p q

/-- A block of 5000 rows times a 128×64 matrix, accumulated from zero, at entry (p, q). -/
theorem blockProduct64_apply {φ₁ φ₂ : FTy} (lhs : FVec Ideal Cert.KernelIdeal.S5000x128 φ₁) (rhs : FVec Ideal Cert.KernelIdeal.S128x64 φ₂)
    (p : Fin 5000) (q : Fin 64) :
    matmul Cert.KernelIdeal.dot_S5000x128_S128x64_S5000x64_1_0_0_1_n_n none lhs rhs
        (constant (F := Ideal) Cert.KernelIdeal.S5000x64 .f32 0x00000000#32) (ix2 p q)
      = ∑ k : Fin 128, lhs (ix2 p k) * rhs (ix2 k q) :=
  Cert.Lib.DotEntry.matmul_zero_ix2 Cert.KernelIdeal.dot_S5000x128_S128x64_S5000x64_1_0_0_1_n_n rfl rfl
    (fun i c => by
      unfold DotDims.lhsIdx
      rw [dif_neg (show ¬(0 : Fin Cert.KernelIdeal.S5000x128.rank) ∈ Cert.KernelIdeal.dot_S5000x128_S128x64_S5000x64_1_0_0_1_n_n.lhsBatch by decide), dif_pos (show (0 : Fin Cert.KernelIdeal.S5000x128.rank) ∈ Cert.KernelIdeal.dot_S5000x128_S128x64_S5000x64_1_0_0_1_n_n.lhsNonContracting by decide)]
      rfl)
    (fun i c => Cert.KernelIdeal.dot_S5000x128_S128x64_S5000x64_1_0_0_1_n_n.lhsIdx_val_of_single rfl i c)
    (fun i c => Cert.KernelIdeal.dot_S5000x128_S128x64_S5000x64_1_0_0_1_n_n.rhsIdx_val_of_single rfl i c)
    (fun i c => by
      unfold DotDims.rhsIdx
      rw [dif_neg (show ¬(1 : Fin Cert.KernelIdeal.S128x64.rank) ∈ Cert.KernelIdeal.dot_S5000x128_S128x64_S5000x64_1_0_0_1_n_n.rhsBatch by decide), dif_pos (show (1 : Fin Cert.KernelIdeal.S128x64.rank) ∈ Cert.KernelIdeal.dot_S5000x128_S128x64_S5000x64_1_0_0_1_n_n.rhsNonContracting by decide)]
      rfl)
    lhs rhs p q

/-- The host's product of all 50000 rows by a 128×128 matrix, at entry (r, q). -/
theorem hostProduct128_apply (lhs : FVec Ideal Cert.ReferenceIdeal.S50000x128 .f32) (rhs : FVec Ideal Cert.ReferenceIdeal.S128x128 .f32)
    (r : Fin 50000) (q : Fin 128) :
    Host.dotGeneral (F := Ideal) Cert.ReferenceIdeal.dot_S50000x128_S128x128_S50000x128_1_0_0_1_n_n none lhs rhs (ix2 r q)
      = ∑ k : Fin 128, lhs (ix2 r k) * rhs (ix2 k q) :=
  Cert.Lib.DotEntry.dotGeneral_ix2 Cert.ReferenceIdeal.dot_S50000x128_S128x128_S50000x128_1_0_0_1_n_n rfl rfl
    (fun i c => by
      unfold DotDims.lhsIdx
      rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
      rfl)
    (fun i c => Cert.ReferenceIdeal.dot_S50000x128_S128x128_S50000x128_1_0_0_1_n_n.lhsIdx_val_of_single rfl i c)
    (fun i c => Cert.ReferenceIdeal.dot_S50000x128_S128x128_S50000x128_1_0_0_1_n_n.rhsIdx_val_of_single rfl i c)
    (fun i c => by
      unfold DotDims.rhsIdx
      rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
      rfl)
    lhs rhs r q

/-- The host's product of all 50000 rows by a 128×64 matrix, at entry (r, q). -/
theorem hostProduct64_apply (lhs : FVec Ideal Cert.ReferenceIdeal.S50000x128 .f32) (rhs : FVec Ideal Cert.ReferenceIdeal.S128x64 .f32)
    (r : Fin 50000) (q : Fin 64) :
    Host.dotGeneral (F := Ideal) Cert.ReferenceIdeal.dot_S50000x128_S128x64_S50000x64_1_0_0_1_n_n none lhs rhs (ix2 r q)
      = ∑ k : Fin 128, lhs (ix2 r k) * rhs (ix2 k q) :=
  Cert.Lib.DotEntry.dotGeneral_ix2 Cert.ReferenceIdeal.dot_S50000x128_S128x64_S50000x64_1_0_0_1_n_n rfl rfl
    (fun i c => by
      unfold DotDims.lhsIdx
      rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
      rfl)
    (fun i c => Cert.ReferenceIdeal.dot_S50000x128_S128x64_S50000x64_1_0_0_1_n_n.lhsIdx_val_of_single rfl i c)
    (fun i c => Cert.ReferenceIdeal.dot_S50000x128_S128x64_S50000x64_1_0_0_1_n_n.rhsIdx_val_of_single rfl i c)
    (fun i c => by
      unfold DotDims.rhsIdx
      rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
      rfl)
    lhs rhs r q

end Cert.Bridge

end
-- ==== Proof.RegionLin0.lean ====
/-
  The first matrix-product kernel, as one function of the arrays it is entered with.

  The kernel works on 10 blocks of 5000 consecutive rows.  At block t it holds rows 5000·t … 5000·t + 4999 of the
  input (width 128) and the whole 128×128 weight matrix, and writes back, into the same rows of the result, the product
  of the block by the matrix, accumulated from zero; the rounding of both factors to a shorter format changes nothing
  in exact arithmetic.  Entry (r, q) of the result is therefore the sum over k of input (r, k) · weight (k, q): the
  entry (r, q) of the host's product of the whole input by the matrix, which is the same sum over the same 128
  positions.  Nothing is asked of the inputs: the two sums are the same sum, term by term.  Row r is written by
  block r / 5000, so the 10 blocks fill the whole result.
-/
import proofs.«148666_j65377992179783_1_alg».proof.Proof.Gen.KernelIdeal.Frame
import proofs.«148666_j65377992179783_1_alg».proof.Proof.LinDots
import Idealize.ShloMosaic.Lib.Pipeline.Value
import Idealize.ShloMosaic.Lib.ValueIdx

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

/-- A block's rectangle inside its staging buffer starts at the origin. -/
theorem origin0 : (![0, 0] : Fin 2 → Nat) = fun _ => 0 := funext fun a => by fin_cases a <;> rfl

/-- One entry of one block.  If row p of the block of inputs is row r of the input array, and column q of the
    block of weights is column q of the weight array, then what the body computes at (p, q) is what the host's
    product has at (r, q): both are the sum over k of input (r, k) · weight (k, q). -/
theorem lin0_point (A : FVec Ideal Cert.ReferenceIdeal.S50000x128 .f32) (W : FVec Ideal Cert.ReferenceIdeal.S128x128 .f32)
    (x0 : Vec Ideal S5000x128 .f32) (x1 : Vec Ideal S128x128 .f32) (p : Fin 5000) (q : Fin 128) (r : Fin 50000)
    (h0 : ∀ k : Fin 128, x0 (ix2 p k) = A (ix2 r k)) (h1 : ∀ k : Fin 128, x1 (ix2 k q) = W (ix2 k q)) :
    k0_pay1 x0 x1 (ix2 p q)
      = Host.dotGeneral (F := Ideal) Cert.ReferenceIdeal.dot_S50000x128_S128x128_S50000x128_1_0_0_1_n_n none A W (ix2 r q) := by
  unfold k0_pay1
  refine (blockProduct128_apply (truncf .bf16 x0 bitsLt_bf16_f32) (truncf .bf16 x1 bitsLt_bf16_f32) p q).trans ?_
  refine ((hostProduct128_apply A W r q).trans ?_).symm
  refine Finset.sum_congr rfl fun k _ => ?_
  rw [← h0 k, ← h1 k]
  rfl

/-- Where the blocks sit: at point t the input and the result are at block row t, the weights at their one block. -/
theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the host's product of the two entry arrays. -/
theorem lin0_block (V : (c : Dev nD) → (b : Ref sig .tc) → Buf (Elt Ideal) ((c : Thread nD τ).loc b)) (c : Dev nD)
    (x : FVec Ideal Cert.ReferenceIdeal.S50000x128 .f32) (w : FVec Ideal Cert.ReferenceIdeal.S128x128 .f32)
    (hx : V c main_arg0 = x) (hw : V c main_arg3 = w) (t : Fin cfg0.N) :
    (dat0 (F := Ideal) V c).flushed 2 t
      = ((cfg0.win 2).blk t).view.read (Elt Ideal) (Host.dotGeneral (F := Ideal) Cert.ReferenceIdeal.dot_S50000x128_S128x128_S50000x128_1_0_0_1_n_n none x w) := by
  show (cfg0.win 2).cut (grid0.coords t) ((dat0 V c).after 2 t) = _
  rw [after0_2]
  unfold out0_2
  rw [View.canon_unit_zero origin0]
  simp only [View.ld_unit_zero (S := S5000x128) origin0, View.ld_unit_zero (S := S128x128) origin0]
  obtain ⟨e00, e01, e10, e11, e20, e21⟩ := where0 t
  have hN : cfg0.N = 10 := N_0
  have ht : t.val < 10 := by have := t.isLt; omega
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by have := p.isLt; omega
  show k0_pay1 (iblk0 V c 0 t) (iblk0 V c 1 t) (ix2 p q)
      = Host.dotGeneral (F := Ideal) Cert.ReferenceIdeal.dot_S50000x128_S128x128_S50000x128_1_0_0_1_n_n none x w (((cfg0.win 2).blk t).view.emb (ix2 p q))
  have e : ((cfg0.win 2).blk t).view.emb (ix2 p q) = ix2 (⟨t.val * 5000 + p.val, hr⟩ : Fin 50000) q :=
    funext fun a => Fin.ext (by
      match a with
      | ⟨0, _⟩ => show win0_2.index t (0 : Fin 2) * 5000 + 1 * p.val = t.val * 5000 + p.val; omega
      | ⟨1, _⟩ => show win0_2.index t (1 : Fin 2) * 128 + 1 * q.val = q.val; omega)
  rw [e]
  refine lin0_point x w (iblk0 V c 0 t) (iblk0 V c 1 t) p q ⟨t.val * 5000 + p.val, hr⟩ (fun k => ?_) (fun k => ?_)
  · show V c main_arg0 (((cfg0.win 0).blk t).view.emb (ix2 p k)) = x (ix2 (⟨t.val * 5000 + p.val, hr⟩ : Fin 50000) k)
    rw [hx]
    refine congrArg x (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg3 (((cfg0.win 1).blk t).view.emb (ix2 k q)) = w (ix2 k q)
    rw [hw]
    refine congrArg w (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the result is in point t's block iff, on each axis, it lies in the block's range. -/
theorem lin0_mem (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- Row r of the result is written by point r / 5000: the 10 blocks of rows fill the result. -/
theorem lin0_cover (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  obtain ⟨-, -, -, -, e20, e21⟩ := where0 t
  have ht : t.val = (i 0).val / 5000 := rfl
  refine ⟨t, flush0_2 t, ?_⟩
  rw [lin0_mem]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first matrix-product kernel leaves in its result the host's product of the two arrays it was entered with. -/
theorem lin_region0 (V : (c : Dev nD) → (b : Ref sig .tc) → Buf (Elt Ideal) ((c : Thread nD τ).loc b)) (c : Dev nD)
    (x : FVec Ideal Cert.ReferenceIdeal.S50000x128 .f32) (w : FVec Ideal Cert.ReferenceIdeal.S128x128 .f32)
    (hx : V c main_arg0 = x) (hw : V c main_arg3 = w) :
    (Cert.KernelIdeal.Gen.dat0 (F := Ideal) V c).arrAt 2 cfg0.N
      = Host.dotGeneral Cert.ReferenceIdeal.dot_S50000x128_S128x128_S50000x128_1_0_0_1_n_n none x w :=
  (dat0 (F := Ideal) V c).arrAt_eq_of_cover 2 (Host.dotGeneral (F := Ideal) Cert.ReferenceIdeal.dot_S50000x128_S128x128_S50000x128_1_0_0_1_n_n none x w)
    (fun t _ => lin0_block V c x w hx hw t) lin0_cover

example (m : (ℓ : Loc nD τ sig) → Buf (Elt Ideal) ℓ) (ρ : Dev nD → PrngReg) (c : Dev nD)
    (x : FVec Ideal Cert.ReferenceIdeal.S50000x128 .f32) (w : FVec Ideal Cert.ReferenceIdeal.S128x128 .f32)
    (hx : Cert.KernelIdeal.Gen.V5 m ρ c main_arg0 = x) (hw : Cert.KernelIdeal.Gen.V5 m ρ c main_arg3 = w) :=
  ((Cert.KernelIdeal.Gen.W6_arr m ρ c 2).trans (lin_region0 (Cert.KernelIdeal.Gen.V5 m ρ) c x w hx hw))

end Cert.Bridge

end
-- ==== Proof.RegionScale1.lean ====
/-
  The first scaling kernel, as one function of the arrays it is entered with.

  The kernel works on 170 blocks of 5000 consecutive rows.  At block t it holds rows 5000·t … 5000·t + 4999 of the
  gathered rows (width 128) and the same rows of the coefficient column (width 1), and writes back, into the same rows
  of the result, every entry of a row multiplied by that row's coefficient.  An entry (e, j) of the result is therefore
  row e's entry j times row e's coefficient: exactly the entry (e, j) of the host's product of the rows with the
  column broadcast along the rows.  Row e is written by block e / 5000, so the 170 blocks fill the whole result.
-/
import proofs.«148666_j65377992179783_1_alg».proof.Proof.Gen.KernelIdeal.Frame
import proofs.«148666_j65377992179783_1_alg».proof.Proof.Spec
import Idealize.ShloMosaic.Lib.Pipeline.Value
import Idealize.ShloMosaic.Lib.ValueIdx

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

/-- A block's rectangle inside its staging buffer starts at the origin. -/
theorem origin1 : (![0, 0] : Fin 2 → Nat) = fun _ => 0 := funext fun a => by fin_cases a <;> rfl

/-- One entry of one block.  If entry j of the block of rows is entry i of the array of rows, and the block of
    coefficients at j's row (its index k) is the array of coefficients at i's row (its index k'), then what the body
    computes at j is what the host's scaling has at i: the product of the two. -/
theorem scale1_point (A : FVec Ideal Cert.ReferenceIdeal.S850000x128 .f32) (B : FVec Ideal Cert.ReferenceIdeal.S850000x1 .f32)
    (x0 : Vec Ideal S5000x128 .f32) (x1 : Vec Ideal S5000x1 .f32)
    (j : S5000x128.Idx) (i : Cert.ReferenceIdeal.S850000x128.Idx) (k : S5000x1.Idx) (k' : Cert.ReferenceIdeal.S850000x1.Idx)
    (h0 : x0 j = A i) (h1 : x1 k = B k')
    (hk0 : (k 0).val = (j 0).val) (hk1 : (k 1).val = 0)
    (hk'0 : (k' 0).val = (i 0).val) (hk'1 : (k' 1).val = 0) :
    k1_pay1 x0 x1 j = scale128 A B i := by
  unfold k1_pay1 scale128
  show (shapeCast S5000x128 x0 shapeCasts_S5000x128_S5000x128) j
        * (broadcastTo S5000x128 (shapeCast S5000x1 x1 shapeCasts_S5000x1_S5000x1) broadcasts_S5000x1_S5000x128) j
      = A i * (broadcastInDim Cert.ReferenceIdeal.S850000x128 ![0, 1] Cert.ReferenceIdeal.Gen.bcast_S850000x1_S850000x128_0_1 B) i
  rw [shapeCast_self, shapeCast_self]
  have eL : broadcastTo S5000x128 x1 broadcasts_S5000x1_S5000x128 j = x1 k :=
    broadcastTo_apply x1 broadcasts_S5000x1_S5000x128 j k (fun a => match a with
      | ⟨0, _⟩ => by show (k 0).val = if (5000 : Nat) = 1 then 0 else (j 0).val; rw [if_neg (by decide)]; exact hk0
      | ⟨1, _⟩ => by show (k 1).val = if (1 : Nat) = 1 then 0 else (j 1).val; rw [if_pos rfl]; exact hk1)
  have eR : broadcastInDim Cert.ReferenceIdeal.S850000x128 ![0, 1] Cert.ReferenceIdeal.Gen.bcast_S850000x1_S850000x128_0_1 B i = B k' :=
    broadcastInDim_apply _ Cert.ReferenceIdeal.Gen.bcast_S850000x1_S850000x128_0_1 B i k' (fun a => match a with
      | ⟨0, _⟩ => by show (k' 0).val = if (850000 : Nat) = 1 then 0 else (i 0).val; rw [if_neg (by decide)]; exact hk'0
      | ⟨1, _⟩ => by show (k' 1).val = if (1 : Nat) = 1 then 0 else (i 1).val; rw [if_pos rfl]; exact hk'1)
  rw [eL, eR, h0, h1]

/-- Where the blocks sit: at point t every window is at block row t, block column 0. -/
theorem where1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the host's scaling of the two entry arrays. -/
theorem scale1_block (V : (c : Dev nD) → (b : Ref sig .tc) → Buf (Elt Ideal) ((c : Thread nD τ).loc b)) (c : Dev nD)
    (h : FVec Ideal Cert.ReferenceIdeal.S850000x128 .f32) (n : FVec Ideal Cert.ReferenceIdeal.S850000x1 .f32)
    (hh : V c main_v43 = h) (hn : V c main_v44 = n) (t : Fin cfg1.N) :
    (dat1 (F := Ideal) V c).flushed 2 t = ((cfg1.win 2).blk t).view.read (Elt Ideal) (scale128 h n) := by
  show (cfg1.win 2).cut (grid1.coords t) ((dat1 V c).after 2 t) = _
  rw [after1_2]
  unfold out1_2
  rw [View.canon_unit_zero origin1]
  simp only [View.ld_unit_zero (S := S5000x128) origin1, View.ld_unit_zero (S := S5000x1) origin1]
  obtain ⟨e00, e01, e10, e11, e20, e21⟩ := where1 t
  refine funext fun (j : S5000x128.Idx) => ?_
  show k1_pay1 (iblk1 V c 0 t) (iblk1 V c 1 t) j = scale128 h n (((cfg1.win 2).blk t).view.emb j)
  let k : S5000x1.Idx := fun a => match a with
    | ⟨0, _⟩ => ⟨(j 0).val, (j 0).isLt⟩
    | ⟨1, _⟩ => ⟨0, Nat.one_pos⟩
  refine scale1_point h n (iblk1 V c 0 t) (iblk1 V c 1 t) j (((cfg1.win 2).blk t).view.emb j) k
    (((cfg1.win 1).blk t).view.emb k) ?_ ?_ rfl rfl ?_ ?_
  · show V c main_v43 (((cfg1.win 0).blk t).view.emb j) = h (((cfg1.win 2).blk t).view.emb j)
    rw [hh]
    refine congrArg h (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v44 (((cfg1.win 1).blk t).view.emb k) = n (((cfg1.win 1).blk t).view.emb k)
    rw [hn]
  · show win1_1.index t (0 : Fin 2) * 5000 + 1 * (j 0).val = win1_2.index t (0 : Fin 2) * 5000 + 1 * (j 0).val
    omega
  · show win1_1.index t (1 : Fin 2) * 1 + 1 * 0 = 0
    omega

/-- An index of the result is in point t's block iff, on each axis, it lies in the block's range. -/
theorem scale1_mem (t : Fin cfg1.N) (i : S850000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row e of the result is written by point e / 5000: the 170 blocks of rows fill the result. -/
theorem scale1_cover (i : S850000x128.Idx) :
    ∃ t : Fin cfg1.N, (cfg1.win 2).flush t = true ∧ i ∈ ((cfg1.win 2).blk t).view.set := by
  have hN : cfg1.N = 170 := N_1
  have hi0 : (i 0).val < 850000 := (i 0).isLt
  have hi1 : (i 1).val < 128 := (i 1).isLt
  let t : Fin cfg1.N := ⟨(i 0).val / 5000, by rw [hN]; omega⟩
  obtain ⟨-, -, -, -, e20, e21⟩ := where1 t
  have ht : t.val = (i 0).val / 5000 := rfl
  refine ⟨t, flush1_2 t, ?_⟩
  rw [scale1_mem]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The first scaling kernel leaves in its result the host's scaling of the two arrays it was entered with. -/
theorem scale_region1 (V : (c : Dev nD) → (b : Ref sig .tc) → Buf (Elt Ideal) ((c : Thread nD τ).loc b)) (c : Dev nD)
    (h : FVec Ideal Cert.ReferenceIdeal.S850000x128 .f32) (n : FVec Ideal Cert.ReferenceIdeal.S850000x1 .f32)
    (hh : V c main_v43 = h) (hn : V c main_v44 = n) :
    (Cert.KernelIdeal.Gen.dat1 (F := Ideal) V c).arrAt 2 cfg1.N = Cert.Bridge.scale128 h n :=
  (dat1 (F := Ideal) V c).arrAt_eq_of_cover 2 (scale128 h n) (fun t _ => scale1_block V c h n hh hn t) scale1_cover

example (m : (ℓ : Loc nD τ sig) → Buf (Elt Ideal) ℓ) (ρ : Dev nD → PrngReg) (c : Dev nD)
    (h : FVec Ideal Cert.ReferenceIdeal.S850000x128 .f32) (n : FVec Ideal Cert.ReferenceIdeal.S850000x1 .f32)
    (hh : Cert.KernelIdeal.Gen.V7 m ρ c main_v43 = h) (hn : Cert.KernelIdeal.Gen.V7 m ρ c main_v44 = n) :=
  ((Cert.KernelIdeal.Gen.W8_arr m ρ c 2).trans (scale_region1 (Cert.KernelIdeal.Gen.V7 m ρ) c h n hh hn))

end Cert.Bridge

end
-- ==== Proof.LnMath.lean ====
/-
  Row normalization, read one entry at a time.

  A row \`h\` of \`n\` extended reals is normalized, at column \`j\`, to
      (h j − μ) · rsqrt (v + ε) · γ + β,     μ = (Σ_k h k) / c,     v = (Σ_k (h k − μ)²) / c,
  where \`c\` is the row length as a float and \`γ\`, \`β\` are the gain and the shift at column \`j\`.
  This module names that value, and reads at an index the few layout operations through which both
  programs build it from whole arrays: a vector of row sums turned into a column, a column or a single
  row spread over a matrix, and the sum of each row of a matrix.  The extents are arbitrary, so the
  same statements serve every row length.
-/
import Idealize.ShloMosaic.PureOps.Ideal.Laws
import Idealize.ShloMosaic.Lib.ValueIdx
import Idealize.ShloMosaic.Lib.ValueLayout

noncomputable section

open scoped BigOperators

namespace Cert.Bridge

open Idealize.ShloMosaic Idealize.ShloMosaic.ValueIdx

/-! ## The normalized entry -/

/-- The mean of a row: the sum of its entries divided by \`c\`. -/
def rowMeanAt {n : ℕ} (c : EReal) (h : Fin n → EReal) : EReal := Ideal.div (∑ k, h k) c

/-- The row centred on its mean. -/
def rowCentredAt {n : ℕ} (c : EReal) (h : Fin n → EReal) (k : Fin n) : EReal := h k - rowMeanAt c h

/-- Entry \`j\` of the normalized row: the centred entry, times the reciprocal square root of the mean square of
    the centred row plus \`ε\`, times the gain, plus the shift. -/
def rowNormAt {n : ℕ} (c ε : EReal) (h : Fin n → EReal) (γ β : EReal) (j : Fin n) : EReal :=
  rowCentredAt c h j
      * Ideal.rsqrt (rowMeanAt c (fun k => rowCentredAt c h k * rowCentredAt c h k) + ε)
      * γ
    + β

variable {α : Type}

/-! ## Columns: a vector as a column, a column spread over a matrix -/

/-- An \`[a]\` array cast to the column \`[a, 1]\` reads, at \`(p, u)\`, the operand at \`p\`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An \`[a, 1]\` column broadcast to \`[a, b]\` reads, at \`(p, c)\`, the column's entry in row \`p\`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of each row of an \`[a, b]\` matrix, read at row \`p\`: the sum over the row's \`b\` entries. -/
theorem multiReduction_add_rows_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-! ## The same readings of the host's operations -/

/-- The host's broadcast of one row \`[1, b]\` over \`[a, b]\` reads, at \`(p, c)\`, the row at \`c\`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a column \`[a, 1]\` over \`[a, b]\` reads, at \`(p, c)\`, the column's entry in row \`p\`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an \`[a]\` array to the column \`[a, 1]\` reads, at \`(p, u)\`, the operand at \`p\`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's sum of each row of an \`[a, b]\` matrix from an initial value, read at row \`p\`: the initial value
    plus the sum over the row's \`b\` entries. -/
theorem hostReduceAdd_rows_apply {a b : ℕ} {φ : FTy} (x : FVec Ideal ⟨2, ![a, b]⟩ φ) (init : (⟨0, ![]⟩ : Shape).Idx → Ideal φ)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (p : Fin a) :
    Host.reduceAdd (F := Ideal) x init h' hu (ix1 p) = init (Shape.Idx.first hu) + ∑ k : Fin b, x (ix2 p k) := by
  show Ideal.hostReduceAdd h' x (init (Shape.Idx.first hu)) (ix1 p) = _
  rw [Ideal.hostReduceAdd_single h' h]
  refine congrArg (_ + ·) (Finset.sum_congr rfl fun k _ => congrArg x (funext fun c => Fin.ext ?_))
  match c with
  | ⟨0, _⟩ => rfl
  | ⟨1, _⟩ => rfl

end Cert.Bridge

end
-- ==== Proof.LnMathRows.lean ====
/-
  The row normalization as a chain of whole-vector operations, and its value at an entry.

  A tile of \`a\` rows and \`b\` columns is normalized with three single rows (a bias, a gain, a shift), in
  the vector operations a tiled body applies: the bias row is spread over the tile and added; each row is
  summed, the sums are stood up as a column and divided by the row length; the column is spread back over
  the tile and subtracted; the squares are averaged the same way; a small constant is added, the reciprocal
  square root taken, spread over the tile and multiplied in; then the gain row and the shift row.
  Read at entry \`(p, q)\` this is the normalized entry \`rowNormAt\` of row \`p\` of the biased tile.
-/
import proofs.«148666_j65377992179783_1_alg».proof.Proof.LnMath

noncomputable section

open scoped BigOperators

namespace Cert.Bridge

open Idealize.ShloMosaic Idealize.ShloMosaic.ValueIdx

variable {a b : ℕ}

/-- The tile with the bias row added to every row. -/
def biasedRows (hs0 : (⟨2, ![a, b]⟩ : Shape).ShapeCasts ⟨2, ![a, b]⟩) (hs1 : (⟨2, ![1, b]⟩ : Shape).ShapeCasts ⟨2, ![1, b]⟩)
    (hb1 : (⟨2, ![1, b]⟩ : Shape).Broadcasts ⟨2, ![a, b]⟩)
    (v0 : Vec Ideal ⟨2, ![a, b]⟩ .f32) (v2 : Vec Ideal ⟨2, ![1, b]⟩ .f32) : FVec Ideal ⟨2, ![a, b]⟩ .f32 :=
  addf (shapeCast ⟨2, ![a, b]⟩ v0 hs0) (broadcastTo ⟨2, ![a, b]⟩ (shapeCast ⟨2, ![1, b]⟩ v2 hs1) hb1)

/-- The column of row means of a tile: the row sums, as a column, divided by the constant of word \`wc\`. -/
def meanCol (wc : BitVec 32) (hr : (⟨2, ![a, b]⟩ : Shape).Reduces [(1 : Fin 2)] ⟨1, ![a]⟩)
    (hc : (⟨1, ![a]⟩ : Shape).ShapeCasts ⟨2, ![a, 1]⟩) (hφ : FKind.Formats .f32)
    (hacc : (0x00000000#32 : BitVec 32) = FKind.add.neutral .f32 hφ)
    (y : FVec Ideal ⟨2, ![a, b]⟩ .f32) : FVec Ideal ⟨2, ![a, 1]⟩ .f32 :=
  divf (shapeCast ⟨2, ![a, 1]⟩ (multiReduction .add [(1 : Fin 2)] ⟨1, ![a]⟩ y 0x00000000#32 hr hφ hacc) hc)
    (broadcast ⟨2, ![a, 1]⟩ (Scalar.ofBits .f32 wc))

/-- The normalized tile: centred rows, times the reciprocal square root of (mean square plus the constant of
    word \`wε\`), times the gain row, plus the shift row. -/
def normRows (wc wε : BitVec 32)
    (hs0 : (⟨2, ![a, b]⟩ : Shape).ShapeCasts ⟨2, ![a, b]⟩) (hs1 : (⟨2, ![1, b]⟩ : Shape).ShapeCasts ⟨2, ![1, b]⟩)
    (hb1 : (⟨2, ![1, b]⟩ : Shape).Broadcasts ⟨2, ![a, b]⟩)
    (hr : (⟨2, ![a, b]⟩ : Shape).Reduces [(1 : Fin 2)] ⟨1, ![a]⟩)
    (hc : (⟨1, ![a]⟩ : Shape).ShapeCasts ⟨2, ![a, 1]⟩) (hbc : (⟨2, ![a, 1]⟩ : Shape).Broadcasts ⟨2, ![a, b]⟩)
    (hφ : FKind.Formats .f32) (hacc : (0x00000000#32 : BitVec 32) = FKind.add.neutral .f32 hφ)
    (v0 : Vec Ideal ⟨2, ![a, b]⟩ .f32) (v2 v24 v28 : Vec Ideal ⟨2, ![1, b]⟩ .f32) : FVec Ideal ⟨2, ![a, b]⟩ .f32 :=
  addf
    (mulf
      (mulf
        (subf (biasedRows hs0 hs1 hb1 v0 v2)
          (broadcastTo ⟨2, ![a, b]⟩ (meanCol wc hr hc hφ hacc (biasedRows hs0 hs1 hb1 v0 v2)) hbc))
        (broadcastTo ⟨2, ![a, b]⟩
          (rsqrt (addf
            (meanCol wc hr hc hφ hacc
              (mulf
                (subf (biasedRows hs0 hs1 hb1 v0 v2)
                  (broadcastTo ⟨2, ![a, b]⟩ (meanCol wc hr hc hφ hacc (biasedRows hs0 hs1 hb1 v0 v2)) hbc))
                (subf (biasedRows hs0 hs1 hb1 v0 v2)
                  (broadcastTo ⟨2, ![a, b]⟩ (meanCol wc hr hc hφ hacc (biasedRows hs0 hs1 hb1 v0 v2)) hbc))))
            (broadcast ⟨2, ![a, 1]⟩ (Scalar.ofBits .f32 wε))))
          hbc))
      (broadcastTo ⟨2, ![a, b]⟩ (shapeCast ⟨2, ![1, b]⟩ v24 hs1) hb1))
    (broadcastTo ⟨2, ![a, b]⟩ (shapeCast ⟨2, ![1, b]⟩ v28 hs1) hb1)

/-- An entry of the biased tile: the tile's entry plus the bias row's entry in the same column. -/
theorem biasedRows_apply (hs0 : (⟨2, ![a, b]⟩ : Shape).ShapeCasts ⟨2, ![a, b]⟩) (hs1 : (⟨2, ![1, b]⟩ : Shape).ShapeCasts ⟨2, ![1, b]⟩)
    (hb1 : (⟨2, ![1, b]⟩ : Shape).Broadcasts ⟨2, ![a, b]⟩)
    (v0 : Vec Ideal ⟨2, ![a, b]⟩ .f32) (v2 : Vec Ideal ⟨2, ![1, b]⟩ .f32) (p : Fin a) (k : Fin b) :
    biasedRows hs0 hs1 hb1 v0 v2 (ix2 p k) = v0 (ix2 p k) + v2 (ix2 (0 : Fin 1) k) := by
  unfold biasedRows
  rw [shapeCast_self, shapeCast_self]
  exact congrArg (v0 (ix2 p k) + ·) (broadcastTo_1b_ab_apply v2 hb1 p k)

/-- An entry of the column of means: the mean of that row. -/
theorem meanCol_apply (wc : BitVec 32) (hr : (⟨2, ![a, b]⟩ : Shape).Reduces [(1 : Fin 2)] ⟨1, ![a]⟩)
    (hc : (⟨1, ![a]⟩ : Shape).ShapeCasts ⟨2, ![a, 1]⟩) (hφ : FKind.Formats .f32)
    (hacc : (0x00000000#32 : BitVec 32) = FKind.add.neutral .f32 hφ)
    (y : FVec Ideal ⟨2, ![a, b]⟩ .f32) (p : Fin a) (u : Fin 1) :
    meanCol wc hr hc hφ hacc y (ix2 p u) = rowMeanAt (Ideal.ofBits .f32 wc) (fun k => y (ix2 p k)) := by
  unfold meanCol rowMeanAt
  show Ideal.div (shapeCast ⟨2, ![a, 1]⟩ (multiReduction .add [(1 : Fin 2)] ⟨1, ![a]⟩ y 0x00000000#32 hr hφ hacc) hc (ix2 p u))
      (Ideal.ofBits .f32 wc) = _
  rw [shapeCast_a_a1_apply, multiReduction_add_rows_apply]

/-- An entry of the normalized tile is the normalized entry of its row of the biased tile. -/
theorem normRows_apply (wc wε : BitVec 32)
    (hs0 : (⟨2, ![a, b]⟩ : Shape).ShapeCasts ⟨2, ![a, b]⟩) (hs1 : (⟨2, ![1, b]⟩ : Shape).ShapeCasts ⟨2, ![1, b]⟩)
    (hb1 : (⟨2, ![1, b]⟩ : Shape).Broadcasts ⟨2, ![a, b]⟩)
    (hr : (⟨2, ![a, b]⟩ : Shape).Reduces [(1 : Fin 2)] ⟨1, ![a]⟩)
    (hc : (⟨1, ![a]⟩ : Shape).ShapeCasts ⟨2, ![a, 1]⟩) (hbc : (⟨2, ![a, 1]⟩ : Shape).Broadcasts ⟨2, ![a, b]⟩)
    (hφ : FKind.Formats .f32) (hacc : (0x00000000#32 : BitVec 32) = FKind.add.neutral .f32 hφ)
    (v0 : Vec Ideal ⟨2, ![a, b]⟩ .f32) (v2 v24 v28 : Vec Ideal ⟨2, ![1, b]⟩ .f32) (p : Fin a) (q : Fin b) :
    normRows wc wε hs0 hs1 hb1 hr hc hbc hφ hacc v0 v2 v24 v28 (ix2 p q)
      = rowNormAt (Ideal.ofBits .f32 wc) (Ideal.ofBits .f32 wε) (fun k => v0 (ix2 p k) + v2 (ix2 (0 : Fin 1) k))
          (v24 (ix2 (0 : Fin 1) q)) (v28 (ix2 (0 : Fin 1) q)) q := by
  -- the centred tile at an entry of row \`p\`
  have hcen : ∀ k : Fin b,
      subf (biasedRows hs0 hs1 hb1 v0 v2)
          (broadcastTo ⟨2, ![a, b]⟩ (meanCol wc hr hc hφ hacc (biasedRows hs0 hs1 hb1 v0 v2)) hbc) (ix2 p k)
        = rowCentredAt (Ideal.ofBits .f32 wc) (fun k => v0 (ix2 p k) + v2 (ix2 (0 : Fin 1) k)) k := by
    intro k
    show biasedRows hs0 hs1 hb1 v0 v2 (ix2 p k)
        - broadcastTo ⟨2, ![a, b]⟩ (meanCol wc hr hc hφ hacc (biasedRows hs0 hs1 hb1 v0 v2)) hbc (ix2 p k) = _
    rw [broadcastTo_a1_ab_apply, meanCol_apply, biasedRows_apply]
    simp only [biasedRows_apply]
    rfl
  unfold normRows rowNormAt
  show (subf (biasedRows hs0 hs1 hb1 v0 v2)
            (broadcastTo ⟨2, ![a, b]⟩ (meanCol wc hr hc hφ hacc (biasedRows hs0 hs1 hb1 v0 v2)) hbc) (ix2 p q)
          * broadcastTo ⟨2, ![a, b]⟩
              (rsqrt (addf
                (meanCol wc hr hc hφ hacc
                  (mulf
                    (subf (biasedRows hs0 hs1 hb1 v0 v2)
                      (broadcastTo ⟨2, ![a, b]⟩ (meanCol wc hr hc hφ hacc (biasedRows hs0 hs1 hb1 v0 v2)) hbc))
                    (subf (biasedRows hs0 hs1 hb1 v0 v2)
                      (broadcastTo ⟨2, ![a, b]⟩ (meanCol wc hr hc hφ hacc (biasedRows hs0 hs1 hb1 v0 v2)) hbc))))
                (broadcast ⟨2, ![a, 1]⟩ (Scalar.ofBits .f32 wε))))
              hbc (ix2 p q)
          * broadcastTo ⟨2, ![a, b]⟩ (shapeCast ⟨2, ![1, b]⟩ v24 hs1) hb1 (ix2 p q)
        + broadcastTo ⟨2, ![a, b]⟩ (shapeCast ⟨2, ![1, b]⟩ v28 hs1) hb1 (ix2 p q)) = _
  rw [hcen q, broadcastTo_a1_ab_apply, shapeCast_self, shapeCast_self, broadcastTo_1b_ab_apply, broadcastTo_1b_ab_apply]
  show rowCentredAt _ _ q
        * Ideal.rsqrt (meanCol wc hr hc hφ hacc
            (mulf
              (subf (biasedRows hs0 hs1 hb1 v0 v2)
                (broadcastTo ⟨2, ![a, b]⟩ (meanCol wc hr hc hφ hacc (biasedRows hs0 hs1 hb1 v0 v2)) hbc))
              (subf (biasedRows hs0 hs1 hb1 v0 v2)
                (broadcastTo ⟨2, ![a, b]⟩ (meanCol wc hr hc hφ hacc (biasedRows hs0 hs1 hb1 v0 v2)) hbc)))
            (ix2 p (0 : Fin 1)) + Ideal.ofBits .f32 wε)
        * v24 (ix2 (0 : Fin 1) q) + v28 (ix2 (0 : Fin 1) q) = _
  rw [meanCol_apply]
  have hsq : (fun k : Fin b =>
      mulf
        (subf (biasedRows hs0 hs1 hb1 v0 v2)
          (broadcastTo ⟨2, ![a, b]⟩ (meanCol wc hr hc hφ hacc (biasedRows hs0 hs1 hb1 v0 v2)) hbc))
        (subf (biasedRows hs0 hs1 hb1 v0 v2)
          (broadcastTo ⟨2, ![a, b]⟩ (meanCol wc hr hc hφ hacc (biasedRows hs0 hs1 hb1 v0 v2)) hbc)) (ix2 p k))
      = fun k => rowCentredAt (Ideal.ofBits .f32 wc) (fun k => v0 (ix2 p k) + v2 (ix2 (0 : Fin 1) k)) k
          * rowCentredAt (Ideal.ofBits .f32 wc) (fun k => v0 (ix2 p k) + v2 (ix2 (0 : Fin 1) k)) k :=
    funext fun k => congrArg₂ (· * ·) (hcen k) (hcen k)
  rw [hsq]

end Cert.Bridge

end
-- ==== Proof.LnMathClosed.lean ====
/-
  The normalized array as one function of the whole arrays it is computed from.

  From an array \`A\` of \`N\` rows and \`b\` columns and three single rows \`B\` (bias), \`G\` (gain), \`T\` (shift),
  entry \`(r, j)\` of the result is the normalized entry \`j\` of the row \`k ↦ A (r, k) + B (0, k)\`, with gain
  \`G (0, j)\` and shift \`T (0, j)\`; the first two layers clamp it at zero from below.  An entry depends on row
  \`r\` of \`A\` only, which is why computing the array tile by tile, a band of rows at a time, gives the same
  array.
-/
import proofs.«148666_j65377992179783_1_alg».proof.Proof.LnMath

noncomputable section

open scoped BigOperators

namespace Cert.Bridge

open Idealize.ShloMosaic Idealize.ShloMosaic.ValueIdx

/-- The row length 128 as a float. -/
abbrev c128 : EReal := Ideal.ofBits .f32 0x43000000#32
/-- The row length 64 as a float. -/
abbrev c64 : EReal := Ideal.ofBits .f32 0x42800000#32
/-- The small constant added to the variance. -/
abbrev epsLn : EReal := Ideal.ofBits .f32 0x3727C5AC#32
/-- The clamp's floor, the float zero. -/
abbrev zeroLn : EReal := Ideal.ofBits .f32 0x00000000#32

variable {N b : ℕ}

/-- Entry \`(r, j)\` of the normalized array. -/
def lnEntry (c ε : EReal) (A : (⟨2, ![N, b]⟩ : Shape).Idx → EReal) (B G T : (⟨2, ![1, b]⟩ : Shape).Idx → EReal)
    (r : Fin N) (j : Fin b) : EReal :=
  rowNormAt c ε (fun k => A (ix2 r k) + B (ix2 (0 : Fin 1) k)) (G (ix2 (0 : Fin 1) j)) (T (ix2 (0 : Fin 1) j)) j

/-- The normalized array. -/
def lnArr (c ε : EReal) (A : (⟨2, ![N, b]⟩ : Shape).Idx → EReal) (B G T : (⟨2, ![1, b]⟩ : Shape).Idx → EReal) :
    (⟨2, ![N, b]⟩ : Shape).Idx → EReal :=
  fun i => lnEntry c ε A B G T ⟨(i 0).val, (i 0).isLt⟩ ⟨(i 1).val, (i 1).isLt⟩

/-- The normalized array clamped from below at \`z\`. -/
def lnArrClamped (c ε z : EReal) (A : (⟨2, ![N, b]⟩ : Shape).Idx → EReal) (B G T : (⟨2, ![1, b]⟩ : Shape).Idx → EReal) :
    (⟨2, ![N, b]⟩ : Shape).Idx → EReal :=
  fun i => max (lnEntry c ε A B G T ⟨(i 0).val, (i 0).isLt⟩ ⟨(i 1).val, (i 1).isLt⟩) z

theorem lnArr_ix2 (c ε : EReal) (A : (⟨2, ![N, b]⟩ : Shape).Idx → EReal) (B G T : (⟨2, ![1, b]⟩ : Shape).Idx → EReal)
    (r : Fin N) (j : Fin b) : lnArr c ε A B G T (ix2 r j) = lnEntry c ε A B G T r j := rfl

theorem lnArrClamped_ix2 (c ε z : EReal) (A : (⟨2, ![N, b]⟩ : Shape).Idx → EReal) (B G T : (⟨2, ![1, b]⟩ : Shape).Idx → EReal)
    (r : Fin N) (j : Fin b) : lnArrClamped c ε z A B G T (ix2 r j) = max (lnEntry c ε A B G T r j) z := rfl

/-- An entry of the normalized array read through a tile: if the tile's row \`p\` is the array's row \`r\` and the
    tile's three single rows are the array's, the normalized entry of the tile's row is the array's entry. -/
theorem rowNormAt_eq_lnEntry {n : ℕ} (c ε : EReal) (x0 : (⟨2, ![n, b]⟩ : Shape).Idx → EReal)
    (x1 x2 x3 : (⟨2, ![1, b]⟩ : Shape).Idx → EReal)
    (A : (⟨2, ![N, b]⟩ : Shape).Idx → EReal) (B G T : (⟨2, ![1, b]⟩ : Shape).Idx → EReal)
    (p : Fin n) (q : Fin b) (r : Fin N)
    (h0 : ∀ k : Fin b, x0 (ix2 p k) = A (ix2 r k)) (h1 : ∀ k : Fin b, x1 (ix2 (0 : Fin 1) k) = B (ix2 (0 : Fin 1) k))
    (h2 : ∀ k : Fin b, x2 (ix2 (0 : Fin 1) k) = G (ix2 (0 : Fin 1) k))
    (h3 : ∀ k : Fin b, x3 (ix2 (0 : Fin 1) k) = T (ix2 (0 : Fin 1) k)) :
    rowNormAt c ε (fun k => x0 (ix2 p k) + x1 (ix2 (0 : Fin 1) k)) (x2 (ix2 (0 : Fin 1) q)) (x3 (ix2 (0 : Fin 1) q)) q
      = lnEntry c ε A B G T r q := by
  unfold lnEntry
  rw [h2 q, h3 q, show (fun k => x0 (ix2 p k) + x1 (ix2 (0 : Fin 1) k)) = fun k => A (ix2 r k) + B (ix2 (0 : Fin 1) k) from
    funext fun k => by rw [h0 k, h1 k]]

end Cert.Bridge

end
-- ==== Proof.LnMathPay.lean ====
/-
  The three normalization bodies are the row normalization.

  Each body's stored value is, by unfolding, the chain of whole-vector operations \`normRows\` on a tile of
  5000 rows — of width 128 with a final clamp at zero in the first two layers, of width 64 without the clamp
  in the last — so an entry of the stored tile is the normalized entry of that row of the biased tile.
-/
import proofs.«148666_j65377992179783_1_alg».proof.Proof.Gen.KernelIdeal.Skeleton
import proofs.«148666_j65377992179783_1_alg».proof.Proof.LnMathRows
import proofs.«148666_j65377992179783_1_alg».proof.Proof.LnMathClosed

noncomputable section

open scoped BigOperators

namespace Cert.Bridge

open Idealize.ShloMosaic Idealize.ShloMosaic.ValueIdx Cert.KernelIdeal

/-- The first layer's body stores the normalized tile clamped at zero. -/
theorem k2_pay1_eq (x0 : Vec Ideal S5000x128 .f32) (x1 x2 x3 : Vec Ideal S1x128 .f32) :
    Gen.k2_pay1 (F := Ideal) x0 x1 x2 x3
      = maximumf
          (normRows 0x43000000#32 0x3727C5AC#32 Gen.shapeCasts_S5000x128_S5000x128 Gen.shapeCasts_S1x128_S1x128
            Gen.broadcasts_S1x128_S5000x128 Gen.reduces_S5000x128_S5000 Gen.shapeCasts_S5000_S5000x1
            Gen.broadcasts_S5000x1_S5000x128 (.inl rfl) rfl x0 x1 x2 x3)
          (broadcast S5000x128 (Scalar.ofBits .f32 0x00000000#32)) := rfl

/-- The second layer's body is the same. -/
theorem k5_pay1_eq (x0 : Vec Ideal S5000x128 .f32) (x1 x2 x3 : Vec Ideal S1x128 .f32) :
    Gen.k5_pay1 (F := Ideal) x0 x1 x2 x3
      = maximumf
          (normRows 0x43000000#32 0x3727C5AC#32 Gen.shapeCasts_S5000x128_S5000x128 Gen.shapeCasts_S1x128_S1x128
            Gen.broadcasts_S1x128_S5000x128 Gen.reduces_S5000x128_S5000 Gen.shapeCasts_S5000_S5000x1
            Gen.broadcasts_S5000x1_S5000x128 (.inl rfl) rfl x0 x1 x2 x3)
          (broadcast S5000x128 (Scalar.ofBits .f32 0x00000000#32)) := rfl

/-- The last layer's body stores the normalized tile of width 64, unclamped. -/
theorem k8_pay1_eq (x0 : Vec Ideal S5000x64 .f32) (x1 x2 x3 : Vec Ideal S1x64 .f32) :
    Gen.k8_pay1 (F := Ideal) x0 x1 x2 x3
      = normRows 0x42800000#32 0x3727C5AC#32 Gen.shapeCasts_S5000x64_S5000x64 Gen.shapeCasts_S1x64_S1x64
          Gen.broadcasts_S1x64_S5000x64 Gen.reduces_S5000x64_S5000 Gen.shapeCasts_S5000_S5000x1
          Gen.broadcasts_S5000x1_S5000x64 (.inl rfl) rfl x0 x1 x2 x3 := rfl

/-- Entry \`(p, q)\` of the first layer's stored tile. -/
theorem k2_pay1_apply (x0 : Vec Ideal S5000x128 .f32) (x1 x2 x3 : Vec Ideal S1x128 .f32) (p : Fin 5000) (q : Fin 128) :
    Gen.k2_pay1 (F := Ideal) x0 x1 x2 x3 (ix2 p q)
      = max (rowNormAt c128 epsLn (fun k => x0 (ix2 p k) + x1 (ix2 (0 : Fin 1) k)) (x2 (ix2 (0 : Fin 1) q))
          (x3 (ix2 (0 : Fin 1) q)) q) zeroLn := by
  rw [k2_pay1_eq]
  exact congrArg (max · zeroLn) (normRows_apply _ _ _ _ _ _ _ _ _ _ x0 x1 x2 x3 p q)

/-- Entry \`(p, q)\` of the second layer's stored tile. -/
theorem k5_pay1_apply (x0 : Vec Ideal S5000x128 .f32) (x1 x2 x3 : Vec Ideal S1x128 .f32) (p : Fin 5000) (q : Fin 128) :
    Gen.k5_pay1 (F := Ideal) x0 x1 x2 x3 (ix2 p q)
      = max (rowNormAt c128 epsLn (fun k => x0 (ix2 p k) + x1 (ix2 (0 : Fin 1) k)) (x2 (ix2 (0 : Fin 1) q))
          (x3 (ix2 (0 : Fin 1) q)) q) zeroLn := by
  rw [k5_pay1_eq]
  exact congrArg (max · zeroLn) (normRows_apply _ _ _ _ _ _ _ _ _ _ x0 x1 x2 x3 p q)

/-- Entry \`(p, q)\` of the last layer's stored tile. -/
theorem k8_pay1_apply (x0 : Vec Ideal S5000x64 .f32) (x1 x2 x3 : Vec Ideal S1x64 .f32) (p : Fin 5000) (q : Fin 64) :
    Gen.k8_pay1 (F := Ideal) x0 x1 x2 x3 (ix2 p q)
      = rowNormAt c64 epsLn (fun k => x0 (ix2 p k) + x1 (ix2 (0 : Fin 1) k)) (x2 (ix2 (0 : Fin 1) q))
          (x3 (ix2 (0 : Fin 1) q)) q := by
  rw [k8_pay1_eq]
  exact normRows_apply _ _ _ _ _ _ _ _ _ _ x0 x1 x2 x3 p q

end Cert.Bridge

end
-- ==== Proof.LnMathHost.lean ====
/-
  The row normalization as a chain of the host's whole-array operations, and its value at an entry.

  The same normalization as \`normRows\`, spelt in the operations a host program applies to whole arrays: the
  bias row broadcast over the array and added; each row summed from an initial zero, the sums broadcast to a
  column and divided by the row length; the column broadcast back and subtracted; the squares averaged the
  same way; a small constant added, the reciprocal square root taken, broadcast and multiplied in; then the
  gain row and the shift row.  Read at entry \`(p, q)\` it is again the normalized entry \`rowNormAt\` of row
  \`p\` of the biased array: the initial zero of the host's sum is the float zero, which adds nothing.
-/
import proofs.«148666_j65377992179783_1_alg».proof.Proof.LnMath

noncomputable section

open scoped BigOperators

namespace Cert.Bridge

open Idealize.ShloMosaic Idealize.ShloMosaic.ValueIdx

variable {a b : ℕ}

/-- The array with the bias row added to every row. -/
def hostBiased (hb1 : (⟨2, ![1, b]⟩ : Shape).BroadcastsInDim ⟨2, ![a, b]⟩ (![0, 1] : Fin 2 → Fin 2))
    (x : FVec Ideal ⟨2, ![a, b]⟩ .f32) (bb : FVec Ideal ⟨2, ![1, b]⟩ .f32) : FVec Ideal ⟨2, ![a, b]⟩ .f32 :=
  addf x (broadcastInDim ⟨2, ![a, b]⟩ ![0, 1] hb1 bb)

/-- The column of row means: the row sums from an initial zero, as a column, divided by the constant of word \`wc\`. -/
def hostMeanCol (wc : BitVec 32) (hr' : (⟨2, ![a, b]⟩ : Shape).ReducesTo [(1 : Fin 2)] ⟨1, ![a]⟩)
    (hu : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (y : FVec Ideal ⟨2, ![a, b]⟩ .f32) : FVec Ideal ⟨2, ![a, 1]⟩ .f32 :=
  Host.divf
    (broadcastInDim ⟨2, ![a, 1]⟩ ![0] hb0 (Host.reduceAdd y (constant ⟨0, ![]⟩ .f32 0x00000000#32) hr' hu))
    (broadcastInDim ⟨2, ![a, 1]⟩ ![] hbs (constant ⟨0, ![]⟩ .f32 wc))

/-- The array minus a column. -/
def hostCentred (hbc : (⟨2, ![a, 1]⟩ : Shape).BroadcastsInDim ⟨2, ![a, b]⟩ (![0, 1] : Fin 2 → Fin 2))
    (h : FVec Ideal ⟨2, ![a, b]⟩ .f32) (mu : FVec Ideal ⟨2, ![a, 1]⟩ .f32) : FVec Ideal ⟨2, ![a, b]⟩ .f32 :=
  subf h (broadcastInDim ⟨2, ![a, b]⟩ ![0, 1] hbc mu)

/-- The normalized array. -/
def hostNormRows (wc wε : BitVec 32)
    (hb1 : (⟨2, ![1, b]⟩ : Shape).BroadcastsInDim ⟨2, ![a, b]⟩ (![0, 1] : Fin 2 → Fin 2))
    (hr' : (⟨2, ![a, b]⟩ : Shape).ReducesTo [(1 : Fin 2)] ⟨1, ![a]⟩) (hu : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hbc : (⟨2, ![a, 1]⟩ : Shape).BroadcastsInDim ⟨2, ![a, b]⟩ (![0, 1] : Fin 2 → Fin 2))
    (x : FVec Ideal ⟨2, ![a, b]⟩ .f32) (bb g t : FVec Ideal ⟨2, ![1, b]⟩ .f32) : FVec Ideal ⟨2, ![a, b]⟩ .f32 :=
  addf
    (mulf
      (mulf (hostCentred hbc (hostBiased hb1 x bb) (hostMeanCol wc hr' hu hb0 hbs (hostBiased hb1 x bb)))
        (broadcastInDim ⟨2, ![a, b]⟩ ![0, 1] hbc
          (Host.rsqrt (addf
            (hostMeanCol wc hr' hu hb0 hbs
              (mulf (hostCentred hbc (hostBiased hb1 x bb) (hostMeanCol wc hr' hu hb0 hbs (hostBiased hb1 x bb)))
                    (hostCentred hbc (hostBiased hb1 x bb) (hostMeanCol wc hr' hu hb0 hbs (hostBiased hb1 x bb)))))
            (broadcastInDim ⟨2, ![a, 1]⟩ ![] hbs (constant ⟨0, ![]⟩ .f32 wε))))))
      (broadcastInDim ⟨2, ![a, b]⟩ ![0, 1] hb1 g))
    (broadcastInDim ⟨2, ![a, b]⟩ ![0, 1] hb1 t)

/-- An entry of the biased array. -/
theorem hostBiased_apply (hb1 : (⟨2, ![1, b]⟩ : Shape).BroadcastsInDim ⟨2, ![a, b]⟩ (![0, 1] : Fin 2 → Fin 2))
    (x : FVec Ideal ⟨2, ![a, b]⟩ .f32) (bb : FVec Ideal ⟨2, ![1, b]⟩ .f32) (p : Fin a) (k : Fin b) :
    hostBiased hb1 x bb (ix2 p k) = x (ix2 p k) + bb (ix2 (0 : Fin 1) k) := by
  unfold hostBiased
  exact congrArg (x (ix2 p k) + ·) (broadcastInDim_1b_ab_apply bb hb1 p k)

/-- An entry of the column of means: the mean of that row (the sum's initial value is the float zero). -/
theorem hostMeanCol_apply (wc : BitVec 32) (hr' : (⟨2, ![a, b]⟩ : Shape).ReducesTo [(1 : Fin 2)] ⟨1, ![a]⟩)
    (hr : (⟨2, ![a, b]⟩ : Shape).Reduces [(1 : Fin 2)] ⟨1, ![a]⟩)
    (hu : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (y : FVec Ideal ⟨2, ![a, b]⟩ .f32) (p : Fin a) (u : Fin 1) :
    hostMeanCol wc hr' hu hb0 hbs y (ix2 p u) = rowMeanAt (Ideal.ofBits .f32 wc) (fun k => y (ix2 p k)) := by
  unfold hostMeanCol rowMeanAt
  show Ideal.div
      (broadcastInDim ⟨2, ![a, 1]⟩ ![0] hb0 (Host.reduceAdd y (constant ⟨0, ![]⟩ .f32 0x00000000#32) hr' hu) (ix2 p u))
      (Ideal.ofBits .f32 wc) = _
  rw [broadcastInDim_a_a1_apply, hostReduceAdd_rows_apply y _ hr' hr hu p]
  show Ideal.div (Ideal.ofBits .f32 0x00000000#32 + ∑ k : Fin b, y (ix2 p k)) (Ideal.ofBits .f32 wc) = _
  rw [Ideal.ofBits_zero_f32, zero_add]

/-- An entry of the normalized array is the normalized entry of its row of the biased array. -/
theorem hostNormRows_apply (wc wε : BitVec 32)
    (hb1 : (⟨2, ![1, b]⟩ : Shape).BroadcastsInDim ⟨2, ![a, b]⟩ (![0, 1] : Fin 2 → Fin 2))
    (hr' : (⟨2, ![a, b]⟩ : Shape).ReducesTo [(1 : Fin 2)] ⟨1, ![a]⟩)
    (hr : (⟨2, ![a, b]⟩ : Shape).Reduces [(1 : Fin 2)] ⟨1, ![a]⟩) (hu : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hbc : (⟨2, ![a, 1]⟩ : Shape).BroadcastsInDim ⟨2, ![a, b]⟩ (![0, 1] : Fin 2 → Fin 2))
    (x : FVec Ideal ⟨2, ![a, b]⟩ .f32) (bb g t : FVec Ideal ⟨2, ![1, b]⟩ .f32) (p : Fin a) (q : Fin b) :
    hostNormRows wc wε hb1 hr' hu hb0 hbs hbc x bb g t (ix2 p q)
      = rowNormAt (Ideal.ofBits .f32 wc) (Ideal.ofBits .f32 wε) (fun k => x (ix2 p k) + bb (ix2 (0 : Fin 1) k))
          (g (ix2 (0 : Fin 1) q)) (t (ix2 (0 : Fin 1) q)) q := by
  have hcen : ∀ k : Fin b,
      hostCentred hbc (hostBiased hb1 x bb) (hostMeanCol wc hr' hu hb0 hbs (hostBiased hb1 x bb)) (ix2 p k)
        = rowCentredAt (Ideal.ofBits .f32 wc) (fun k => x (ix2 p k) + bb (ix2 (0 : Fin 1) k)) k := by
    intro k
    unfold hostCentred
    show hostBiased hb1 x bb (ix2 p k)
        - broadcastInDim ⟨2, ![a, b]⟩ ![0, 1] hbc (hostMeanCol wc hr' hu hb0 hbs (hostBiased hb1 x bb)) (ix2 p k) = _
    rw [broadcastInDim_a1_ab_apply, hostMeanCol_apply wc hr' hr, hostBiased_apply]
    simp only [hostBiased_apply]
    rfl
  unfold hostNormRows rowNormAt
  show (hostCentred hbc (hostBiased hb1 x bb) (hostMeanCol wc hr' hu hb0 hbs (hostBiased hb1 x bb)) (ix2 p q)
          * broadcastInDim ⟨2, ![a, b]⟩ ![0, 1] hbc
              (Host.rsqrt (addf
                (hostMeanCol wc hr' hu hb0 hbs
                  (mulf (hostCentred hbc (hostBiased hb1 x bb) (hostMeanCol wc hr' hu hb0 hbs (hostBiased hb1 x bb)))
                        (hostCentred hbc (hostBiased hb1 x bb) (hostMeanCol wc hr' hu hb0 hbs (hostBiased hb1 x bb)))))
                (broadcastInDim ⟨2, ![a, 1]⟩ ![] hbs (constant ⟨0, ![]⟩ .f32 wε)))) (ix2 p q)
          * broadcastInDim ⟨2, ![a, b]⟩ ![0, 1] hb1 g (ix2 p q)
        + broadcastInDim ⟨2, ![a, b]⟩ ![0, 1] hb1 t (ix2 p q)) = _
  rw [hcen q, broadcastInDim_a1_ab_apply, broadcastInDim_1b_ab_apply, broadcastInDim_1b_ab_apply]
  show rowCentredAt _ _ q
        * Ideal.rsqrt (hostMeanCol wc hr' hu hb0 hbs
            (mulf (hostCentred hbc (hostBiased hb1 x bb) (hostMeanCol wc hr' hu hb0 hbs (hostBiased hb1 x bb)))
                  (hostCentred hbc (hostBiased hb1 x bb) (hostMeanCol wc hr' hu hb0 hbs (hostBiased hb1 x bb))))
            (ix2 p (0 : Fin 1)) + Ideal.ofBits .f32 wε)
        * g (ix2 (0 : Fin 1) q) + t (ix2 (0 : Fin 1) q) = _
  rw [hostMeanCol_apply wc hr' hr]
  have hsq : (fun k : Fin b =>
      mulf (hostCentred hbc (hostBiased hb1 x bb) (hostMeanCol wc hr' hu hb0 hbs (hostBiased hb1 x bb)))
           (hostCentred hbc (hostBiased hb1 x bb) (hostMeanCol wc hr' hu hb0 hbs (hostBiased hb1 x bb))) (ix2 p k))
      = fun k => rowCentredAt (Ideal.ofBits .f32 wc) (fun k => x (ix2 p k) + bb (ix2 (0 : Fin 1) k)) k
          * rowCentredAt (Ideal.ofBits .f32 wc) (fun k => x (ix2 p k) + bb (ix2 (0 : Fin 1) k)) k :=
    funext fun k => congrArg₂ (· * ·) (hcen k) (hcen k)
  rw [hsq]

end Cert.Bridge

end
-- ==== Proof.LnMathRef.lean ====
/-
  The reference's row normalization is the shared closed form.

  The reference's spelling of the normalization — \`ln128\` for the first two layers, \`ln64\` for the last — is,
  by unfolding, the chain of host operations \`hostNormRows\` on the whole array of 50000 rows, clamped at zero
  in the first two layers; so entry by entry it is the normalized array \`lnArrClamped\` / \`lnArr\`.
-/
import proofs.«148666_j65377992179783_1_alg».proof.Proof.Spec
import proofs.«148666_j65377992179783_1_alg».proof.Proof.LnMathHost
import proofs.«148666_j65377992179783_1_alg».proof.Proof.LnMathClosed

noncomputable section

open scoped BigOperators

namespace Cert.Bridge

open Idealize.ShloMosaic Idealize.ShloMosaic.ValueIdx Cert.ReferenceIdeal

/-- The reference's unclamped normalization at width 128 is the chain of host operations. -/
theorem norm128_eq_host (a : FVec Ideal S50000x128 .f32) (b g t : FVec Ideal S1x128 .f32) :
    norm128 (F := Ideal) a b g t
      = hostNormRows 0x43000000#32 0x3727C5AC#32 Gen.bcast_S1x128_S50000x128_0_1 Gen.reducesTo_S50000x128_S50000_d1 Gen.h_S_
          Gen.bcast_S50000_S50000x1_0 Gen.bcast_S_S50000x1 Gen.bcast_S50000x1_S50000x128_0_1 a b g t := rfl

/-- The reference's normalization at width 64 is the chain of host operations. -/
theorem ln64_eq_host (a : FVec Ideal S50000x64 .f32) (b g t : FVec Ideal S1x64 .f32) :
    ln64 (F := Ideal) a b g t
      = hostNormRows 0x42800000#32 0x3727C5AC#32 Gen.bcast_S1x64_S50000x64_0_1 Gen.reducesTo_S50000x64_S50000_d1 Gen.h_S_
          Gen.bcast_S50000_S50000x1_0 Gen.bcast_S_S50000x1 Gen.bcast_S50000x1_S50000x64_0_1 a b g t := rfl

/-- The reference's clamped normalization at width 128, entry by entry. -/
theorem ln128_eq (a : FVec Ideal S50000x128 .f32) (b g t : FVec Ideal S1x128 .f32) :
    ln128 (F := Ideal) a b g t = lnArrClamped c128 epsLn zeroLn a b g t := by
  funext i
  obtain ⟨r, j, rfl⟩ : ∃ (r : Fin 50000) (j : Fin 128), i = ix2 r j := ⟨i 0, i 1, eq_ix2 i⟩
  rw [lnArrClamped_ix2]
  unfold ln128
  show max (norm128 (F := Ideal) a b g t (ix2 r j)) (Ideal.ofBits .f32 0x00000000#32) = _
  rw [norm128_eq_host, hostNormRows_apply _ _ _ _ (by decide)]
  rfl

/-- The reference's normalization at width 64, entry by entry. -/
theorem ln64_eq (a : FVec Ideal S50000x64 .f32) (b g t : FVec Ideal S1x64 .f32) :
    ln64 (F := Ideal) a b g t = lnArr c64 epsLn a b g t := by
  funext i
  obtain ⟨r, j, rfl⟩ : ∃ (r : Fin 50000) (j : Fin 64), i = ix2 r j := ⟨i 0, i 1, eq_ix2 i⟩
  rw [lnArr_ix2, ln64_eq_host, hostNormRows_apply _ _ _ _ (by decide)]
  rfl

end Cert.Bridge

end
-- ==== Proof.RegionLn2.lean ====
/-
  The first layer's row normalization, from tiles to the whole array.

  The region normalizes the array main_v48 (50000 rows of width 128) into main_v52, ten tiles of 5000 rows, one per
  grid point: at point \`t\` the body is entered with rows \`5000 t … 5000 t + 4999\` of main_v48 and with the three single
  rows main_v49 (bias), main_v50 (gain), main_v51 (shift) whole, and stores the normalized tile, which is written back to the
  same rows of main_v52.  An entry of the normalized array depends on its own row only, so the tile stored at \`t\` is
  the band of rows \`5000 t …\` of the normalized whole array; row \`r\` lies in the band of point \`r / 5000\`, so the ten
  bands cover the array, and after the run main_v52 holds the normalized array — the function the reference applies.
-/
import proofs.«148666_j65377992179783_1_alg».proof.Proof.Gen.KernelIdeal.Frame
import proofs.«148666_j65377992179783_1_alg».proof.Proof.LnMathPay
import proofs.«148666_j65377992179783_1_alg».proof.Proof.LnMathRef
import Idealize.ShloMosaic.Lib.Pipeline.Value

set_option maxRecDepth 16384

noncomputable section

open scoped BigOperators

namespace Cert.Bridge

open Idealize.ShloMosaic Idealize.ShloMosaic.TcCoe Idealize.ShloMosaic.ValueIdx
open Idealize.SL Idealize.SL.Sem
open Idealize.ShloMosaic.Pipeline (Dat Cfg Window)
open Cert.KernelIdeal

variable (V : (c : Dev nD) → (b : Ref sig .tc) → Buf (Elt Ideal) ((c : Thread nD τ).loc b))

theorem hz_ln2 : (![0, 0] : Fin 2 → Nat) = fun _ => 0 := funext fun a => by fin_cases a <;> rfl

/-- The index maps, decided over the ten grid points: the input array's window and the output's are at block row \`t\`,
    column 0; the three single rows' windows stay at block (0, 0). -/
theorem idx_facts_ln2 : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point \`t\` is rows \`5000 t …\` of main_v48. -/
theorem iblk2_0_apply (c : Dev nD) (t : Fin cfg2.N) (p : Fin 5000) (k : Fin 128) (r : Fin 50000)
    (hr : r.val = t.val * 5000 + p.val) :
    (Gen.iblk2 V c 0 t : Vec Ideal S5000x128 .f32) (ix2 p k) = (V c main_v48 : S50000x128.Idx → EReal) (ix2 r k) := by
  have e0 : win2_0.index t (0 : Fin 2) = t.val := (idx_facts_ln2 t).1
  have e1 : win2_0.index t (1 : Fin 2) = 0 := (idx_facts_ln2 t).2.1
  unfold Gen.iblk2
  rw [View.read_apply]
  show V c main_v48 _ = V c main_v48 _
  refine congrArg (V c main_v48) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Window 1 is the whole single row main_v49 at every point. -/
theorem iblk2_1_apply (c : Dev nD) (t : Fin cfg2.N) (k : Fin 128) :
    (Gen.iblk2 V c 1 t : Vec Ideal S1x128 .f32) (ix2 (0 : Fin 1) k) = (V c main_v49 : S1x128.Idx → EReal) (ix2 (0 : Fin 1) k) := by
  have e0 : win2_1.index t (0 : Fin 2) = 0 := (idx_facts_ln2 t).2.2.1
  have e1 : win2_1.index t (1 : Fin 2) = 0 := (idx_facts_ln2 t).2.2.2.1
  unfold Gen.iblk2
  rw [View.read_apply]
  show V c main_v49 _ = V c main_v49 _
  refine congrArg (V c main_v49) (funext fun a => Fin.ext ?_)
  match a with
  | ⟨0, _⟩ => show win2_1.index t (0 : Fin 2) * 1 + 1 * 0 = 0; rw [e0]
  | ⟨1, _⟩ => show win2_1.index t (1 : Fin 2) * 128 + 1 * k.val = k.val; rw [e1]; omega

/-- Window 2 is the whole single row main_v50 at every point. -/
theorem iblk2_2_apply (c : Dev nD) (t : Fin cfg2.N) (k : Fin 128) :
    (Gen.iblk2 V c 2 t : Vec Ideal S1x128 .f32) (ix2 (0 : Fin 1) k) = (V c main_v50 : S1x128.Idx → EReal) (ix2 (0 : Fin 1) k) := by
  have e0 : win2_2.index t (0 : Fin 2) = 0 := (idx_facts_ln2 t).2.2.2.2.1
  have e1 : win2_2.index t (1 : Fin 2) = 0 := (idx_facts_ln2 t).2.2.2.2.2.1
  unfold Gen.iblk2
  rw [View.read_apply]
  show V c main_v50 _ = V c main_v50 _
  refine congrArg (V c main_v50) (funext fun a => Fin.ext ?_)
  match a with
  | ⟨0, _⟩ => show win2_2.index t (0 : Fin 2) * 1 + 1 * 0 = 0; rw [e0]
  | ⟨1, _⟩ => show win2_2.index t (1 : Fin 2) * 128 + 1 * k.val = k.val; rw [e1]; omega

/-- Window 3 is the whole single row main_v51 at every point. -/
theorem iblk2_3_apply (c : Dev nD) (t : Fin cfg2.N) (k : Fin 128) :
    (Gen.iblk2 V c 3 t : Vec Ideal S1x128 .f32) (ix2 (0 : Fin 1) k) = (V c main_v51 : S1x128.Idx → EReal) (ix2 (0 : Fin 1) k) := by
  have e0 : win2_3.index t (0 : Fin 2) = 0 := (idx_facts_ln2 t).2.2.2.2.2.2.1
  have e1 : win2_3.index t (1 : Fin 2) = 0 := (idx_facts_ln2 t).2.2.2.2.2.2.2.1
  unfold Gen.iblk2
  rw [View.read_apply]
  show V c main_v51 _ = V c main_v51 _
  refine congrArg (V c main_v51) (funext fun a => Fin.ext ?_)
  match a with
  | ⟨0, _⟩ => show win2_3.index t (0 : Fin 2) * 1 + 1 * 0 = 0; rw [e0]
  | ⟨1, _⟩ => show win2_3.index t (1 : Fin 2) * 128 + 1 * k.val = k.val; rw [e1]; omega

/-- What point \`t\` writes back is block \`t\` of the normalized whole array. -/
theorem flushed_ln2 (c : Dev nD) (t : Fin cfg2.N) :
    (Gen.dat2 V c).flushed 4 t = ((cfg2.win 4).blk t).view.read (Elt Ideal)
      (lnArrClamped c128 epsLn zeroLn (V c main_v48) (V c main_v49) (V c main_v50) (V c main_v51)) := by
  show (cfg2.win 4).cut (grid2.coords t) ((Gen.dat2 V c).after 4 t) = _
  rw [Gen.after2_4]
  unfold Gen.out2_4
  rw [View.canon_unit_zero hz_ln2]
  simp only [View.ld_unit_zero (S := S5000x128) hz_ln2, View.ld_unit_zero (S := S1x128) hz_ln2]
  have e0 : win2_4.index t (0 : Fin 2) = t.val := (idx_facts_ln2 t).2.2.2.2.2.2.2.2.1
  have e1 : win2_4.index t (1 : Fin 2) = 0 := (idx_facts_ln2 t).2.2.2.2.2.2.2.2.2
  show (Gen.k2_pay1 (F := Ideal) (Gen.iblk2 V c 0 t) (Gen.iblk2 V c 1 t) (Gen.iblk2 V c 2 t) (Gen.iblk2 V c 3 t) : S5000x128.Idx → EReal)
      = fun j : S5000x128.Idx => lnArrClamped c128 epsLn zeroLn (V c main_v48) (V c main_v49) (V c main_v50) (V c main_v51)
          (((cfg2.win 4).blk t).view.emb j)
  funext j
  obtain ⟨p, q, rfl⟩ : ∃ (p : Fin 5000) (q : Fin 128), j = ix2 p q := ⟨j 0, j 1, eq_ix2 j⟩
  have hN : cfg2.N = 10 := Gen.N_2
  have hlt : t.val * 5000 + p.val < 50000 := by have := t.isLt; have := p.isLt; omega
  refine (k2_pay1_apply _ _ _ _ p q).trans ?_
  refine (congrArg (max · zeroLn) (rowNormAt_eq_lnEntry c128 epsLn _ _ _ _ (V c main_v48) (V c main_v49) (V c main_v50) (V c main_v51)
    p q ⟨t.val * 5000 + p.val, hlt⟩ (fun k => iblk2_0_apply V c t p k _ rfl) (fun k => iblk2_1_apply V c t k)
    (fun k => iblk2_2_apply V c t k) (fun k => iblk2_3_apply V c t k))).trans ?_
  refine congrArg (max · zeroLn) (congrArg₂ (lnEntry c128 epsLn (V c main_v48) (V c main_v49) (V c main_v50) (V c main_v51)) (Fin.ext ?_) (Fin.ext ?_))
  · show t.val * 5000 + p.val = win2_4.index t (0 : Fin 2) * 5000 + 1 * p.val; rw [e0]; omega
  · show q.val = win2_4.index t (1 : Fin 2) * 128 + 1 * q.val; rw [e1]; omega

/-- An index of main_v52 is in point \`t\`'s block iff each coordinate is in the block's range on its axis. -/
theorem mem_blk_ln2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v52).slice (win2_4.rect t)).set ↔ _
  rw [View.set_slice_whole, Rect.mem_set_unit]
  exact Iff.rfl

/-- The ten bands cover the array: row \`r\` is in the block of point \`r / 5000\`. -/
theorem cover_ln2 (i : S50000x128.Idx) :
    ∃ t : Fin cfg2.N, (cfg2.win 4).flush t = true ∧ i ∈ ((cfg2.win 4).blk t).view.set := by
  have hN : cfg2.N = 10 := Gen.N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  have e0 : win2_4.index t (0 : Fin 2) = t.val := (idx_facts_ln2 t).2.2.2.2.2.2.2.2.1
  have e1 : win2_4.index t (1 : Fin 2) = 0 := (idx_facts_ln2 t).2.2.2.2.2.2.2.2.2
  refine ⟨t, Gen.flush2_4 t, ?_⟩
  rw [mem_blk_ln2]
  intro a
  match a with
  | ⟨0, _⟩ =>
    show win2_4.index t (0 : Fin 2) * 5000 ≤ (i 0).val ∧ (i 0).val < win2_4.index t (0 : Fin 2) * 5000 + 5000
    rw [e0, ht]; omega
  | ⟨1, _⟩ =>
    show win2_4.index t (1 : Fin 2) * 128 ≤ (i 1).val ∧ (i 1).val < win2_4.index t (1 : Fin 2) * 128 + 128
    rw [e1]; omega

/-- After the run main_v52 holds the normalized whole array of the region's entry arrays. -/
theorem final_ln2 (c : Dev nD) :
    (Gen.dat2 V c).arrAt 4 cfg2.N
      = lnArrClamped c128 epsLn zeroLn (V c main_v48) (V c main_v49) (V c main_v50) (V c main_v51) :=
  (Gen.dat2 V c).arrAt_eq_of_cover 4 _ (fun t _ => flushed_ln2 V c t) (cover_ln2)

/-- The region's output array is the reference's row normalization of the arrays the region is entered with. -/
theorem ln_region2 (V : (c : Dev nD) → (b : Ref sig .tc) → Buf (Elt Ideal) ((c : Thread nD τ).loc b)) (c : Dev nD)
    (a : FVec Ideal Cert.ReferenceIdeal.S50000x128 .f32) (b g t : FVec Ideal Cert.ReferenceIdeal.S1x128 .f32)
    (ha : V c main_v48 = a) (hb : V c main_v49 = b) (hg : V c main_v50 = g) (ht : V c main_v51 = t) :
    (Cert.KernelIdeal.Gen.dat2 (F := Ideal) V c).arrAt 4 cfg2.N = Cert.Bridge.ln128 a b g t := by
  subst ha hb hg ht
  exact (final_ln2 V c).trans (ln128_eq _ _ _ _).symm

example (m : (ℓ : Loc nD τ sig) → Buf (Elt Ideal) ℓ) (ρ : Dev nD → PrngReg) (c : Dev nD)
    (a : FVec Ideal Cert.ReferenceIdeal.S50000x128 .f32) (b g t : FVec Ideal Cert.ReferenceIdeal.S1x128 .f32)
    (ha : Cert.KernelIdeal.Gen.V9 m ρ c main_v48 = a) (hb : Cert.KernelIdeal.Gen.V9 m ρ c main_v49 = b)
    (hg : Cert.KernelIdeal.Gen.V9 m ρ c main_v50 = g) (ht : Cert.KernelIdeal.Gen.V9 m ρ c main_v51 = t) :=
  (Cert.KernelIdeal.Gen.W10_arr m ρ c 4).trans (ln_region2 (Cert.KernelIdeal.Gen.V9 m ρ) c a b g t ha hb hg ht)

end Cert.Bridge

end
-- ==== Proof.RegionLin3.lean ====
/-
  The second matrix-product kernel, as one function of the arrays it is entered with.

  The kernel works on 10 blocks of 5000 consecutive rows.  At block t it holds rows 5000·t … 5000·t + 4999 of the
  input (width 128) and the whole 128×128 weight matrix, and writes back, into the same rows of the result, the product
  of the block by the matrix, accumulated from zero; the rounding of both factors to a shorter format changes nothing
  in exact arithmetic.  Entry (r, q) of the result is therefore the sum over k of input (r, k) · weight (k, q): the
  entry (r, q) of the host's product of the whole input by the matrix, which is the same sum over the same 128
  positions.  Nothing is asked of the inputs: the two sums are the same sum, term by term.  Row r is written by
  block r / 5000, so the 10 blocks fill the whole result.
-/
import proofs.«148666_j65377992179783_1_alg».proof.Proof.Gen.KernelIdeal.Frame
import proofs.«148666_j65377992179783_1_alg».proof.Proof.LinDots
import Idealize.ShloMosaic.Lib.Pipeline.Value
import Idealize.ShloMosaic.Lib.ValueIdx

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

/-- A block's rectangle inside its staging buffer starts at the origin. -/
theorem origin3 : (![0, 0] : Fin 2 → Nat) = fun _ => 0 := funext fun a => by fin_cases a <;> rfl

/-- One entry of one block.  If row p of the block of inputs is row r of the input array, and column q of the
    block of weights is column q of the weight array, then what the body computes at (p, q) is what the host's
    product has at (r, q): both are the sum over k of input (r, k) · weight (k, q). -/
theorem lin3_point (A : FVec Ideal Cert.ReferenceIdeal.S50000x128 .f32) (W : FVec Ideal Cert.ReferenceIdeal.S128x128 .f32)
    (x0 : Vec Ideal S5000x128 .f32) (x1 : Vec Ideal S128x128 .f32) (p : Fin 5000) (q : Fin 128) (r : Fin 50000)
    (h0 : ∀ k : Fin 128, x0 (ix2 p k) = A (ix2 r k)) (h1 : ∀ k : Fin 128, x1 (ix2 k q) = W (ix2 k q)) :
    k3_pay1 x0 x1 (ix2 p q)
      = Host.dotGeneral (F := Ideal) Cert.ReferenceIdeal.dot_S50000x128_S128x128_S50000x128_1_0_0_1_n_n none A W (ix2 r q) := by
  unfold k3_pay1
  refine (blockProduct128_apply (truncf .bf16 (shapeCast S5000x128 x0 shapeCasts_S5000x128_S5000x128) bitsLt_bf16_f32) (truncf .bf16 x1 bitsLt_bf16_f32) p q).trans ?_
  refine ((hostProduct128_apply A W r q).trans ?_).symm
  refine Finset.sum_congr rfl fun k _ => ?_
  rw [← h0 k, ← h1 k, shapeCast_self]
  rfl

/-- Where the blocks sit: at point t the input and the result are at block row t, the weights at their one block. -/
theorem where3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the host's product of the two entry arrays. -/
theorem lin3_block (V : (c : Dev nD) → (b : Ref sig .tc) → Buf (Elt Ideal) ((c : Thread nD τ).loc b)) (c : Dev nD)
    (x : FVec Ideal Cert.ReferenceIdeal.S50000x128 .f32) (w : FVec Ideal Cert.ReferenceIdeal.S128x128 .f32)
    (hx : V c main_v52 = x) (hw : V c main_arg7 = w) (t : Fin cfg3.N) :
    (dat3 (F := Ideal) V c).flushed 2 t
      = ((cfg3.win 2).blk t).view.read (Elt Ideal) (Host.dotGeneral (F := Ideal) Cert.ReferenceIdeal.dot_S50000x128_S128x128_S50000x128_1_0_0_1_n_n none x w) := by
  show (cfg3.win 2).cut (grid3.coords t) ((dat3 V c).after 2 t) = _
  rw [after3_2]
  unfold out3_2
  rw [View.canon_unit_zero origin3]
  simp only [View.ld_unit_zero (S := S5000x128) origin3, View.ld_unit_zero (S := S128x128) origin3]
  obtain ⟨e00, e01, e10, e11, e20, e21⟩ := where3 t
  have hN : cfg3.N = 10 := N_3
  have ht : t.val < 10 := by have := t.isLt; omega
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by have := p.isLt; omega
  show k3_pay1 (iblk3 V c 0 t) (iblk3 V c 1 t) (ix2 p q)
      = Host.dotGeneral (F := Ideal) Cert.ReferenceIdeal.dot_S50000x128_S128x128_S50000x128_1_0_0_1_n_n none x w (((cfg3.win 2).blk t).view.emb (ix2 p q))
  have e : ((cfg3.win 2).blk t).view.emb (ix2 p q) = ix2 (⟨t.val * 5000 + p.val, hr⟩ : Fin 50000) q :=
    funext fun a => Fin.ext (by
      match a with
      | ⟨0, _⟩ => show win3_2.index t (0 : Fin 2) * 5000 + 1 * p.val = t.val * 5000 + p.val; omega
      | ⟨1, _⟩ => show win3_2.index t (1 : Fin 2) * 128 + 1 * q.val = q.val; omega)
  rw [e]
  refine lin3_point x w (iblk3 V c 0 t) (iblk3 V c 1 t) p q ⟨t.val * 5000 + p.val, hr⟩ (fun k => ?_) (fun k => ?_)
  · show V c main_v52 (((cfg3.win 0).blk t).view.emb (ix2 p k)) = x (ix2 (⟨t.val * 5000 + p.val, hr⟩ : Fin 50000) k)
    rw [hx]
    refine congrArg x (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · show V c main_arg7 (((cfg3.win 1).blk t).view.emb (ix2 k q)) = w (ix2 k q)
    rw [hw]
    refine congrArg w (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega

/-- An index of the result is in point t's block iff, on each axis, it lies in the block's range. -/
theorem lin3_mem (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v53).slice (win3_2.rect t)).set ↔ _
  rw [View.set_slice_whole, Rect.mem_set_unit]
  exact Iff.rfl

/-- Row r of the result is written by point r / 5000: the 10 blocks of rows fill the result. -/
theorem lin3_cover (i : S50000x128.Idx) :
    ∃ t : Fin cfg3.N, (cfg3.win 2).flush t = true ∧ i ∈ ((cfg3.win 2).blk t).view.set := by
  have hN : cfg3.N = 10 := N_3
  have hi0 : (i 0).val < 50000 := (i 0).isLt
  have hi1 : (i 1).val < 128 := (i 1).isLt
  let t : Fin cfg3.N := ⟨(i 0).val / 5000, by rw [hN]; omega⟩
  obtain ⟨-, -, -, -, e20, e21⟩ := where3 t
  have ht : t.val = (i 0).val / 5000 := rfl
  refine ⟨t, flush3_2 t, ?_⟩
  rw [lin3_mem]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The second matrix-product kernel leaves in its result the host's product of the two arrays it was entered with. -/
theorem lin_region3 (V : (c : Dev nD) → (b : Ref sig .tc) → Buf (Elt Ideal) ((c : Thread nD τ).loc b)) (c : Dev nD)
    (x : FVec Ideal Cert.ReferenceIdeal.S50000x128 .f32) (w : FVec Ideal Cert.ReferenceIdeal.S128x128 .f32)
    (hx : V c main_v52 = x) (hw : V c main_arg7 = w) :
    (Cert.KernelIdeal.Gen.dat3 (F := Ideal) V c).arrAt 2 cfg3.N
      = Host.dotGeneral Cert.ReferenceIdeal.dot_S50000x128_S128x128_S50000x128_1_0_0_1_n_n none x w :=
  (dat3 (F := Ideal) V c).arrAt_eq_of_cover 2 (Host.dotGeneral (F := Ideal) Cert.ReferenceIdeal.dot_S50000x128_S128x128_S50000x128_1_0_0_1_n_n none x w)
    (fun t _ => lin3_block V c x w hx hw t) lin3_cover

example (m : (ℓ : Loc nD τ sig) → Buf (Elt Ideal) ℓ) (ρ : Dev nD → PrngReg) (c : Dev nD)
    (x : FVec Ideal Cert.ReferenceIdeal.S50000x128 .f32) (w : FVec Ideal Cert.ReferenceIdeal.S128x128 .f32)
    (hx : Cert.KernelIdeal.Gen.V10 m ρ c main_v52 = x) (hw : Cert.KernelIdeal.Gen.V10 m ρ c main_arg7 = w) :=
  ((Cert.KernelIdeal.Gen.W11_arr m ρ c 2).trans (lin_region3 (Cert.KernelIdeal.Gen.V10 m ρ) c x w hx hw))

end Cert.Bridge

end
-- ==== Proof.RegionScale4.lean ====
/-
  The second scaling kernel, as one function of the arrays it is entered with.

  The kernel works on 170 blocks of 5000 consecutive rows.  At block t it holds rows 5000·t … 5000·t + 4999 of the
  gathered rows (width 128) and the same rows of the coefficient column (width 1), and writes back, into the same rows
  of the result, every entry of a row multiplied by that row's coefficient.  An entry (e, j) of the result is therefore
  row e's entry j times row e's coefficient: exactly the entry (e, j) of the host's product of the rows with the
  column broadcast along the rows.  Row e is written by block e / 5000, so the 170 blocks fill the whole result.
-/
import proofs.«148666_j65377992179783_1_alg».proof.Proof.Gen.KernelIdeal.Frame
import proofs.«148666_j65377992179783_1_alg».proof.Proof.Spec
import Idealize.ShloMosaic.Lib.Pipeline.Value
import Idealize.ShloMosaic.Lib.ValueIdx

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

/-- A block's rectangle inside its staging buffer starts at the origin. -/
theorem origin4 : (![0, 0] : Fin 2 → Nat) = fun _ => 0 := funext fun a => by fin_cases a <;> rfl

/-- One entry of one block.  If entry j of the block of rows is entry i of the array of rows, and the block of
    coefficients at j's row (its index k) is the array of coefficients at i's row (its index k'), then what the body
    computes at j is what the host's scaling has at i: the product of the two. -/
theorem scale4_point (A : FVec Ideal Cert.ReferenceIdeal.S850000x128 .f32) (B : FVec Ideal Cert.ReferenceIdeal.S850000x1 .f32)
    (x0 : Vec Ideal S5000x128 .f32) (x1 : Vec Ideal S5000x1 .f32)
    (j : S5000x128.Idx) (i : Cert.ReferenceIdeal.S850000x128.Idx) (k : S5000x1.Idx) (k' : Cert.ReferenceIdeal.S850000x1.Idx)
    (h0 : x0 j = A i) (h1 : x1 k = B k')
    (hk0 : (k 0).val = (j 0).val) (hk1 : (k 1).val = 0)
    (hk'0 : (k' 0).val = (i 0).val) (hk'1 : (k' 1).val = 0) :
    k4_pay1 x0 x1 j = scale128 A B i := by
  unfold k4_pay1 scale128
  show (shapeCast S5000x128 x0 shapeCasts_S5000x128_S5000x128) j
        * (broadcastTo S5000x128 (shapeCast S5000x1 x1 shapeCasts_S5000x1_S5000x1) broadcasts_S5000x1_S5000x128) j
      = A i * (broadcastInDim Cert.ReferenceIdeal.S850000x128 ![0, 1] Cert.ReferenceIdeal.Gen.bcast_S850000x1_S850000x128_0_1 B) i
  rw [shapeCast_self, shapeCast_self]
  have eL : broadcastTo S5000x128 x1 broadcasts_S5000x1_S5000x128 j = x1 k :=
    broadcastTo_apply x1 broadcasts_S5000x1_S5000x128 j k (fun a => match a with
      | ⟨0, _⟩ => by show (k 0).val = if (5000 : Nat) = 1 then 0 else (j 0).val; rw [if_neg (by decide)]; exact hk0
      | ⟨1, _⟩ => by show (k 1).val = if (1 : Nat) = 1 then 0 else (j 1).val; rw [if_pos rfl]; exact hk1)
  have eR : broadcastInDim Cert.ReferenceIdeal.S850000x128 ![0, 1] Cert.ReferenceIdeal.Gen.bcast_S850000x1_S850000x128_0_1 B i = B k' :=
    broadcastInDim_apply _ Cert.ReferenceIdeal.Gen.bcast_S850000x1_S850000x128_0_1 B i k' (fun a => match a with
      | ⟨0, _⟩ => by show (k' 0).val = if (850000 : Nat) = 1 then 0 else (i 0).val; rw [if_neg (by decide)]; exact hk'0
      | ⟨1, _⟩ => by show (k' 1).val = if (1 : Nat) = 1 then 0 else (i 1).val; rw [if_pos rfl]; exact hk'1)
  rw [eL, eR, h0, h1]

/-- Where the blocks sit: at point t every window is at block row t, block column 0. -/
theorem where4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the host's scaling of the two entry arrays. -/
theorem scale4_block (V : (c : Dev nD) → (b : Ref sig .tc) → Buf (Elt Ideal) ((c : Thread nD τ).loc b)) (c : Dev nD)
    (h : FVec Ideal Cert.ReferenceIdeal.S850000x128 .f32) (n : FVec Ideal Cert.ReferenceIdeal.S850000x1 .f32)
    (hh : V c main_v60 = h) (hn : V c main_v61 = n) (t : Fin cfg4.N) :
    (dat4 (F := Ideal) V c).flushed 2 t = ((cfg4.win 2).blk t).view.read (Elt Ideal) (scale128 h n) := by
  show (cfg4.win 2).cut (grid4.coords t) ((dat4 V c).after 2 t) = _
  rw [after4_2]
  unfold out4_2
  rw [View.canon_unit_zero origin4]
  simp only [View.ld_unit_zero (S := S5000x128) origin4, View.ld_unit_zero (S := S5000x1) origin4]
  obtain ⟨e00, e01, e10, e11, e20, e21⟩ := where4 t
  refine funext fun (j : S5000x128.Idx) => ?_
  show k4_pay1 (iblk4 V c 0 t) (iblk4 V c 1 t) j = scale128 h n (((cfg4.win 2).blk t).view.emb j)
  let k : S5000x1.Idx := fun a => match a with
    | ⟨0, _⟩ => ⟨(j 0).val, (j 0).isLt⟩
    | ⟨1, _⟩ => ⟨0, Nat.one_pos⟩
  refine scale4_point h n (iblk4 V c 0 t) (iblk4 V c 1 t) j (((cfg4.win 2).blk t).view.emb j) k
    (((cfg4.win 1).blk t).view.emb k) ?_ ?_ rfl rfl ?_ ?_
  · show V c main_v60 (((cfg4.win 0).blk t).view.emb j) = h (((cfg4.win 2).blk t).view.emb j)
    rw [hh]
    refine congrArg h (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  · show V c main_v61 (((cfg4.win 1).blk t).view.emb k) = n (((cfg4.win 1).blk t).view.emb k)
    rw [hn]
  · show win4_1.index t (0 : Fin 2) * 5000 + 1 * (j 0).val = win4_2.index t (0 : Fin 2) * 5000 + 1 * (j 0).val
    omega
  · show win4_1.index t (1 : Fin 2) * 1 + 1 * 0 = 0
    omega

/-- An index of the result is in point t's block iff, on each axis, it lies in the block's range. -/
theorem scale4_mem (t : Fin cfg4.N) (i : S850000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- Row e of the result is written by point e / 5000: the 170 blocks of rows fill the result. -/
theorem scale4_cover (i : S850000x128.Idx) :
    ∃ t : Fin cfg4.N, (cfg4.win 2).flush t = true ∧ i ∈ ((cfg4.win 2).blk t).view.set := by
  have hN : cfg4.N = 170 := N_4
  have hi0 : (i 0).val < 850000 := (i 0).isLt
  have hi1 : (i 1).val < 128 := (i 1).isLt
  let t : Fin cfg4.N := ⟨(i 0).val / 5000, by rw [hN]; omega⟩
  obtain ⟨-, -, -, -, e20, e21⟩ := where4 t
  have ht : t.val = (i 0).val / 5000 := rfl
  refine ⟨t, flush4_2 t, ?_⟩
  rw [scale4_mem]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The second scaling kernel leaves in its result the host's scaling of the two arrays it was entered with. -/
theorem scale_region4 (V : (c : Dev nD) → (b : Ref sig .tc) → Buf (Elt Ideal) ((c : Thread nD τ).loc b)) (c : Dev nD)
    (h : FVec Ideal Cert.ReferenceIdeal.S850000x128 .f32) (n : FVec Ideal Cert.ReferenceIdeal.S850000x1 .f32)
    (hh : V c main_v60 = h) (hn : V c main_v61 = n) :
    (Cert.KernelIdeal.Gen.dat4 (F := Ideal) V c).arrAt 2 cfg4.N = Cert.Bridge.scale128 h n :=
  (dat4 (F := Ideal) V c).arrAt_eq_of_cover 2 (scale128 h n) (fun t _ => scale4_block V c h n hh hn t) scale4_cover

example (m : (ℓ : Loc nD τ sig) → Buf (Elt Ideal) ℓ) (ρ : Dev nD → PrngReg) (c : Dev nD)
    (h : FVec Ideal Cert.ReferenceIdeal.S850000x128 .f32) (n : FVec Ideal Cert.ReferenceIdeal.S850000x1 .f32)
    (hh : Cert.KernelIdeal.Gen.V12 m ρ c main_v60 = h) (hn : Cert.KernelIdeal.Gen.V12 m ρ c main_v61 = n) :=
  ((Cert.KernelIdeal.Gen.W13_arr m ρ c 2).trans (scale_region4 (Cert.KernelIdeal.Gen.V12 m ρ) c h n hh hn))

end Cert.Bridge

end
-- ==== Proof.RegionLn5.lean ====
/-
  The second layer's row normalization, from tiles to the whole array.

  The region normalizes the array main_v65 (50000 rows of width 128) into main_v69, ten tiles of 5000 rows, one per
  grid point: at point \`t\` the body is entered with rows \`5000 t … 5000 t + 4999\` of main_v65 and with the three single
  rows main_v66 (bias), main_v67 (gain), main_v68 (shift) whole, and stores the normalized tile, which is written back to the
  same rows of main_v69.  An entry of the normalized array depends on its own row only, so the tile stored at \`t\` is
  the band of rows \`5000 t …\` of the normalized whole array; row \`r\` lies in the band of point \`r / 5000\`, so the ten
  bands cover the array, and after the run main_v69 holds the normalized array — the function the reference applies.
-/
import proofs.«148666_j65377992179783_1_alg».proof.Proof.Gen.KernelIdeal.Frame
import proofs.«148666_j65377992179783_1_alg».proof.Proof.LnMathPay
import proofs.«148666_j65377992179783_1_alg».proof.Proof.LnMathRef
import Idealize.ShloMosaic.Lib.Pipeline.Value

set_option maxRecDepth 16384

noncomputable section

open scoped BigOperators

namespace Cert.Bridge

open Idealize.ShloMosaic Idealize.ShloMosaic.TcCoe Idealize.ShloMosaic.ValueIdx
open Idealize.SL Idealize.SL.Sem
open Idealize.ShloMosaic.Pipeline (Dat Cfg Window)
open Cert.KernelIdeal

variable (V : (c : Dev nD) → (b : Ref sig .tc) → Buf (Elt Ideal) ((c : Thread nD τ).loc b))

theorem hz_ln5 : (![0, 0] : Fin 2 → Nat) = fun _ => 0 := funext fun a => by fin_cases a <;> rfl

/-- The index maps, decided over the ten grid points: the input array's window and the output's are at block row \`t\`,
    column 0; the three single rows' windows stay at block (0, 0). -/
theorem idx_facts_ln5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Window 0's block at point \`t\` is rows \`5000 t …\` of main_v65. -/
theorem iblk5_0_apply (c : Dev nD) (t : Fin cfg5.N) (p : Fin 5000) (k : Fin 128) (r : Fin 50000)
    (hr : r.val = t.val * 5000 + p.val) :
    (Gen.iblk5 V c 0 t : Vec Ideal S5000x128 .f32) (ix2 p k) = (V c main_v65 : S50000x128.Idx → EReal) (ix2 r k) := by
  have e0 : win5_0.index t (0 : Fin 2) = t.val := (idx_facts_ln5 t).1
  have e1 : win5_0.index t (1 : Fin 2) = 0 := (idx_facts_ln5 t).2.1
  unfold Gen.iblk5
  rw [View.read_apply]
  show V c main_v65 _ = V c main_v65 _
  refine congrArg (V c main_v65) (funext fun a => Fin.ext ?_)
  match a with
  | ⟨0, _⟩ => show win5_0.index t (0 : Fin 2) * 5000 + 1 * p.val = r.val; rw [e0, hr]; omega
  | ⟨1, _⟩ => show win5_0.index t (1 : Fin 2) * 128 + 1 * k.val = k.val; rw [e1]; omega

/-- Window 1 is the whole single row main_v66 at every point. -/
theorem iblk5_1_apply (c : Dev nD) (t : Fin cfg5.N) (k : Fin 128) :
    (Gen.iblk5 V c 1 t : Vec Ideal S1x128 .f32) (ix2 (0 : Fin 1) k) = (V c main_v66 : S1x128.Idx → EReal) (ix2 (0 : Fin 1) k) := by
  have e0 : win5_1.index t (0 : Fin 2) = 0 := (idx_facts_ln5 t).2.2.1
  have e1 : win5_1.index t (1 : Fin 2) = 0 := (idx_facts_ln5 t).2.2.2.1
  unfold Gen.iblk5
  rw [View.read_apply]
  show V c main_v66 _ = V c main_v66 _
  refine congrArg (V c main_v66) (funext fun a => Fin.ext ?_)
  match a with
  | ⟨0, _⟩ => show win5_1.index t (0 : Fin 2) * 1 + 1 * 0 = 0; rw [e0]
  | ⟨1, _⟩ => show win5_1.index t (1 : Fin 2) * 128 + 1 * k.val = k.val; rw [e1]; omega

/-- Window 2 is the whole single row main_v67 at every point. -/
theorem iblk5_2_apply (c : Dev nD) (t : Fin cfg5.N) (k : Fin 128) :
    (Gen.iblk5 V c 2 t : Vec Ideal S1x128 .f32) (ix2 (0 : Fin 1) k) = (V c main_v67 : S1x128.Idx → EReal) (ix2 (0 : Fin 1) k) := by
  have e0 : win5_2.index t (0 : Fin 2) = 0 := (idx_facts_ln5 t).2.2.2.2.1
  have e1 : win5_2.index t (1 : Fin 2) = 0 := (idx_facts_ln5 t).2.2.2.2.2.1
  unfold Gen.iblk5
  rw [View.read_apply]
  show V c main_v67 _ = V c main_v67 _
  refine congrArg (V c main_v67) (funext fun a => Fin.ext ?_)
  match a with
  | ⟨0, _⟩ => show win5_2.index t (0 : Fin 2) * 1 + 1 * 0 = 0; rw [e0]
  | ⟨1, _⟩ => show win5_2.index t (1 : Fin 2) * 128 + 1 * k.val = k.val; rw [e1]; omega

/-- Window 3 is the whole single row main_v68 at every point. -/
theorem iblk5_3_apply (c : Dev nD) (t : Fin cfg5.N) (k : Fin 128) :
    (Gen.iblk5 V c 3 t : Vec Ideal S1x128 .f32) (ix2 (0 : Fin 1) k) = (V c main_v68 : S1x128.Idx → EReal) (ix2 (0 : Fin 1) k) := by
  have e0 : win5_3.index t (0 : Fin 2) = 0 := (idx_facts_ln5 t).2.2.2.2.2.2.1
  have e1 : win5_3.index t (1 : Fin 2) = 0 := (idx_facts_ln5 t).2.2.2.2.2.2.2.1
  unfold Gen.iblk5
  rw [View.read_apply]
  show V c main_v68 _ = V c main_v68 _
  refine congrArg (V c main_v68) (funext fun a => Fin.ext ?_)
  match a with
  | ⟨0, _⟩ => show win5_3.index t (0 : Fin 2) * 1 + 1 * 0 = 0; rw [e0]
  | ⟨1, _⟩ => show win5_3.index t (1 : Fin 2) * 128 + 1 * k.val = k.val; rw [e1]; omega

/-- What point \`t\` writes back is block \`t\` of the normalized whole array. -/
theorem flushed_ln5 (c : Dev nD) (t : Fin cfg5.N) :
    (Gen.dat5 V c).flushed 4 t = ((cfg5.win 4).blk t).view.read (Elt Ideal)
      (lnArrClamped c128 epsLn zeroLn (V c main_v65) (V c main_v66) (V c main_v67) (V c main_v68)) := by
  show (cfg5.win 4).cut (grid5.coords t) ((Gen.dat5 V c).after 4 t) = _
  rw [Gen.after5_4]
  unfold Gen.out5_4
  rw [View.canon_unit_zero hz_ln5]
  simp only [View.ld_unit_zero (S := S5000x128) hz_ln5, View.ld_unit_zero (S := S1x128) hz_ln5]
  have e0 : win5_4.index t (0 : Fin 2) = t.val := (idx_facts_ln5 t).2.2.2.2.2.2.2.2.1
  have e1 : win5_4.index t (1 : Fin 2) = 0 := (idx_facts_ln5 t).2.2.2.2.2.2.2.2.2
  show (Gen.k5_pay1 (F := Ideal) (Gen.iblk5 V c 0 t) (Gen.iblk5 V c 1 t) (Gen.iblk5 V c 2 t) (Gen.iblk5 V c 3 t) : S5000x128.Idx → EReal)
      = fun j : S5000x128.Idx => lnArrClamped c128 epsLn zeroLn (V c main_v65) (V c main_v66) (V c main_v67) (V c main_v68)
          (((cfg5.win 4).blk t).view.emb j)
  funext j
  obtain ⟨p, q, rfl⟩ : ∃ (p : Fin 5000) (q : Fin 128), j = ix2 p q := ⟨j 0, j 1, eq_ix2 j⟩
  have hN : cfg5.N = 10 := Gen.N_5
  have hlt : t.val * 5000 + p.val < 50000 := by have := t.isLt; have := p.isLt; omega
  refine (k5_pay1_apply _ _ _ _ p q).trans ?_
  refine (congrArg (max · zeroLn) (rowNormAt_eq_lnEntry c128 epsLn _ _ _ _ (V c main_v65) (V c main_v66) (V c main_v67) (V c main_v68)
    p q ⟨t.val * 5000 + p.val, hlt⟩ (fun k => iblk5_0_apply V c t p k _ rfl) (fun k => iblk5_1_apply V c t k)
    (fun k => iblk5_2_apply V c t k) (fun k => iblk5_3_apply V c t k))).trans ?_
  refine congrArg (max · zeroLn) (congrArg₂ (lnEntry c128 epsLn (V c main_v65) (V c main_v66) (V c main_v67) (V c main_v68)) (Fin.ext ?_) (Fin.ext ?_))
  · show t.val * 5000 + p.val = win5_4.index t (0 : Fin 2) * 5000 + 1 * p.val; rw [e0]; omega
  · show q.val = win5_4.index t (1 : Fin 2) * 128 + 1 * q.val; rw [e1]; omega

/-- An index of main_v69 is in point \`t\`'s block iff each coordinate is in the block's range on its axis. -/
theorem mem_blk_ln5 (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v69).slice (win5_4.rect t)).set ↔ _
  rw [View.set_slice_whole, Rect.mem_set_unit]
  exact Iff.rfl

/-- The ten bands cover the array: row \`r\` is in the block of point \`r / 5000\`. -/
theorem cover_ln5 (i : S50000x128.Idx) :
    ∃ t : Fin cfg5.N, (cfg5.win 4).flush t = true ∧ i ∈ ((cfg5.win 4).blk t).view.set := by
  have hN : cfg5.N = 10 := Gen.N_5
  have hi0 : (i 0).val < 50000 := (i 0).isLt
  have hi1 : (i 1).val < 128 := (i 1).isLt
  obtain ⟨t, ht⟩ : ∃ t : Fin cfg5.N, t.val = (i 0).val / 5000 := ⟨⟨(i 0).val / 5000, by rw [hN]; omega⟩, rfl⟩
  have e0 : win5_4.index t (0 : Fin 2) = t.val := (idx_facts_ln5 t).2.2.2.2.2.2.2.2.1
  have e1 : win5_4.index t (1 : Fin 2) = 0 := (idx_facts_ln5 t).2.2.2.2.2.2.2.2.2
  refine ⟨t, Gen.flush5_4 t, ?_⟩
  rw [mem_blk_ln5]
  intro a
  match a with
  | ⟨0, _⟩ =>
    show win5_4.index t (0 : Fin 2) * 5000 ≤ (i 0).val ∧ (i 0).val < win5_4.index t (0 : Fin 2) * 5000 + 5000
    rw [e0, ht]; omega
  | ⟨1, _⟩ =>
    show win5_4.index t (1 : Fin 2) * 128 ≤ (i 1).val ∧ (i 1).val < win5_4.index t (1 : Fin 2) * 128 + 128
    rw [e1]; omega

/-- After the run main_v69 holds the normalized whole array of the region's entry arrays. -/
theorem final_ln5 (c : Dev nD) :
    (Gen.dat5 V c).arrAt 4 cfg5.N
      = lnArrClamped c128 epsLn zeroLn (V c main_v65) (V c main_v66) (V c main_v67) (V c main_v68) :=
  (Gen.dat5 V c).arrAt_eq_of_cover 4 _ (fun t _ => flushed_ln5 V c t) (cover_ln5)

/-- The region's output array is the reference's row normalization of the arrays the region is entered with. -/
theorem ln_region5 (V : (c : Dev nD) → (b : Ref sig .tc) → Buf (Elt Ideal) ((c : Thread nD τ).loc b)) (c : Dev nD)
    (a : FVec Ideal Cert.ReferenceIdeal.S50000x128 .f32) (b g t : FVec Ideal Cert.ReferenceIdeal.S1x128 .f32)
    (ha : V c main_v65 = a) (hb : V c main_v66 = b) (hg : V c main_v67 = g) (ht : V c main_v68 = t) :
    (Cert.KernelIdeal.Gen.dat5 (F := Ideal) V c).arrAt 4 cfg5.N = Cert.Bridge.ln128 a b g t := by
  subst ha hb hg ht
  exact (final_ln5 V c).trans (ln128_eq _ _ _ _).symm

example (m : (ℓ : Loc nD τ sig) → Buf (Elt Ideal) ℓ) (ρ : Dev nD → PrngReg) (c : Dev nD)
    (a : FVec Ideal Cert.ReferenceIdeal.S50000x128 .f32) (b g t : FVec Ideal Cert.ReferenceIdeal.S1x128 .f32)
    (ha : Cert.KernelIdeal.Gen.V14 m ρ c main_v65 = a) (hb : Cert.KernelIdeal.Gen.V14 m ρ c main_v66 = b)
    (hg : Cert.KernelIdeal.Gen.V14 m ρ c main_v67 = g) (ht : Cert.KernelIdeal.Gen.V14 m ρ c main_v68 = t) :=
  (Cert.KernelIdeal.Gen.W15_arr m ρ c 4).trans (ln_region5 (Cert.KernelIdeal.Gen.V14 m ρ) c a b g t ha hb hg ht)

end Cert.Bridge

end
-- ==== Proof.RegionLin6.lean ====
/-
  The third matrix-product kernel, as one function of the arrays it is entered with.

  The kernel works on 10 blocks of 5000 consecutive rows.  At block t it holds rows 5000·t … 5000·t + 4999 of the
  input (width 128) and the whole 128×64 weight matrix, and writes back, into the same rows of the result, the product
  of the block by the matrix, accumulated from zero; the rounding of both factors to a shorter format changes nothing
  in exact arithmetic.  Entry (r, q) of the result is therefore the sum over k of input (r, k) · weight (k, q): the
  entry (r, q) of the host's product of the whole input by the matrix, which is the same sum over the same 128
  positions.  Nothing is asked of the inputs: the two sums are the same sum, term by term.  Row r is written by
  block r / 5000, so the 10 blocks fill the whole result.
-/
import proofs.«148666_j65377992179783_1_alg».proof.Proof.Gen.KernelIdeal.Frame
import proofs.«148666_j65377992179783_1_alg».proof.Proof.LinDots
import Idealize.ShloMosaic.Lib.Pipeline.Value
import Idealize.ShloMosaic.Lib.ValueIdx

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

/-- A block's rectangle inside its staging buffer starts at the origin. -/
theorem origin6 : (![0, 0] : Fin 2 → Nat) = fun _ => 0 := funext fun a => by fin_cases a <;> rfl

/-- One entry of one block.  If row p of the block of inputs is row r of the input array, and column q of the
    block of weights is column q of the weight array, then what the body computes at (p, q) is what the host's
    product has at (r, q): both are the sum over k of input (r, k) · weight (k, q). -/
theorem lin6_point (A : FVec Ideal Cert.ReferenceIdeal.S50000x128 .f32) (W : FVec Ideal Cert.ReferenceIdeal.S128x64 .f32)
    (x0 : Vec Ideal S5000x128 .f32) (x1 : Vec Ideal S128x64 .f32) (p : Fin 5000) (q : Fin 64) (r : Fin 50000)
    (h0 : ∀ k : Fin 128, x0 (ix2 p k) = A (ix2 r k)) (h1 : ∀ k : Fin 128, x1 (ix2 k q) = W (ix2 k q)) :
    k6_pay1 x0 x1 (ix2 p q)
      = Host.dotGeneral (F := Ideal) Cert.ReferenceIdeal.dot_S50000x128_S128x64_S50000x64_1_0_0_1_n_n none A W (ix2 r q) := by
  unfold k6_pay1
  refine (blockProduct64_apply (truncf .bf16 (shapeCast S5000x128 x0 shapeCasts_S5000x128_S5000x128) bitsLt_bf16_f32) (truncf .bf16 x1 bitsLt_bf16_f32) p q).trans ?_
  refine ((hostProduct64_apply A W r q).trans ?_).symm
  refine Finset.sum_congr rfl fun k _ => ?_
  rw [← h0 k, ← h1 k, shapeCast_self]
  rfl

/-- Where the blocks sit: at point t the input and the result are at block row t, the weights at their one block. -/
theorem where6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the host's product of the two entry arrays. -/
theorem lin6_block (V : (c : Dev nD) → (b : Ref sig .tc) → Buf (Elt Ideal) ((c : Thread nD τ).loc b)) (c : Dev nD)
    (x : FVec Ideal Cert.ReferenceIdeal.S50000x128 .f32) (w : FVec Ideal Cert.ReferenceIdeal.S128x64 .f32)
    (hx : V c main_v69 = x) (hw : V c main_arg11 = w) (t : Fin cfg6.N) :
    (dat6 (F := Ideal) V c).flushed 2 t
      = ((cfg6.win 2).blk t).view.read (Elt Ideal) (Host.dotGeneral (F := Ideal) Cert.ReferenceIdeal.dot_S50000x128_S128x64_S50000x64_1_0_0_1_n_n none x w) := by
  show (cfg6.win 2).cut (grid6.coords t) ((dat6 V c).after 2 t) = _
  rw [after6_2]
  unfold out6_2
  rw [View.canon_unit_zero origin6]
  simp only [View.ld_unit_zero (S := S5000x128) origin6, View.ld_unit_zero (S := S128x64) origin6]
  obtain ⟨e00, e01, e10, e11, e20, e21⟩ := where6 t
  have hN : cfg6.N = 10 := N_6
  have ht : t.val < 10 := by have := t.isLt; omega
  refine funext fun (j : S5000x64.Idx) => ?_
  obtain ⟨p, q, rfl⟩ : ∃ (p : Fin 5000) (q : Fin 64), j = ix2 p q := ⟨j 0, j 1, eq_ix2 j⟩
  have hr : t.val * 5000 + p.val < 50000 := by have := p.isLt; omega
  show k6_pay1 (iblk6 V c 0 t) (iblk6 V c 1 t) (ix2 p q)
      = Host.dotGeneral (F := Ideal) Cert.ReferenceIdeal.dot_S50000x128_S128x64_S50000x64_1_0_0_1_n_n none x w (((cfg6.win 2).blk t).view.emb (ix2 p q))
  have e : ((cfg6.win 2).blk t).view.emb (ix2 p q) = ix2 (⟨t.val * 5000 + p.val, hr⟩ : Fin 50000) q :=
    funext fun a => Fin.ext (by
      match a with
      | ⟨0, _⟩ => show win6_2.index t (0 : Fin 2) * 5000 + 1 * p.val = t.val * 5000 + p.val; omega
      | ⟨1, _⟩ => show win6_2.index t (1 : Fin 2) * 64 + 1 * q.val = q.val; omega)
  rw [e]
  refine lin6_point x w (iblk6 V c 0 t) (iblk6 V c 1 t) p q ⟨t.val * 5000 + p.val, hr⟩ (fun k => ?_) (fun k => ?_)
  · show V c main_v69 (((cfg6.win 0).blk t).view.emb (ix2 p k)) = x (ix2 (⟨t.val * 5000 + p.val, hr⟩ : Fin 50000) k)
    rw [hx]
    refine congrArg x (funext fun a => Fin.ext ?_)
    match a with
    | ⟨0, _⟩ => show win6_0.index t (0 : Fin 2) * 5000 + 1 * p.val = t.val * 5000 + p.val; omega
    | ⟨1, _⟩ => show win6_0.index t (1 : Fin 2) * 128 + 1 * k.val = k.val; omega
  · show V c main_arg11 (((cfg6.win 1).blk t).view.emb (ix2 k q)) = w (ix2 k q)
    rw [hw]
    refine congrArg w (funext fun a => Fin.ext ?_)
    match a with
    | ⟨0, _⟩ => show win6_1.index t (0 : Fin 2) * 128 + 1 * k.val = k.val; omega
    | ⟨1, _⟩ => show win6_1.index t (1 : Fin 2) * 64 + 1 * q.val = q.val; omega

/-- An index of the result is in point t's block iff, on each axis, it lies in the block's range. -/
theorem lin6_mem (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v70).slice (win6_2.rect t)).set ↔ _
  rw [View.set_slice_whole, Rect.mem_set_unit]
  exact Iff.rfl

/-- Row r of the result is written by point r / 5000: the 10 blocks of rows fill the result. -/
theorem lin6_cover (i : S50000x64.Idx) :
    ∃ t : Fin cfg6.N, (cfg6.win 2).flush t = true ∧ i ∈ ((cfg6.win 2).blk t).view.set := by
  have hN : cfg6.N = 10 := N_6
  have hi0 : (i 0).val < 50000 := (i 0).isLt
  have hi1 : (i 1).val < 64 := (i 1).isLt
  let t : Fin cfg6.N := ⟨(i 0).val / 5000, by rw [hN]; omega⟩
  obtain ⟨-, -, -, -, e20, e21⟩ := where6 t
  have ht : t.val = (i 0).val / 5000 := rfl
  refine ⟨t, flush6_2 t, ?_⟩
  rw [lin6_mem]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The third matrix-product kernel leaves in its result the host's product of the two arrays it was entered with. -/
theorem lin_region6 (V : (c : Dev nD) → (b : Ref sig .tc) → Buf (Elt Ideal) ((c : Thread nD τ).loc b)) (c : Dev nD)
    (x : FVec Ideal Cert.ReferenceIdeal.S50000x128 .f32) (w : FVec Ideal Cert.ReferenceIdeal.S128x64 .f32)
    (hx : V c main_v69 = x) (hw : V c main_arg11 = w) :
    (Cert.KernelIdeal.Gen.dat6 (F := Ideal) V c).arrAt 2 cfg6.N
      = Host.dotGeneral Cert.ReferenceIdeal.dot_S50000x128_S128x64_S50000x64_1_0_0_1_n_n none x w :=
  (dat6 (F := Ideal) V c).arrAt_eq_of_cover 2 (Host.dotGeneral (F := Ideal) Cert.ReferenceIdeal.dot_S50000x128_S128x64_S50000x64_1_0_0_1_n_n none x w)
    (fun t _ => lin6_block V c x w hx hw t) lin6_cover

example (m : (ℓ : Loc nD τ sig) → Buf (Elt Ideal) ℓ) (ρ : Dev nD → PrngReg) (c : Dev nD)
    (x : FVec Ideal Cert.ReferenceIdeal.S50000x128 .f32) (w : FVec Ideal Cert.ReferenceIdeal.S128x64 .f32)
    (hx : Cert.KernelIdeal.Gen.V15 m ρ c main_v69 = x) (hw : Cert.KernelIdeal.Gen.V15 m ρ c main_arg11 = w) :=
  ((Cert.KernelIdeal.Gen.W16_arr m ρ c 2).trans (lin_region6 (Cert.KernelIdeal.Gen.V15 m ρ) c x w hx hw))

end Cert.Bridge

end
-- ==== Proof.RegionScale7.lean ====
/-
  The third scaling kernel, as one function of the arrays it is entered with.

  The kernel works on 170 blocks of 5000 consecutive rows.  At block t it holds rows 5000·t … 5000·t + 4999 of the
  gathered rows (width 64) and the same rows of the coefficient column (width 1), and writes back, into the same rows
  of the result, every entry of a row multiplied by that row's coefficient.  An entry (e, j) of the result is therefore
  row e's entry j times row e's coefficient: exactly the entry (e, j) of the host's product of the rows with the
  column broadcast along the rows.  Row e is written by block e / 5000, so the 170 blocks fill the whole result.
-/
import proofs.«148666_j65377992179783_1_alg».proof.Proof.Gen.KernelIdeal.Frame
import proofs.«148666_j65377992179783_1_alg».proof.Proof.Spec
import Idealize.ShloMosaic.Lib.Pipeline.Value
import Idealize.ShloMosaic.Lib.ValueIdx

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

/-- A block's rectangle inside its staging buffer starts at the origin. -/
theorem origin7 : (![0, 0] : Fin 2 → Nat) = fun _ => 0 := funext fun a => by fin_cases a <;> rfl

/-- One entry of one block.  If entry j of the block of rows is entry i of the array of rows, and the block of
    coefficients at j's row (its index k) is the array of coefficients at i's row (its index k'), then what the body
    computes at j is what the host's scaling has at i: the product of the two. -/
theorem scale7_point (A : FVec Ideal Cert.ReferenceIdeal.S850000x64 .f32) (B : FVec Ideal Cert.ReferenceIdeal.S850000x1 .f32)
    (x0 : Vec Ideal S5000x64 .f32) (x1 : Vec Ideal S5000x1 .f32)
    (j : S5000x64.Idx) (i : Cert.ReferenceIdeal.S850000x64.Idx) (k : S5000x1.Idx) (k' : Cert.ReferenceIdeal.S850000x1.Idx)
    (h0 : x0 j = A i) (h1 : x1 k = B k')
    (hk0 : (k 0).val = (j 0).val) (hk1 : (k 1).val = 0)
    (hk'0 : (k' 0).val = (i 0).val) (hk'1 : (k' 1).val = 0) :
    k7_pay1 x0 x1 j = scale64 A B i := by
  unfold k7_pay1 scale64
  show (shapeCast S5000x64 x0 shapeCasts_S5000x64_S5000x64) j
        * (broadcastTo S5000x64 (shapeCast S5000x1 x1 shapeCasts_S5000x1_S5000x1) broadcasts_S5000x1_S5000x64) j
      = A i * (broadcastInDim Cert.ReferenceIdeal.S850000x64 ![0, 1] Cert.ReferenceIdeal.Gen.bcast_S850000x1_S850000x64_0_1 B) i
  rw [shapeCast_self, shapeCast_self]
  have eL : broadcastTo S5000x64 x1 broadcasts_S5000x1_S5000x64 j = x1 k :=
    broadcastTo_apply x1 broadcasts_S5000x1_S5000x64 j k (fun a => match a with
      | ⟨0, _⟩ => by show (k 0).val = if (5000 : Nat) = 1 then 0 else (j 0).val; rw [if_neg (by decide)]; exact hk0
      | ⟨1, _⟩ => by show (k 1).val = if (1 : Nat) = 1 then 0 else (j 1).val; rw [if_pos rfl]; exact hk1)
  have eR : broadcastInDim Cert.ReferenceIdeal.S850000x64 ![0, 1] Cert.ReferenceIdeal.Gen.bcast_S850000x1_S850000x64_0_1 B i = B k' :=
    broadcastInDim_apply _ Cert.ReferenceIdeal.Gen.bcast_S850000x1_S850000x64_0_1 B i k' (fun a => match a with
      | ⟨0, _⟩ => by show (k' 0).val = if (850000 : Nat) = 1 then 0 else (i 0).val; rw [if_neg (by decide)]; exact hk'0
      | ⟨1, _⟩ => by show (k' 1).val = if (1 : Nat) = 1 then 0 else (i 1).val; rw [if_pos rfl]; exact hk'1)
  rw [eL, eR, h0, h1]

/-- Where the blocks sit: at point t every window is at block row t, block column 0. -/
theorem where7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the host's scaling of the two entry arrays. -/
theorem scale7_block (V : (c : Dev nD) → (b : Ref sig .tc) → Buf (Elt Ideal) ((c : Thread nD τ).loc b)) (c : Dev nD)
    (h : FVec Ideal Cert.ReferenceIdeal.S850000x64 .f32) (n : FVec Ideal Cert.ReferenceIdeal.S850000x1 .f32)
    (hh : V c main_v77 = h) (hn : V c main_v78 = n) (t : Fin cfg7.N) :
    (dat7 (F := Ideal) V c).flushed 2 t = ((cfg7.win 2).blk t).view.read (Elt Ideal) (scale64 h n) := by
  show (cfg7.win 2).cut (grid7.coords t) ((dat7 V c).after 2 t) = _
  rw [after7_2]
  unfold out7_2
  rw [View.canon_unit_zero origin7]
  simp only [View.ld_unit_zero (S := S5000x64) origin7, View.ld_unit_zero (S := S5000x1) origin7]
  obtain ⟨e00, e01, e10, e11, e20, e21⟩ := where7 t
  refine funext fun (j : S5000x64.Idx) => ?_
  show k7_pay1 (iblk7 V c 0 t) (iblk7 V c 1 t) j = scale64 h n (((cfg7.win 2).blk t).view.emb j)
  let k : S5000x1.Idx := fun a => match a with
    | ⟨0, _⟩ => ⟨(j 0).val, (j 0).isLt⟩
    | ⟨1, _⟩ => ⟨0, Nat.one_pos⟩
  refine scale7_point h n (iblk7 V c 0 t) (iblk7 V c 1 t) j (((cfg7.win 2).blk t).view.emb j) k
    (((cfg7.win 1).blk t).view.emb k) ?_ ?_ rfl rfl ?_ ?_
  · show V c main_v77 (((cfg7.win 0).blk t).view.emb j) = h (((cfg7.win 2).blk t).view.emb j)
    rw [hh]
    refine congrArg h (funext fun a => Fin.ext ?_)
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 64 + 1 * (j 1).val = win7_2.index t (1 : Fin 2) * 64 + 1 * (j 1).val; omega
  · show V c main_v78 (((cfg7.win 1).blk t).view.emb k) = n (((cfg7.win 1).blk t).view.emb k)
    rw [hn]
  · show win7_1.index t (0 : Fin 2) * 5000 + 1 * (j 0).val = win7_2.index t (0 : Fin 2) * 5000 + 1 * (j 0).val
    omega
  · show win7_1.index t (1 : Fin 2) * 1 + 1 * 0 = 0
    omega

/-- An index of the result is in point t's block iff, on each axis, it lies in the block's range. -/
theorem scale7_mem (t : Fin cfg7.N) (i : S850000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v79).slice (win7_2.rect t)).set ↔ _
  rw [View.set_slice_whole, Rect.mem_set_unit]
  exact Iff.rfl

/-- Row e of the result is written by point e / 5000: the 170 blocks of rows fill the result. -/
theorem scale7_cover (i : S850000x64.Idx) :
    ∃ t : Fin cfg7.N, (cfg7.win 2).flush t = true ∧ i ∈ ((cfg7.win 2).blk t).view.set := by
  have hN : cfg7.N = 170 := N_7
  have hi0 : (i 0).val < 850000 := (i 0).isLt
  have hi1 : (i 1).val < 64 := (i 1).isLt
  let t : Fin cfg7.N := ⟨(i 0).val / 5000, by rw [hN]; omega⟩
  obtain ⟨-, -, -, -, e20, e21⟩ := where7 t
  have ht : t.val = (i 0).val / 5000 := rfl
  refine ⟨t, flush7_2 t, ?_⟩
  rw [scale7_mem]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- The third scaling kernel leaves in its result the host's scaling of the two arrays it was entered with. -/
theorem scale_region7 (V : (c : Dev nD) → (b : Ref sig .tc) → Buf (Elt Ideal) ((c : Thread nD τ).loc b)) (c : Dev nD)
    (h : FVec Ideal Cert.ReferenceIdeal.S850000x64 .f32) (n : FVec Ideal Cert.ReferenceIdeal.S850000x1 .f32)
    (hh : V c main_v77 = h) (hn : V c main_v78 = n) :
    (Cert.KernelIdeal.Gen.dat7 (F := Ideal) V c).arrAt 2 cfg7.N = Cert.Bridge.scale64 h n :=
  (dat7 (F := Ideal) V c).arrAt_eq_of_cover 2 (scale64 h n) (fun t _ => scale7_block V c h n hh hn t) scale7_cover

example (m : (ℓ : Loc nD τ sig) → Buf (Elt Ideal) ℓ) (ρ : Dev nD → PrngReg) (c : Dev nD)
    (h : FVec Ideal Cert.ReferenceIdeal.S850000x64 .f32) (n : FVec Ideal Cert.ReferenceIdeal.S850000x1 .f32)
    (hh : Cert.KernelIdeal.Gen.V17 m ρ c main_v77 = h) (hn : Cert.KernelIdeal.Gen.V17 m ρ c main_v78 = n) :=
  ((Cert.KernelIdeal.Gen.W18_arr m ρ c 2).trans (scale_region7 (Cert.KernelIdeal.Gen.V17 m ρ) c h n hh hn))

end Cert.Bridge

end
-- ==== Proof.RegionLn8.lean ====
/-
  The last layer's row normalization, from tiles to the whole array.

  The region normalizes the array main_v82 (50000 rows of width 64) into main_v86, ten tiles of 5000 rows, one per
  grid point: at point \`t\` the body is entered with rows \`5000 t … 5000 t + 4999\` of main_v82 and with the three single
  rows main_v83 (bias), main_v84 (gain), main_v85 (shift) whole, and stores the normalized tile, which is written back to the
  same rows of main_v86.  An entry of the normalized array depends on its own row only, so the tile stored at \`t\` is
  the band of rows \`5000 t …\` of the normalized whole array; row \`r\` lies in the band of point \`r / 5000\`, so the ten
  bands cover the array, and after the run main_v86 holds the normalized array — the function the reference applies.
-/
import proofs.«148666_j65377992179783_1_alg».proof.Proof.Gen.KernelIdeal.Frame
import proofs.«148666_j65377992179783_1_alg».proof.Proof.LnMathPay
import proofs.«148666_j65377992179783_1_alg».proof.Proof.LnMathRef
import Idealize.ShloMosaic.Lib.Pipeline.Value

set_option maxRecDepth 16384

noncomputable section

open scoped BigOperators

namespace Cert.Bridge

open Idealize.ShloMosaic Idealize.ShloMosaic.TcCoe Idealize.ShloMosaic.ValueIdx
open Idealize.SL Idealize.SL.Sem
open Idealize.ShloMosaic.Pipeline (Dat Cfg Window)
open Cert.KernelIdeal

variable (V : (c : Dev nD) → (b : Ref sig .tc) → Buf (Elt Ideal) ((c : Thread nD τ).loc b))

theorem hz_ln8 : (![0, 0] : Fin 2 → Nat) = fun _ => 0 := funext fun a => by fin_cases a <;> rfl

/-- The index maps, decided over the ten grid points: the input array's window and the output's are at block row \`t\`,
    column 0; the three single rows' windows stay at block (0, 0). -/
theorem idx_facts_ln8 : ∀ t : Fin cfg8.N,
      win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- Window 0's block at point \`t\` is rows \`5000 t …\` of main_v82. -/
theorem iblk8_0_apply (c : Dev nD) (t : Fin cfg8.N) (p : Fin 5000) (k : Fin 64) (r : Fin 50000)
    (hr : r.val = t.val * 5000 + p.val) :
    (Gen.iblk8 V c 0 t : Vec Ideal S5000x64 .f32) (ix2 p k) = (V c main_v82 : S50000x64.Idx → EReal) (ix2 r k) := by
  have e0 : win8_0.index t (0 : Fin 2) = t.val := (idx_facts_ln8 t).1
  have e1 : win8_0.index t (1 : Fin 2) = 0 := (idx_facts_ln8 t).2.1
  unfold Gen.iblk8
  rw [View.read_apply]
  show V c main_v82 _ = V c main_v82 _
  refine congrArg (V c main_v82) (funext fun a => Fin.ext ?_)
  match a with
  | ⟨0, _⟩ => show win8_0.index t (0 : Fin 2) * 5000 + 1 * p.val = r.val; rw [e0, hr]; omega
  | ⟨1, _⟩ => show win8_0.index t (1 : Fin 2) * 64 + 1 * k.val = k.val; rw [e1]; omega

/-- Window 1 is the whole single row main_v83 at every point. -/
theorem iblk8_1_apply (c : Dev nD) (t : Fin cfg8.N) (k : Fin 64) :
    (Gen.iblk8 V c 1 t : Vec Ideal S1x64 .f32) (ix2 (0 : Fin 1) k) = (V c main_v83 : S1x64.Idx → EReal) (ix2 (0 : Fin 1) k) := by
  have e0 : win8_1.index t (0 : Fin 2) = 0 := (idx_facts_ln8 t).2.2.1
  have e1 : win8_1.index t (1 : Fin 2) = 0 := (idx_facts_ln8 t).2.2.2.1
  unfold Gen.iblk8
  rw [View.read_apply]
  show V c main_v83 _ = V c main_v83 _
  refine congrArg (V c main_v83) (funext fun a => Fin.ext ?_)
  match a with
  | ⟨0, _⟩ => show win8_1.index t (0 : Fin 2) * 1 + 1 * 0 = 0; rw [e0]
  | ⟨1, _⟩ => show win8_1.index t (1 : Fin 2) * 64 + 1 * k.val = k.val; rw [e1]; omega

/-- Window 2 is the whole single row main_v84 at every point. -/
theorem iblk8_2_apply (c : Dev nD) (t : Fin cfg8.N) (k : Fin 64) :
    (Gen.iblk8 V c 2 t : Vec Ideal S1x64 .f32) (ix2 (0 : Fin 1) k) = (V c main_v84 : S1x64.Idx → EReal) (ix2 (0 : Fin 1) k) := by
  have e0 : win8_2.index t (0 : Fin 2) = 0 := (idx_facts_ln8 t).2.2.2.2.1
  have e1 : win8_2.index t (1 : Fin 2) = 0 := (idx_facts_ln8 t).2.2.2.2.2.1
  unfold Gen.iblk8
  rw [View.read_apply]
  show V c main_v84 _ = V c main_v84 _
  refine congrArg (V c main_v84) (funext fun a => Fin.ext ?_)
  match a with
  | ⟨0, _⟩ => show win8_2.index t (0 : Fin 2) * 1 + 1 * 0 = 0; rw [e0]
  | ⟨1, _⟩ => show win8_2.index t (1 : Fin 2) * 64 + 1 * k.val = k.val; rw [e1]; omega

/-- Window 3 is the whole single row main_v85 at every point. -/
theorem iblk8_3_apply (c : Dev nD) (t : Fin cfg8.N) (k : Fin 64) :
    (Gen.iblk8 V c 3 t : Vec Ideal S1x64 .f32) (ix2 (0 : Fin 1) k) = (V c main_v85 : S1x64.Idx → EReal) (ix2 (0 : Fin 1) k) := by
  have e0 : win8_3.index t (0 : Fin 2) = 0 := (idx_facts_ln8 t).2.2.2.2.2.2.1
  have e1 : win8_3.index t (1 : Fin 2) = 0 := (idx_facts_ln8 t).2.2.2.2.2.2.2.1
  unfold Gen.iblk8
  rw [View.read_apply]
  show V c main_v85 _ = V c main_v85 _
  refine congrArg (V c main_v85) (funext fun a => Fin.ext ?_)
  match a with
  | ⟨0, _⟩ => show win8_3.index t (0 : Fin 2) * 1 + 1 * 0 = 0; rw [e0]
  | ⟨1, _⟩ => show win8_3.index t (1 : Fin 2) * 64 + 1 * k.val = k.val; rw [e1]; omega

/-- What point \`t\` writes back is block \`t\` of the normalized whole array. -/
theorem flushed_ln8 (c : Dev nD) (t : Fin cfg8.N) :
    (Gen.dat8 V c).flushed 4 t = ((cfg8.win 4).blk t).view.read (Elt Ideal)
      (lnArr c64 epsLn (V c main_v82) (V c main_v83) (V c main_v84) (V c main_v85)) := by
  show (cfg8.win 4).cut (grid8.coords t) ((Gen.dat8 V c).after 4 t) = _
  rw [Gen.after8_4]
  unfold Gen.out8_4
  rw [View.canon_unit_zero hz_ln8]
  simp only [View.ld_unit_zero (S := S5000x64) hz_ln8, View.ld_unit_zero (S := S1x64) hz_ln8]
  have e0 : win8_4.index t (0 : Fin 2) = t.val := (idx_facts_ln8 t).2.2.2.2.2.2.2.2.1
  have e1 : win8_4.index t (1 : Fin 2) = 0 := (idx_facts_ln8 t).2.2.2.2.2.2.2.2.2
  show (Gen.k8_pay1 (F := Ideal) (Gen.iblk8 V c 0 t) (Gen.iblk8 V c 1 t) (Gen.iblk8 V c 2 t) (Gen.iblk8 V c 3 t) : S5000x64.Idx → EReal)
      = fun j : S5000x64.Idx => lnArr c64 epsLn (V c main_v82) (V c main_v83) (V c main_v84) (V c main_v85)
          (((cfg8.win 4).blk t).view.emb j)
  funext j
  obtain ⟨p, q, rfl⟩ : ∃ (p : Fin 5000) (q : Fin 64), j = ix2 p q := ⟨j 0, j 1, eq_ix2 j⟩
  have hN : cfg8.N = 10 := Gen.N_8
  have hlt : t.val * 5000 + p.val < 50000 := by have := t.isLt; have := p.isLt; omega
  refine (k8_pay1_apply _ _ _ _ p q).trans ?_
  refine (rowNormAt_eq_lnEntry c64 epsLn _ _ _ _ (V c main_v82) (V c main_v83) (V c main_v84) (V c main_v85)
    p q ⟨t.val * 5000 + p.val, hlt⟩ (fun k => iblk8_0_apply V c t p k _ rfl) (fun k => iblk8_1_apply V c t k)
    (fun k => iblk8_2_apply V c t k) (fun k => iblk8_3_apply V c t k)).trans ?_
  refine congrArg₂ (lnEntry c64 epsLn (V c main_v82) (V c main_v83) (V c main_v84) (V c main_v85)) (Fin.ext ?_) (Fin.ext ?_)
  · show t.val * 5000 + p.val = win8_4.index t (0 : Fin 2) * 5000 + 1 * p.val; rw [e0]; omega
  · show q.val = win8_4.index t (1 : Fin 2) * 64 + 1 * q.val; rw [e1]; omega

/-- An index of main_v86 is in point \`t\`'s block iff each coordinate is in the block's range on its axis. -/
theorem mem_blk_ln8 (t : Fin cfg8.N) (i : S50000x64.Idx) :
    i ∈ ((cfg8.win 4).blk t).view.set ↔ ∀ a : Fin 2, win8_4.index t a * S5000x64.size a ≤ (i a).val
      ∧ (i a).val < win8_4.index t a * S5000x64.size a + S5000x64.size a := by
  show i ∈ ((View.whole main_v86).slice (win8_4.rect t)).set ↔ _
  rw [View.set_slice_whole, Rect.mem_set_unit]
  exact Iff.rfl

/-- The ten bands cover the array: row \`r\` is in the block of point \`r / 5000\`. -/
theorem cover_ln8 (i : S50000x64.Idx) :
    ∃ t : Fin cfg8.N, (cfg8.win 4).flush t = true ∧ i ∈ ((cfg8.win 4).blk t).view.set := by
  have hN : cfg8.N = 10 := Gen.N_8
  have hi0 : (i 0).val < 50000 := (i 0).isLt
  have hi1 : (i 1).val < 64 := (i 1).isLt
  obtain ⟨t, ht⟩ : ∃ t : Fin cfg8.N, t.val = (i 0).val / 5000 := ⟨⟨(i 0).val / 5000, by rw [hN]; omega⟩, rfl⟩
  have e0 : win8_4.index t (0 : Fin 2) = t.val := (idx_facts_ln8 t).2.2.2.2.2.2.2.2.1
  have e1 : win8_4.index t (1 : Fin 2) = 0 := (idx_facts_ln8 t).2.2.2.2.2.2.2.2.2
  refine ⟨t, Gen.flush8_4 t, ?_⟩
  rw [mem_blk_ln8]
  intro a
  match a with
  | ⟨0, _⟩ =>
    show win8_4.index t (0 : Fin 2) * 5000 ≤ (i 0).val ∧ (i 0).val < win8_4.index t (0 : Fin 2) * 5000 + 5000
    rw [e0, ht]; omega
  | ⟨1, _⟩ =>
    show win8_4.index t (1 : Fin 2) * 64 ≤ (i 1).val ∧ (i 1).val < win8_4.index t (1 : Fin 2) * 64 + 64
    rw [e1]; omega

/-- After the run main_v86 holds the normalized whole array of the region's entry arrays. -/
theorem final_ln8 (c : Dev nD) :
    (Gen.dat8 V c).arrAt 4 cfg8.N
      = lnArr c64 epsLn (V c main_v82) (V c main_v83) (V c main_v84) (V c main_v85) :=
  (Gen.dat8 V c).arrAt_eq_of_cover 4 _ (fun t _ => flushed_ln8 V c t) (cover_ln8)

/-- The region's output array is the reference's row normalization of the arrays the region is entered with. -/
theorem ln_region8 (V : (c : Dev nD) → (b : Ref sig .tc) → Buf (Elt Ideal) ((c : Thread nD τ).loc b)) (c : Dev nD)
    (a : FVec Ideal Cert.ReferenceIdeal.S50000x64 .f32) (b g t : FVec Ideal Cert.ReferenceIdeal.S1x64 .f32)
    (ha : V c main_v82 = a) (hb : V c main_v83 = b) (hg : V c main_v84 = g) (ht : V c main_v85 = t) :
    (Cert.KernelIdeal.Gen.dat8 (F := Ideal) V c).arrAt 4 cfg8.N = Cert.Bridge.ln64 a b g t := by
  subst ha hb hg ht
  exact (final_ln8 V c).trans (ln64_eq _ _ _ _).symm

example (m : (ℓ : Loc nD τ sig) → Buf (Elt Ideal) ℓ) (ρ : Dev nD → PrngReg) (c : Dev nD)
    (a : FVec Ideal Cert.ReferenceIdeal.S50000x64 .f32) (b g t : FVec Ideal Cert.ReferenceIdeal.S1x64 .f32)
    (ha : Cert.KernelIdeal.Gen.V19 m ρ c main_v82 = a) (hb : Cert.KernelIdeal.Gen.V19 m ρ c main_v83 = b)
    (hg : Cert.KernelIdeal.Gen.V19 m ρ c main_v84 = g) (ht : Cert.KernelIdeal.Gen.V19 m ρ c main_v85 = t) :=
  (Cert.KernelIdeal.Gen.W20_arr m ρ c 4).trans (ln_region8 (Cert.KernelIdeal.Gen.V19 m ρ) c a b g t ha hb hg ht)

end Cert.Bridge

end
-- ==== Proof.Layers.lean ====
/-
  The tiled program, region by region, against the reference's stages.

  Each layer of the tiled program is three tiled regions with two stretches of host operations between them: the
  matrix product (the reference's dot_general of the same operands), the gather and the coefficient column (host
  operations), the scaling (the reference's product with the broadcast column), the scatter-add and the bias, gain
  and shift rows (host operations), and the row normalization (the reference's chain).  Walking the boundaries in
  order, every buffer a segment reads holds the reference's stage of the same value, so the buffer it writes holds
  the reference's next stage; after the ninth region the result buffer holds the reference's result, as a function
  of the launch contents of the fifteen arguments.
-/
import proofs.«148666_j65377992179783_1_alg».proof.Proof.Stage0
import proofs.«148666_j65377992179783_1_alg».proof.Proof.KStage
import proofs.«148666_j65377992179783_1_alg».proof.Proof.SpecStages
import proofs.«148666_j65377992179783_1_alg».proof.Proof.RegionLin0
import proofs.«148666_j65377992179783_1_alg».proof.Proof.RegionScale1
import proofs.«148666_j65377992179783_1_alg».proof.Proof.RegionLn2
import proofs.«148666_j65377992179783_1_alg».proof.Proof.RegionLin3
import proofs.«148666_j65377992179783_1_alg».proof.Proof.RegionScale4
import proofs.«148666_j65377992179783_1_alg».proof.Proof.RegionLn5
import proofs.«148666_j65377992179783_1_alg».proof.Proof.RegionLin6
import proofs.«148666_j65377992179783_1_alg».proof.Proof.RegionScale7
import proofs.«148666_j65377992179783_1_alg».proof.Proof.RegionLn8

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## Layer one -/

/-- The first matrix product. -/
theorem lin1 : W6 m ρ c (Proc.devRef .tc main_v36) = val_main_v36 (F := Ideal) (m ((c : Thread nD τ).loc main_arg0)) (m ((c : Thread nD τ).loc main_arg3)) :=
  (W6_arr m ρ c 2).trans (lin_region0 (V5 m ρ) c (m ((c : Thread nD τ).loc main_arg0)) (m ((c : Thread nD τ).loc main_arg3)) (arg0_W5 m ρ c) (arg3_W5 m ρ c))

/-- Its rows gathered by source node. -/
theorem gathered1 : W7 m ρ c (Proc.devRef .tc main_v43) = val_main_v43 (F := Ideal) (m ((c : Thread nD τ).loc main_arg0)) (m ((c : Thread nD τ).loc main_arg1)) (m ((c : Thread nD τ).loc main_arg3)) :=
  gather1 (W6 m ρ c) (m ((c : Thread nD τ).loc main_arg0)) (m ((c : Thread nD τ).loc main_arg1)) (m ((c : Thread nD τ).loc main_arg3)) (lin1 m ρ c) (src_W6 m ρ c)

/-- The coefficient column. -/
theorem column1 : W7 m ρ c (Proc.devRef .tc main_v44) = val_main_v44 (F := Ideal) (m ((c : Thread nD τ).loc main_arg1)) (m ((c : Thread nD τ).loc main_arg2)) :=
  coefcol1 (W6 m ρ c) (m ((c : Thread nD τ).loc main_arg1)) (m ((c : Thread nD τ).loc main_arg2)) (coef_W6 m ρ c)

/-- The scaled rows. -/
theorem scaled1 : W8 m ρ c (Proc.devRef .tc main_v45) = val_main_v46 (F := Ideal) (m ((c : Thread nD τ).loc main_arg0)) (m ((c : Thread nD τ).loc main_arg1)) (m ((c : Thread nD τ).loc main_arg2)) (m ((c : Thread nD τ).loc main_arg3)) :=
  (W8_arr m ρ c 2).trans <| (scale_region1 (V7 m ρ) c _ _ (gathered1 m ρ c) (column1 m ρ c)).trans (scale_stage1 (m ((c : Thread nD τ).loc main_arg0)) (m ((c : Thread nD τ).loc main_arg1)) (m ((c : Thread nD τ).loc main_arg2)) (m ((c : Thread nD τ).loc main_arg3)))

/-- The first aggregate. -/
theorem agg1 : W9 m ρ c (Proc.devRef .tc main_v48) = val_main_v49 (F := Ideal) (m ((c : Thread nD τ).loc main_arg0)) (m ((c : Thread nD τ).loc main_arg1)) (m ((c : Thread nD τ).loc main_arg2)) (m ((c : Thread nD τ).loc main_arg3)) :=
  scatter1 (W8 m ρ c) (m ((c : Thread nD τ).loc main_arg0)) (m ((c : Thread nD τ).loc main_arg1)) (m ((c : Thread nD τ).loc main_arg2)) (m ((c : Thread nD τ).loc main_arg3)) (scaled1 m ρ c) (dst_W8 m ρ c)

/-- The first layer's output. -/
theorem out1 : W10 m ρ c (Proc.devRef .tc main_v52) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 4).trans <|
    (ln_region2 (V9 m ρ) c _ _ _ _ (agg1 m ρ c) (biasrow1 (W8 m ρ c) (m ((c : Thread nD τ).loc main_arg4)) (arg4_W8 m ρ c)) (gainrow1 (W8 m ρ c) (m ((c : Thread nD τ).loc main_arg5)) (arg5_W8 m ρ c))
      (shiftrow1 (W8 m ρ c) (m ((c : Thread nD τ).loc main_arg6)) (arg6_W8 m ρ c))).trans (ln_stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))

/-! ## Layer two -/

/-- The second matrix product. -/
theorem lin2 : W11 m ρ c (Proc.devRef .tc main_v53) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W11_arr m ρ c 2).trans (lin_region3 (V10 m ρ) c _ (m ((c : Thread nD τ).loc main_arg7)) (out1 m ρ c) (arg7_W10 m ρ c))

/-- Its rows gathered by source node. -/
theorem gathered2 : W12 m ρ c (Proc.devRef .tc main_v60) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  gather2 (W11 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (lin2 m ρ c) (src_W11 m ρ c)

/-- The coefficient column. -/
theorem column2 : W12 m ρ c (Proc.devRef .tc main_v61) = val_main_v118 (F := Ideal) (m ((c : Thread nD τ).loc main_arg1)) (m ((c : Thread nD τ).loc main_arg2)) :=
  coefcol2 (W11 m ρ c) (m ((c : Thread nD τ).loc main_arg1)) (m ((c : Thread nD τ).loc main_arg2)) (coef_W11 m ρ c)

/-- The scaled rows. -/
theorem scaled2 : W13 m ρ c (Proc.devRef .tc main_v62) = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W13_arr m ρ c 2).trans <| (scale_region4 (V12 m ρ) c _ _ (gathered2 m ρ c) (column2 m ρ c)).trans (scale_stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))

/-- The second aggregate. -/
theorem agg2 : W14 m ρ c (Proc.devRef .tc main_v65) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  scatter2 (W13 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (scaled2 m ρ c) (dst_W13 m ρ c)

/-- The second layer's output. -/
theorem out2 : W15 m ρ c (Proc.devRef .tc main_v69) = val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W15_arr m ρ c 4).trans <|
    (ln_region5 (V14 m ρ) c _ _ _ _ (agg2 m ρ c) (biasrow2 (W13 m ρ c) (m ((c : Thread nD τ).loc main_arg8)) (arg8_W13 m ρ c)) (gainrow2 (W13 m ρ c) (m ((c : Thread nD τ).loc main_arg9)) (arg9_W13 m ρ c))
      (shiftrow2 (W13 m ρ c) (m ((c : Thread nD τ).loc main_arg10)) (arg10_W13 m ρ c))).trans (ln_stage2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

/-! ## Layer three -/

/-- The third matrix product. -/
theorem lin3 : W16 m ρ c (Proc.devRef .tc main_v70) = val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W16_arr m ρ c 2).trans (lin_region6 (V15 m ρ) c _ (m ((c : Thread nD τ).loc main_arg11)) (out2 m ρ c) (arg11_W15 m ρ c))

/-- Its rows gathered by source node. -/
theorem gathered3 : W17 m ρ c (Proc.devRef .tc main_v77) = val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  gather3 (W16 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (lin3 m ρ c) (src_W16 m ρ c)

/-- The coefficient column. -/
theorem column3 : W17 m ρ c (Proc.devRef .tc main_v78) = val_main_v192 (F := Ideal) (m ((c : Thread nD τ).loc main_arg1)) (m ((c : Thread nD τ).loc main_arg2)) :=
  coefcol3 (W16 m ρ c) (m ((c : Thread nD τ).loc main_arg1)) (m ((c : Thread nD τ).loc main_arg2)) (coef_W16 m ρ c)

/-- The scaled rows. -/
theorem scaled3 : W18 m ρ c (Proc.devRef .tc main_v79) = val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W18_arr m ρ c 2).trans <| (scale_region7 (V17 m ρ) c _ _ (gathered3 m ρ c) (column3 m ρ c)).trans
    (scale_stage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))

/-- The third aggregate. -/
theorem agg3 : W19 m ρ c (Proc.devRef .tc main_v82) = val_main_v197 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  scatter3 (W18 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (scaled3 m ρ c) (dst_W18 m ρ c)

/-- The result. -/
theorem out3 : W20 m ρ c (Proc.devRef .tc main_v86)
    = val_main_v224 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W20_arr m ρ c 4).trans <|
    (ln_region8 (V19 m ρ) c _ _ _ _ (agg3 m ρ c) (biasrow3 (W18 m ρ c) (m ((c : Thread nD τ).loc main_arg12)) (arg12_W18 m ρ c)) (gainrow3 (W18 m ρ c) (m ((c : Thread nD τ).loc main_arg13)) (arg13_W18 m ρ c))
      (shiftrow3 (W18 m ρ c) (m ((c : Thread nD τ).loc main_arg14)) (arg14_W18 m ρ c))).trans (ln_stage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))

end Cert.Bridge

end
-- ==== Proof.RefStage.lean ====
/-
  The reference's run, layer by layer.

  The reference's main function is 298 host operations in a row; after them every buffer holds the fold of the
  operations over the launch contents.  Written out as one term of the arguments, the result mentions each
  layer's input about six times (the row normalization reads its input for the mean, the centred value and the
  variance), so three layers deep the term is enormous.  Folded one layer at a time it stays small: the first
  103 operations end at the first layer's output, the next 99 at the second's, the last 96 at the result; each
  piece reads, of what came before, only the previous layer's output, the two rows of the edge list, and
  arguments — and no piece writes an argument.  Each stage is the reference's staged value of the same buffer.
-/
import proofs.«148666_j65377992179783_1_alg».proof.Proof.RefRun
import proofs.«148666_j65377992179783_1_alg».proof.Proof.RefRead

set_option maxRecDepth 16384

noncomputable section

namespace Cert.Bridge

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The buffer contents of the reference's TensorCore, as the folds are stated over them. -/
abbrev RVal := Valuation τ sig (Elt Ideal)

/-- No operation of the piece writes the buffer. -/
abbrev RNotWritten (l : List (HloOp τ sig (Elt Ideal))) (b : Ref sig .tc) : Prop :=
  ∀ op ∈ l, (Proc.devRef .tc b : DevRef τ sig) ∉ op.writes

/-- Decides `RNotWritten` for a literal piece and a literal buffer. -/
macro "ref_not_written" : tactic => `(tactic| (
  refine List.forall_iff_forall_mem.mp ?_
  simp only [ops1, ops2, ops3, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem keep1 (U : RVal) (b : Ref sig .tc) (h : RNotWritten ops1 b) : after ops1 U (Proc.devRef .tc b) = U (Proc.devRef .tc b) :=
  after_of_forall_not_mem _ _ h
theorem keep2 (U : RVal) (b : Ref sig .tc) (h : RNotWritten ops2 b) : after ops2 U (Proc.devRef .tc b) = U (Proc.devRef .tc b) :=
  after_of_forall_not_mem _ _ h
theorem keep3 (U : RVal) (b : Ref sig .tc) (h : RNotWritten ops3 b) : after ops3 U (Proc.devRef .tc b) = U (Proc.devRef .tc b) :=
  after_of_forall_not_mem _ _ h

/-- A buffer none of the 298 operations writes ends as launched. -/
theorem keep_all (U : RVal) (b : Ref sig .tc) (h1 : RNotWritten ops1 b) (h2 : RNotWritten ops2 b) (h3 : RNotWritten ops3 b) :
    after ops3 (after ops2 (after ops1 U)) (Proc.devRef .tc b) = U (Proc.devRef .tc b) :=
  (keep3 _ b h3).trans <| (keep2 _ b h2).trans (keep1 U b h1)

/-! ## Joining two vectors

The reference appends the 50000 self-loops to the 800000 edges by joining two vectors end to end.  The joined
vector is a function of the two vectors alone — the proof that their shapes fit the result does not mention
them — and naming it as such lets each of the two be read off the fold separately. -/

/-- Two vectors joined end to end along an axis. -/
def joined {α : Type} (t : Shape) (a : Fin t.rank) (s₁ s₂ : Shape) (h : Shape.Concatenates [s₁, s₂] t a)
    (x : s₁.Idx → α) (y : s₂.Idx → α) : t.Idx → α := concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-! ## Values crossing a function call

The operations of a called function (the replacement of empty neighbourhoods by ones, the clamp at zero) name
their buffers together with the type of the value each holds, and move a value between that type and the buffer's
own along the equation of the two.  For each buffer so named the two types are the same type, so the move is the
identity: one pair of facts per buffer. -/

theorem toBuf_main_cst_2 (h1 h2 h3) (v : (⟨S_, .f32⟩ : BufTy).Contents (Elt Ideal)) :
    (TRef.of (sig := sig) (T := ⟨S_, .f32⟩) main_cst_2 h1 h2 h3).toBuf (Val := Elt Ideal) v = v := rfl
theorem ofBuf_main_cst_2 (h1 h2 h3) (v : (⟨S_, .f32⟩ : BufTy).Contents (Elt Ideal)) :
    (TRef.of (sig := sig) (T := ⟨S_, .f32⟩) main_cst_2 h1 h2 h3).ofBuf (Val := Elt Ideal) v = v := rfl
theorem toBuf_main_call0_v0 (h1 h2 h3) (v : (⟨S_, .f32⟩ : BufTy).Contents (Elt Ideal)) :
    (TRef.of (sig := sig) (T := ⟨S_, .f32⟩) main_call0_v0 h1 h2 h3).toBuf (Val := Elt Ideal) v = v := rfl
theorem ofBuf_main_call0_v0 (h1 h2 h3) (v : (⟨S_, .f32⟩ : BufTy).Contents (Elt Ideal)) :
    (TRef.of (sig := sig) (T := ⟨S_, .f32⟩) main_call0_v0 h1 h2 h3).ofBuf (Val := Elt Ideal) v = v := rfl
theorem toBuf_main_call0_v1 (h1 h2 h3) (v : (⟨S50000, .f32⟩ : BufTy).Contents (Elt Ideal)) :
    (TRef.of (sig := sig) (T := ⟨S50000, .f32⟩) main_call0_v1 h1 h2 h3).toBuf (Val := Elt Ideal) v = v := rfl
theorem ofBuf_main_call0_v1 (h1 h2 h3) (v : (⟨S50000, .f32⟩ : BufTy).Contents (Elt Ideal)) :
    (TRef.of (sig := sig) (T := ⟨S50000, .f32⟩) main_call0_v1 h1 h2 h3).ofBuf (Val := Elt Ideal) v = v := rfl
theorem toBuf_main_v13 (h1 h2 h3) (v : (⟨S50000, .i1⟩ : BufTy).Contents (Elt Ideal)) :
    (TRef.of (sig := sig) (T := ⟨S50000, .i1⟩) main_v13 h1 h2 h3).toBuf (Val := Elt Ideal) v = v := rfl
theorem ofBuf_main_v13 (h1 h2 h3) (v : (⟨S50000, .i1⟩ : BufTy).Contents (Elt Ideal)) :
    (TRef.of (sig := sig) (T := ⟨S50000, .i1⟩) main_v13 h1 h2 h3).ofBuf (Val := Elt Ideal) v = v := rfl
theorem toBuf_main_v11 (h1 h2 h3) (v : (⟨S50000, .f32⟩ : BufTy).Contents (Elt Ideal)) :
    (TRef.of (sig := sig) (T := ⟨S50000, .f32⟩) main_v11 h1 h2 h3).toBuf (Val := Elt Ideal) v = v := rfl
theorem ofBuf_main_v11 (h1 h2 h3) (v : (⟨S50000, .f32⟩ : BufTy).Contents (Elt Ideal)) :
    (TRef.of (sig := sig) (T := ⟨S50000, .f32⟩) main_v11 h1 h2 h3).ofBuf (Val := Elt Ideal) v = v := rfl
theorem toBuf_main_v14 (h1 h2 h3) (v : (⟨S50000, .f32⟩ : BufTy).Contents (Elt Ideal)) :
    (TRef.of (sig := sig) (T := ⟨S50000, .f32⟩) main_v14 h1 h2 h3).toBuf (Val := Elt Ideal) v = v := rfl
theorem ofBuf_main_v14 (h1 h2 h3) (v : (⟨S50000, .f32⟩ : BufTy).Contents (Elt Ideal)) :
    (TRef.of (sig := sig) (T := ⟨S50000, .f32⟩) main_v14 h1 h2 h3).ofBuf (Val := Elt Ideal) v = v := rfl
theorem toBuf_main_cst_5 (h1 h2 h3) (v : (⟨S_, .f32⟩ : BufTy).Contents (Elt Ideal)) :
    (TRef.of (sig := sig) (T := ⟨S_, .f32⟩) main_cst_5 h1 h2 h3).toBuf (Val := Elt Ideal) v = v := rfl
theorem ofBuf_main_cst_5 (h1 h2 h3) (v : (⟨S_, .f32⟩ : BufTy).Contents (Elt Ideal)) :
    (TRef.of (sig := sig) (T := ⟨S_, .f32⟩) main_cst_5 h1 h2 h3).ofBuf (Val := Elt Ideal) v = v := rfl
theorem toBuf_main_call1_v0 (h1 h2 h3) (v : (⟨S_, .f32⟩ : BufTy).Contents (Elt Ideal)) :
    (TRef.of (sig := sig) (T := ⟨S_, .f32⟩) main_call1_v0 h1 h2 h3).toBuf (Val := Elt Ideal) v = v := rfl
theorem ofBuf_main_call1_v0 (h1 h2 h3) (v : (⟨S_, .f32⟩ : BufTy).Contents (Elt Ideal)) :
    (TRef.of (sig := sig) (T := ⟨S_, .f32⟩) main_call1_v0 h1 h2 h3).ofBuf (Val := Elt Ideal) v = v := rfl
theorem toBuf_main_call1_v1 (h1 h2 h3) (v : (⟨S50000, .f32⟩ : BufTy).Contents (Elt Ideal)) :
    (TRef.of (sig := sig) (T := ⟨S50000, .f32⟩) main_call1_v1 h1 h2 h3).toBuf (Val := Elt Ideal) v = v := rfl
theorem ofBuf_main_call1_v1 (h1 h2 h3) (v : (⟨S50000, .f32⟩ : BufTy).Contents (Elt Ideal)) :
    (TRef.of (sig := sig) (T := ⟨S50000, .f32⟩) main_call1_v1 h1 h2 h3).ofBuf (Val := Elt Ideal) v = v := rfl
theorem toBuf_main_v18 (h1 h2 h3) (v : (⟨S50000, .i1⟩ : BufTy).Contents (Elt Ideal)) :
    (TRef.of (sig := sig) (T := ⟨S50000, .i1⟩) main_v18 h1 h2 h3).toBuf (Val := Elt Ideal) v = v := rfl
theorem ofBuf_main_v18 (h1 h2 h3) (v : (⟨S50000, .i1⟩ : BufTy).Contents (Elt Ideal)) :
    (TRef.of (sig := sig) (T := ⟨S50000, .i1⟩) main_v18 h1 h2 h3).ofBuf (Val := Elt Ideal) v = v := rfl
theorem toBuf_main_v16 (h1 h2 h3) (v : (⟨S50000, .f32⟩ : BufTy).Contents (Elt Ideal)) :
    (TRef.of (sig := sig) (T := ⟨S50000, .f32⟩) main_v16 h1 h2 h3).toBuf (Val := Elt Ideal) v = v := rfl
theorem ofBuf_main_v16 (h1 h2 h3) (v : (⟨S50000, .f32⟩ : BufTy).Contents (Elt Ideal)) :
    (TRef.of (sig := sig) (T := ⟨S50000, .f32⟩) main_v16 h1 h2 h3).ofBuf (Val := Elt Ideal) v = v := rfl
theorem toBuf_main_v19 (h1 h2 h3) (v : (⟨S50000, .f32⟩ : BufTy).Contents (Elt Ideal)) :
    (TRef.of (sig := sig) (T := ⟨S50000, .f32⟩) main_v19 h1 h2 h3).toBuf (Val := Elt Ideal) v = v := rfl
theorem ofBuf_main_v19 (h1 h2 h3) (v : (⟨S50000, .f32⟩ : BufTy).Contents (Elt Ideal)) :
    (TRef.of (sig := sig) (T := ⟨S50000, .f32⟩) main_v19 h1 h2 h3).ofBuf (Val := Elt Ideal) v = v := rfl
theorem toBuf_main_call2_cst (h1 h2 h3) (v : (⟨S_, .f32⟩ : BufTy).Contents (Elt Ideal)) :
    (TRef.of (sig := sig) (T := ⟨S_, .f32⟩) main_call2_cst h1 h2 h3).toBuf (Val := Elt Ideal) v = v := rfl
theorem ofBuf_main_call2_cst (h1 h2 h3) (v : (⟨S_, .f32⟩ : BufTy).Contents (Elt Ideal)) :
    (TRef.of (sig := sig) (T := ⟨S_, .f32⟩) main_call2_cst h1 h2 h3).ofBuf (Val := Elt Ideal) v = v := rfl
theorem toBuf_main_call2_v0 (h1 h2 h3) (v : (⟨S50000x128, .f32⟩ : BufTy).Contents (Elt Ideal)) :
    (TRef.of (sig := sig) (T := ⟨S50000x128, .f32⟩) main_call2_v0 h1 h2 h3).toBuf (Val := Elt Ideal) v = v := rfl
theorem ofBuf_main_call2_v0 (h1 h2 h3) (v : (⟨S50000x128, .f32⟩ : BufTy).Contents (Elt Ideal)) :
    (TRef.of (sig := sig) (T := ⟨S50000x128, .f32⟩) main_call2_v0 h1 h2 h3).ofBuf (Val := Elt Ideal) v = v := rfl
theorem toBuf_main_v76 (h1 h2 h3) (v : (⟨S50000x128, .f32⟩ : BufTy).Contents (Elt Ideal)) :
    (TRef.of (sig := sig) (T := ⟨S50000x128, .f32⟩) main_v76 h1 h2 h3).toBuf (Val := Elt Ideal) v = v := rfl
theorem ofBuf_main_v76 (h1 h2 h3) (v : (⟨S50000x128, .f32⟩ : BufTy).Contents (Elt Ideal)) :
    (TRef.of (sig := sig) (T := ⟨S50000x128, .f32⟩) main_v76 h1 h2 h3).ofBuf (Val := Elt Ideal) v = v := rfl
theorem toBuf_main_v77 (h1 h2 h3) (v : (⟨S50000x128, .f32⟩ : BufTy).Contents (Elt Ideal)) :
    (TRef.of (sig := sig) (T := ⟨S50000x128, .f32⟩) main_v77 h1 h2 h3).toBuf (Val := Elt Ideal) v = v := rfl
theorem ofBuf_main_v77 (h1 h2 h3) (v : (⟨S50000x128, .f32⟩ : BufTy).Contents (Elt Ideal)) :
    (TRef.of (sig := sig) (T := ⟨S50000x128, .f32⟩) main_v77 h1 h2 h3).ofBuf (Val := Elt Ideal) v = v := rfl
theorem toBuf_main_cst_20 (h1 h2 h3) (v : (⟨S_, .f32⟩ : BufTy).Contents (Elt Ideal)) :
    (TRef.of (sig := sig) (T := ⟨S_, .f32⟩) main_cst_20 h1 h2 h3).toBuf (Val := Elt Ideal) v = v := rfl
theorem ofBuf_main_cst_20 (h1 h2 h3) (v : (⟨S_, .f32⟩ : BufTy).Contents (Elt Ideal)) :
    (TRef.of (sig := sig) (T := ⟨S_, .f32⟩) main_cst_20 h1 h2 h3).ofBuf (Val := Elt Ideal) v = v := rfl
theorem toBuf_main_call3_v0 (h1 h2 h3) (v : (⟨S_, .f32⟩ : BufTy).Contents (Elt Ideal)) :
    (TRef.of (sig := sig) (T := ⟨S_, .f32⟩) main_call3_v0 h1 h2 h3).toBuf (Val := Elt Ideal) v = v := rfl
theorem ofBuf_main_call3_v0 (h1 h2 h3) (v : (⟨S_, .f32⟩ : BufTy).Contents (Elt Ideal)) :
    (TRef.of (sig := sig) (T := ⟨S_, .f32⟩) main_call3_v0 h1 h2 h3).ofBuf (Val := Elt Ideal) v = v := rfl
theorem toBuf_main_call3_v1 (h1 h2 h3) (v : (⟨S50000, .f32⟩ : BufTy).Contents (Elt Ideal)) :
    (TRef.of (sig := sig) (T := ⟨S50000, .f32⟩) main_call3_v1 h1 h2 h3).toBuf (Val := Elt Ideal) v = v := rfl
theorem ofBuf_main_call3_v1 (h1 h2 h3) (v : (⟨S50000, .f32⟩ : BufTy).Contents (Elt Ideal)) :
    (TRef.of (sig := sig) (T := ⟨S50000, .f32⟩) main_call3_v1 h1 h2 h3).ofBuf (Val := Elt Ideal) v = v := rfl
theorem toBuf_main_v87 (h1 h2 h3) (v : (⟨S50000, .i1⟩ : BufTy).Contents (Elt Ideal)) :
    (TRef.of (sig := sig) (T := ⟨S50000, .i1⟩) main_v87 h1 h2 h3).toBuf (Val := Elt Ideal) v = v := rfl
theorem ofBuf_main_v87 (h1 h2 h3) (v : (⟨S50000, .i1⟩ : BufTy).Contents (Elt Ideal)) :
    (TRef.of (sig := sig) (T := ⟨S50000, .i1⟩) main_v87 h1 h2 h3).ofBuf (Val := Elt Ideal) v = v := rfl
theorem toBuf_main_v85 (h1 h2 h3) (v : (⟨S50000, .f32⟩ : BufTy).Contents (Elt Ideal)) :
    (TRef.of (sig := sig) (T := ⟨S50000, .f32⟩) main_v85 h1 h2 h3).toBuf (Val := Elt Ideal) v = v := rfl
theorem ofBuf_main_v85 (h1 h2 h3) (v : (⟨S50000, .f32⟩ : BufTy).Contents (Elt Ideal)) :
    (TRef.of (sig := sig) (T := ⟨S50000, .f32⟩) main_v85 h1 h2 h3).ofBuf (Val := Elt Ideal) v = v := rfl
theorem toBuf_main_v88 (h1 h2 h3) (v : (⟨S50000, .f32⟩ : BufTy).Contents (Elt Ideal)) :
    (TRef.of (sig := sig) (T := ⟨S50000, .f32⟩) main_v88 h1 h2 h3).toBuf (Val := Elt Ideal) v = v := rfl
theorem ofBuf_main_v88 (h1 h2 h3) (v : (⟨S50000, .f32⟩ : BufTy).Contents (Elt Ideal)) :
    (TRef.of (sig := sig) (T := ⟨S50000, .f32⟩) main_v88 h1 h2 h3).ofBuf (Val := Elt Ideal) v = v := rfl
theorem toBuf_main_cst_23 (h1 h2 h3) (v : (⟨S_, .f32⟩ : BufTy).Contents (Elt Ideal)) :
    (TRef.of (sig := sig) (T := ⟨S_, .f32⟩) main_cst_23 h1 h2 h3).toBuf (Val := Elt Ideal) v = v := rfl
theorem ofBuf_main_cst_23 (h1 h2 h3) (v : (⟨S_, .f32⟩ : BufTy).Contents (Elt Ideal)) :
    (TRef.of (sig := sig) (T := ⟨S_, .f32⟩) main_cst_23 h1 h2 h3).ofBuf (Val := Elt Ideal) v = v := rfl
theorem toBuf_main_call4_v0 (h1 h2 h3) (v : (⟨S_, .f32⟩ : BufTy).Contents (Elt Ideal)) :
    (TRef.of (sig := sig) (T := ⟨S_, .f32⟩) main_call4_v0 h1 h2 h3).toBuf (Val := Elt Ideal) v = v := rfl
theorem ofBuf_main_call4_v0 (h1 h2 h3) (v : (⟨S_, .f32⟩ : BufTy).Contents (Elt Ideal)) :
    (TRef.of (sig := sig) (T := ⟨S_, .f32⟩) main_call4_v0 h1 h2 h3).ofBuf (Val := Elt Ideal) v = v := rfl
theorem toBuf_main_call4_v1 (h1 h2 h3) (v : (⟨S50000, .f32⟩ : BufTy).Contents (Elt Ideal)) :
    (TRef.of (sig := sig) (T := ⟨S50000, .f32⟩) main_call4_v1 h1 h2 h3).toBuf (Val := Elt Ideal) v = v := rfl
theorem ofBuf_main_call4_v1 (h1 h2 h3) (v : (⟨S50000, .f32⟩ : BufTy).Contents (Elt Ideal)) :
    (TRef.of (sig := sig) (T := ⟨S50000, .f32⟩) main_call4_v1 h1 h2 h3).ofBuf (Val := Elt Ideal) v = v := rfl
theorem toBuf_main_v92 (h1 h2 h3) (v : (⟨S50000, .i1⟩ : BufTy).Contents (Elt Ideal)) :
    (TRef.of (sig := sig) (T := ⟨S50000, .i1⟩) main_v92 h1 h2 h3).toBuf (Val := Elt Ideal) v = v := rfl
theorem ofBuf_main_v92 (h1 h2 h3) (v : (⟨S50000, .i1⟩ : BufTy).Contents (Elt Ideal)) :
    (TRef.of (sig := sig) (T := ⟨S50000, .i1⟩) main_v92 h1 h2 h3).ofBuf (Val := Elt Ideal) v = v := rfl
theorem toBuf_main_v90 (h1 h2 h3) (v : (⟨S50000, .f32⟩ : BufTy).Contents (Elt Ideal)) :
    (TRef.of (sig := sig) (T := ⟨S50000, .f32⟩) main_v90 h1 h2 h3).toBuf (Val := Elt Ideal) v = v := rfl
theorem ofBuf_main_v90 (h1 h2 h3) (v : (⟨S50000, .f32⟩ : BufTy).Contents (Elt Ideal)) :
    (TRef.of (sig := sig) (T := ⟨S50000, .f32⟩) main_v90 h1 h2 h3).ofBuf (Val := Elt Ideal) v = v := rfl
theorem toBuf_main_v93 (h1 h2 h3) (v : (⟨S50000, .f32⟩ : BufTy).Contents (Elt Ideal)) :
    (TRef.of (sig := sig) (T := ⟨S50000, .f32⟩) main_v93 h1 h2 h3).toBuf (Val := Elt Ideal) v = v := rfl
theorem ofBuf_main_v93 (h1 h2 h3) (v : (⟨S50000, .f32⟩ : BufTy).Contents (Elt Ideal)) :
    (TRef.of (sig := sig) (T := ⟨S50000, .f32⟩) main_v93 h1 h2 h3).ofBuf (Val := Elt Ideal) v = v := rfl
theorem toBuf_main_call5_cst (h1 h2 h3) (v : (⟨S_, .f32⟩ : BufTy).Contents (Elt Ideal)) :
    (TRef.of (sig := sig) (T := ⟨S_, .f32⟩) main_call5_cst h1 h2 h3).toBuf (Val := Elt Ideal) v = v := rfl
theorem ofBuf_main_call5_cst (h1 h2 h3) (v : (⟨S_, .f32⟩ : BufTy).Contents (Elt Ideal)) :
    (TRef.of (sig := sig) (T := ⟨S_, .f32⟩) main_call5_cst h1 h2 h3).ofBuf (Val := Elt Ideal) v = v := rfl
theorem toBuf_main_call5_v0 (h1 h2 h3) (v : (⟨S50000x128, .f32⟩ : BufTy).Contents (Elt Ideal)) :
    (TRef.of (sig := sig) (T := ⟨S50000x128, .f32⟩) main_call5_v0 h1 h2 h3).toBuf (Val := Elt Ideal) v = v := rfl
theorem ofBuf_main_call5_v0 (h1 h2 h3) (v : (⟨S50000x128, .f32⟩ : BufTy).Contents (Elt Ideal)) :
    (TRef.of (sig := sig) (T := ⟨S50000x128, .f32⟩) main_call5_v0 h1 h2 h3).ofBuf (Val := Elt Ideal) v = v := rfl
theorem toBuf_main_v150 (h1 h2 h3) (v : (⟨S50000x128, .f32⟩ : BufTy).Contents (Elt Ideal)) :
    (TRef.of (sig := sig) (T := ⟨S50000x128, .f32⟩) main_v150 h1 h2 h3).toBuf (Val := Elt Ideal) v = v := rfl
theorem ofBuf_main_v150 (h1 h2 h3) (v : (⟨S50000x128, .f32⟩ : BufTy).Contents (Elt Ideal)) :
    (TRef.of (sig := sig) (T := ⟨S50000x128, .f32⟩) main_v150 h1 h2 h3).ofBuf (Val := Elt Ideal) v = v := rfl
theorem toBuf_main_v151 (h1 h2 h3) (v : (⟨S50000x128, .f32⟩ : BufTy).Contents (Elt Ideal)) :
    (TRef.of (sig := sig) (T := ⟨S50000x128, .f32⟩) main_v151 h1 h2 h3).toBuf (Val := Elt Ideal) v = v := rfl
theorem ofBuf_main_v151 (h1 h2 h3) (v : (⟨S50000x128, .f32⟩ : BufTy).Contents (Elt Ideal)) :
    (TRef.of (sig := sig) (T := ⟨S50000x128, .f32⟩) main_v151 h1 h2 h3).ofBuf (Val := Elt Ideal) v = v := rfl
theorem toBuf_main_cst_39 (h1 h2 h3) (v : (⟨S_, .f32⟩ : BufTy).Contents (Elt Ideal)) :
    (TRef.of (sig := sig) (T := ⟨S_, .f32⟩) main_cst_39 h1 h2 h3).toBuf (Val := Elt Ideal) v = v := rfl
theorem ofBuf_main_cst_39 (h1 h2 h3) (v : (⟨S_, .f32⟩ : BufTy).Contents (Elt Ideal)) :
    (TRef.of (sig := sig) (T := ⟨S_, .f32⟩) main_cst_39 h1 h2 h3).ofBuf (Val := Elt Ideal) v = v := rfl
theorem toBuf_main_call6_v0 (h1 h2 h3) (v : (⟨S_, .f32⟩ : BufTy).Contents (Elt Ideal)) :
    (TRef.of (sig := sig) (T := ⟨S_, .f32⟩) main_call6_v0 h1 h2 h3).toBuf (Val := Elt Ideal) v = v := rfl
theorem ofBuf_main_call6_v0 (h1 h2 h3) (v : (⟨S_, .f32⟩ : BufTy).Contents (Elt Ideal)) :
    (TRef.of (sig := sig) (T := ⟨S_, .f32⟩) main_call6_v0 h1 h2 h3).ofBuf (Val := Elt Ideal) v = v := rfl
theorem toBuf_main_call6_v1 (h1 h2 h3) (v : (⟨S50000, .f32⟩ : BufTy).Contents (Elt Ideal)) :
    (TRef.of (sig := sig) (T := ⟨S50000, .f32⟩) main_call6_v1 h1 h2 h3).toBuf (Val := Elt Ideal) v = v := rfl
theorem ofBuf_main_call6_v1 (h1 h2 h3) (v : (⟨S50000, .f32⟩ : BufTy).Contents (Elt Ideal)) :
    (TRef.of (sig := sig) (T := ⟨S50000, .f32⟩) main_call6_v1 h1 h2 h3).ofBuf (Val := Elt Ideal) v = v := rfl
theorem toBuf_main_v161 (h1 h2 h3) (v : (⟨S50000, .i1⟩ : BufTy).Contents (Elt Ideal)) :
    (TRef.of (sig := sig) (T := ⟨S50000, .i1⟩) main_v161 h1 h2 h3).toBuf (Val := Elt Ideal) v = v := rfl
theorem ofBuf_main_v161 (h1 h2 h3) (v : (⟨S50000, .i1⟩ : BufTy).Contents (Elt Ideal)) :
    (TRef.of (sig := sig) (T := ⟨S50000, .i1⟩) main_v161 h1 h2 h3).ofBuf (Val := Elt Ideal) v = v := rfl
theorem toBuf_main_v159 (h1 h2 h3) (v : (⟨S50000, .f32⟩ : BufTy).Contents (Elt Ideal)) :
    (TRef.of (sig := sig) (T := ⟨S50000, .f32⟩) main_v159 h1 h2 h3).toBuf (Val := Elt Ideal) v = v := rfl
theorem ofBuf_main_v159 (h1 h2 h3) (v : (⟨S50000, .f32⟩ : BufTy).Contents (Elt Ideal)) :
    (TRef.of (sig := sig) (T := ⟨S50000, .f32⟩) main_v159 h1 h2 h3).ofBuf (Val := Elt Ideal) v = v := rfl
theorem toBuf_main_v162 (h1 h2 h3) (v : (⟨S50000, .f32⟩ : BufTy).Contents (Elt Ideal)) :
    (TRef.of (sig := sig) (T := ⟨S50000, .f32⟩) main_v162 h1 h2 h3).toBuf (Val := Elt Ideal) v = v := rfl
theorem ofBuf_main_v162 (h1 h2 h3) (v : (⟨S50000, .f32⟩ : BufTy).Contents (Elt Ideal)) :
    (TRef.of (sig := sig) (T := ⟨S50000, .f32⟩) main_v162 h1 h2 h3).ofBuf (Val := Elt Ideal) v = v := rfl
theorem toBuf_main_cst_42 (h1 h2 h3) (v : (⟨S_, .f32⟩ : BufTy).Contents (Elt Ideal)) :
    (TRef.of (sig := sig) (T := ⟨S_, .f32⟩) main_cst_42 h1 h2 h3).toBuf (Val := Elt Ideal) v = v := rfl
theorem ofBuf_main_cst_42 (h1 h2 h3) (v : (⟨S_, .f32⟩ : BufTy).Contents (Elt Ideal)) :
    (TRef.of (sig := sig) (T := ⟨S_, .f32⟩) main_cst_42 h1 h2 h3).ofBuf (Val := Elt Ideal) v = v := rfl
theorem toBuf_main_call7_v0 (h1 h2 h3) (v : (⟨S_, .f32⟩ : BufTy).Contents (Elt Ideal)) :
    (TRef.of (sig := sig) (T := ⟨S_, .f32⟩) main_call7_v0 h1 h2 h3).toBuf (Val := Elt Ideal) v = v := rfl
theorem ofBuf_main_call7_v0 (h1 h2 h3) (v : (⟨S_, .f32⟩ : BufTy).Contents (Elt Ideal)) :
    (TRef.of (sig := sig) (T := ⟨S_, .f32⟩) main_call7_v0 h1 h2 h3).ofBuf (Val := Elt Ideal) v = v := rfl
theorem toBuf_main_call7_v1 (h1 h2 h3) (v : (⟨S50000, .f32⟩ : BufTy).Contents (Elt Ideal)) :
    (TRef.of (sig := sig) (T := ⟨S50000, .f32⟩) main_call7_v1 h1 h2 h3).toBuf (Val := Elt Ideal) v = v := rfl
theorem ofBuf_main_call7_v1 (h1 h2 h3) (v : (⟨S50000, .f32⟩ : BufTy).Contents (Elt Ideal)) :
    (TRef.of (sig := sig) (T := ⟨S50000, .f32⟩) main_call7_v1 h1 h2 h3).ofBuf (Val := Elt Ideal) v = v := rfl
theorem toBuf_main_v166 (h1 h2 h3) (v : (⟨S50000, .i1⟩ : BufTy).Contents (Elt Ideal)) :
    (TRef.of (sig := sig) (T := ⟨S50000, .i1⟩) main_v166 h1 h2 h3).toBuf (Val := Elt Ideal) v = v := rfl
theorem ofBuf_main_v166 (h1 h2 h3) (v : (⟨S50000, .i1⟩ : BufTy).Contents (Elt Ideal)) :
    (TRef.of (sig := sig) (T := ⟨S50000, .i1⟩) main_v166 h1 h2 h3).ofBuf (Val := Elt Ideal) v = v := rfl
theorem toBuf_main_v164 (h1 h2 h3) (v : (⟨S50000, .f32⟩ : BufTy).Contents (Elt Ideal)) :
    (TRef.of (sig := sig) (T := ⟨S50000, .f32⟩) main_v164 h1 h2 h3).toBuf (Val := Elt Ideal) v = v := rfl
theorem ofBuf_main_v164 (h1 h2 h3) (v : (⟨S50000, .f32⟩ : BufTy).Contents (Elt Ideal)) :
    (TRef.of (sig := sig) (T := ⟨S50000, .f32⟩) main_v164 h1 h2 h3).ofBuf (Val := Elt Ideal) v = v := rfl
theorem toBuf_main_v167 (h1 h2 h3) (v : (⟨S50000, .f32⟩ : BufTy).Contents (Elt Ideal)) :
    (TRef.of (sig := sig) (T := ⟨S50000, .f32⟩) main_v167 h1 h2 h3).toBuf (Val := Elt Ideal) v = v := rfl
theorem ofBuf_main_v167 (h1 h2 h3) (v : (⟨S50000, .f32⟩ : BufTy).Contents (Elt Ideal)) :
    (TRef.of (sig := sig) (T := ⟨S50000, .f32⟩) main_v167 h1 h2 h3).ofBuf (Val := Elt Ideal) v = v := rfl

/-- Reads a buffer off the fold of a literal piece: each operation's result at its own buffer is its function of
    the operands' contents, and at any other buffer what was there; a value crossing a function call is moved by
    the identity; two vectors joined end to end are a function of the two. -/
macro "ref_results" : tactic =>
  `(tactic| (simp (disch := decide) only [after_cons, after_nil, concatenate_pair, id_eq,
      toBuf_main_cst_2, ofBuf_main_cst_2, toBuf_main_call0_v0, ofBuf_main_call0_v0, toBuf_main_call0_v1, ofBuf_main_call0_v1, toBuf_main_v13, ofBuf_main_v13, toBuf_main_v11, ofBuf_main_v11, toBuf_main_v14, ofBuf_main_v14, toBuf_main_cst_5, ofBuf_main_cst_5, toBuf_main_call1_v0, ofBuf_main_call1_v0, toBuf_main_call1_v1, ofBuf_main_call1_v1, toBuf_main_v18, ofBuf_main_v18, toBuf_main_v16, ofBuf_main_v16, toBuf_main_v19, ofBuf_main_v19, toBuf_main_call2_cst, ofBuf_main_call2_cst, toBuf_main_call2_v0, ofBuf_main_call2_v0, toBuf_main_v76, ofBuf_main_v76, toBuf_main_v77, ofBuf_main_v77, toBuf_main_cst_20, ofBuf_main_cst_20, toBuf_main_call3_v0, ofBuf_main_call3_v0, toBuf_main_call3_v1, ofBuf_main_call3_v1, toBuf_main_v87, ofBuf_main_v87, toBuf_main_v85, ofBuf_main_v85, toBuf_main_v88, ofBuf_main_v88, toBuf_main_cst_23, ofBuf_main_cst_23, toBuf_main_call4_v0, ofBuf_main_call4_v0, toBuf_main_call4_v1, ofBuf_main_call4_v1, toBuf_main_v92, ofBuf_main_v92, toBuf_main_v90, ofBuf_main_v90, toBuf_main_v93, ofBuf_main_v93, toBuf_main_call5_cst, ofBuf_main_call5_cst, toBuf_main_call5_v0, ofBuf_main_call5_v0, toBuf_main_v150, ofBuf_main_v150, toBuf_main_v151, ofBuf_main_v151, toBuf_main_cst_39, ofBuf_main_cst_39, toBuf_main_call6_v0, ofBuf_main_call6_v0, toBuf_main_call6_v1, ofBuf_main_call6_v1, toBuf_main_v161, ofBuf_main_v161, toBuf_main_v159, ofBuf_main_v159, toBuf_main_v162, ofBuf_main_v162, toBuf_main_cst_42, ofBuf_main_cst_42, toBuf_main_call7_v0, ofBuf_main_call7_v0, toBuf_main_call7_v1, ofBuf_main_call7_v1, toBuf_main_v166, ofBuf_main_v166, toBuf_main_v164, ofBuf_main_v164, toBuf_main_v167, ofBuf_main_v167,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-! ## The first layer -/

set_option maxHeartbeats 16000000 in
/-- The first layer's output, from the contents the first piece starts at. -/
theorem ref_layer1 (U : RVal) :
    after ops1 U (Proc.devRef .tc main_v77)
      = val_main_v77 (F := Ideal) (U (Proc.devRef .tc main_arg0)) (U (Proc.devRef .tc main_arg1)) (U (Proc.devRef .tc main_arg2))
          (U (Proc.devRef .tc main_arg3)) (U (Proc.devRef .tc main_arg4)) (U (Proc.devRef .tc main_arg5)) (U (Proc.devRef .tc main_arg6)) := by
  ref_results
  rfl

set_option maxHeartbeats 4000000 in
/-- The edges' source row, as a vector. -/
theorem ref_layer1_v1 (U : RVal) :
    after ops1 U (Proc.devRef .tc main_v1) = val_main_v1 (F := Ideal) (U (Proc.devRef .tc main_arg1)) := by
  ref_results
  rfl

set_option maxHeartbeats 4000000 in
/-- The edges' destination row, as a vector. -/
theorem ref_layer1_v3 (U : RVal) :
    after ops1 U (Proc.devRef .tc main_v3) = val_main_v3 (F := Ideal) (U (Proc.devRef .tc main_arg1)) := by
  ref_results
  rfl

/-! ## The second layer -/

set_option maxHeartbeats 16000000 in
/-- The second layer's output, from contents that hold the first layer's output, the two rows of the edge list and
    the arguments it reads. -/
theorem ref_layer2 (U : RVal)
    (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 x5 x6 : (⟨S128, .f32⟩ : BufTy).Contents (Elt Ideal)) (x7 : (⟨S128x128, .f32⟩ : BufTy).Contents (Elt Ideal))
    (x8 x9 x10 : (⟨S128, .f32⟩ : BufTy).Contents (Elt Ideal))
    (h77 : U (Proc.devRef .tc main_v77) = val_main_v77 (F := Ideal) x0 x1 x2 x3 x4 x5 x6)
    (h1 : U (Proc.devRef .tc main_v1) = val_main_v1 (F := Ideal) x1) (h3 : U (Proc.devRef .tc main_v3) = val_main_v3 (F := Ideal) x1)
    (a2 : U (Proc.devRef .tc main_arg2) = x2) (a7 : U (Proc.devRef .tc main_arg7) = x7) (a8 : U (Proc.devRef .tc main_arg8) = x8)
    (a9 : U (Proc.devRef .tc main_arg9) = x9) (a10 : U (Proc.devRef .tc main_arg10) = x10) :
    after ops2 U (Proc.devRef .tc main_v151) = val_main_v151 (F := Ideal) x0 x1 x2 x3 x4 x5 x6 x7 x8 x9 x10 := by
  ref_results
  rw [h77, h1, h3, a2, a7, a8, a9, a10]
  rfl

/-! ## The third layer -/

set_option maxHeartbeats 16000000 in
/-- The result, from contents that hold the second layer's output, the two rows of the edge list and the arguments
    the third layer reads. -/
theorem ref_layer3 (U : RVal)
    (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x128, .f32⟩ : BufTy).Contents (Elt Ideal))
    (x4 x5 x6 : (⟨S128, .f32⟩ : BufTy).Contents (Elt Ideal)) (x7 : (⟨S128x128, .f32⟩ : BufTy).Contents (Elt Ideal))
    (x8 x9 x10 : (⟨S128, .f32⟩ : BufTy).Contents (Elt Ideal)) (x11 : (⟨S128x64, .f32⟩ : BufTy).Contents (Elt Ideal))
    (x12 x13 x14 : (⟨S64, .f32⟩ : BufTy).Contents (Elt Ideal))
    (h151 : U (Proc.devRef .tc main_v151) = val_main_v151 (F := Ideal) x0 x1 x2 x3 x4 x5 x6 x7 x8 x9 x10)
    (h1 : U (Proc.devRef .tc main_v1) = val_main_v1 (F := Ideal) x1) (h3 : U (Proc.devRef .tc main_v3) = val_main_v3 (F := Ideal) x1)
    (a2 : U (Proc.devRef .tc main_arg2) = x2) (a11 : U (Proc.devRef .tc main_arg11) = x11) (a12 : U (Proc.devRef .tc main_arg12) = x12)
    (a13 : U (Proc.devRef .tc main_arg13) = x13) (a14 : U (Proc.devRef .tc main_arg14) = x14) :
    after ops3 U (Proc.devRef .tc main_v224) = val_main_v224 (F := Ideal) x0 x1 x2 x3 x4 x5 x6 x7 x8 x9 x10 x11 x12 x13 x14 := by
  ref_results
  rw [h151, h1, h3, a2, a11, a12, a13, a14]
  rfl

end Cert.Bridge

end
-- ==== Proof.RefValue.lean ====
/-
  The reference's result as its staged value of the fifteen arguments.

  The 298 host operations are folded one layer's piece at a time.  The first piece starts at the launch contents
  and ends with the first layer's output and the two rows of the edge list as vectors.  The second piece is
  folded from contents that hold the first layer's output, those two rows, and the arguments it reads (the edge
  weights and the second layer's weight matrix, bias, gain and shift), all of which the first piece left as they
  were launched; it ends with the second layer's output.  The third piece is folded from contents that hold the
  second layer's output, the same two rows and the arguments the last layer reads, which neither earlier piece
  wrote; it ends with the result.  No operation of any piece writes an argument, so every argument ends as
  launched.
-/
import proofs.«148666_j65377992179783_1_alg».proof.Proof.RefStage

set_option maxRecDepth 16384

noncomputable section

namespace Cert.Bridge

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## Every argument ends as launched -/

theorem ref_kept_arg0 (U : RVal) :
    after ops3 (after ops2 (after ops1 U)) (Proc.devRef .tc main_arg0) = U (Proc.devRef .tc main_arg0) :=
  keep_all U main_arg0 (by ref_not_written) (by ref_not_written) (by ref_not_written)
theorem ref_kept_arg1 (U : RVal) :
    after ops3 (after ops2 (after ops1 U)) (Proc.devRef .tc main_arg1) = U (Proc.devRef .tc main_arg1) :=
  keep_all U main_arg1 (by ref_not_written) (by ref_not_written) (by ref_not_written)
theorem ref_kept_arg2 (U : RVal) :
    after ops3 (after ops2 (after ops1 U)) (Proc.devRef .tc main_arg2) = U (Proc.devRef .tc main_arg2) :=
  keep_all U main_arg2 (by ref_not_written) (by ref_not_written) (by ref_not_written)
theorem ref_kept_arg3 (U : RVal) :
    after ops3 (after ops2 (after ops1 U)) (Proc.devRef .tc main_arg3) = U (Proc.devRef .tc main_arg3) :=
  keep_all U main_arg3 (by ref_not_written) (by ref_not_written) (by ref_not_written)
theorem ref_kept_arg4 (U : RVal) :
    after ops3 (after ops2 (after ops1 U)) (Proc.devRef .tc main_arg4) = U (Proc.devRef .tc main_arg4) :=
  keep_all U main_arg4 (by ref_not_written) (by ref_not_written) (by ref_not_written)
theorem ref_kept_arg5 (U : RVal) :
    after ops3 (after ops2 (after ops1 U)) (Proc.devRef .tc main_arg5) = U (Proc.devRef .tc main_arg5) :=
  keep_all U main_arg5 (by ref_not_written) (by ref_not_written) (by ref_not_written)
theorem ref_kept_arg6 (U : RVal) :
    after ops3 (after ops2 (after ops1 U)) (Proc.devRef .tc main_arg6) = U (Proc.devRef .tc main_arg6) :=
  keep_all U main_arg6 (by ref_not_written) (by ref_not_written) (by ref_not_written)
theorem ref_kept_arg7 (U : RVal) :
    after ops3 (after ops2 (after ops1 U)) (Proc.devRef .tc main_arg7) = U (Proc.devRef .tc main_arg7) :=
  keep_all U main_arg7 (by ref_not_written) (by ref_not_written) (by ref_not_written)
theorem ref_kept_arg8 (U : RVal) :
    after ops3 (after ops2 (after ops1 U)) (Proc.devRef .tc main_arg8) = U (Proc.devRef .tc main_arg8) :=
  keep_all U main_arg8 (by ref_not_written) (by ref_not_written) (by ref_not_written)
theorem ref_kept_arg9 (U : RVal) :
    after ops3 (after ops2 (after ops1 U)) (Proc.devRef .tc main_arg9) = U (Proc.devRef .tc main_arg9) :=
  keep_all U main_arg9 (by ref_not_written) (by ref_not_written) (by ref_not_written)
theorem ref_kept_arg10 (U : RVal) :
    after ops3 (after ops2 (after ops1 U)) (Proc.devRef .tc main_arg10) = U (Proc.devRef .tc main_arg10) :=
  keep_all U main_arg10 (by ref_not_written) (by ref_not_written) (by ref_not_written)
theorem ref_kept_arg11 (U : RVal) :
    after ops3 (after ops2 (after ops1 U)) (Proc.devRef .tc main_arg11) = U (Proc.devRef .tc main_arg11) :=
  keep_all U main_arg11 (by ref_not_written) (by ref_not_written) (by ref_not_written)
theorem ref_kept_arg12 (U : RVal) :
    after ops3 (after ops2 (after ops1 U)) (Proc.devRef .tc main_arg12) = U (Proc.devRef .tc main_arg12) :=
  keep_all U main_arg12 (by ref_not_written) (by ref_not_written) (by ref_not_written)
theorem ref_kept_arg13 (U : RVal) :
    after ops3 (after ops2 (after ops1 U)) (Proc.devRef .tc main_arg13) = U (Proc.devRef .tc main_arg13) :=
  keep_all U main_arg13 (by ref_not_written) (by ref_not_written) (by ref_not_written)
theorem ref_kept_arg14 (U : RVal) :
    after ops3 (after ops2 (after ops1 U)) (Proc.devRef .tc main_arg14) = U (Proc.devRef .tc main_arg14) :=
  keep_all U main_arg14 (by ref_not_written) (by ref_not_written) (by ref_not_written)

/-! ## What the later pieces start from -/

/-- After the first two pieces the edges' source row is still the vector the first piece made of it. -/
theorem ref_mid_v1 (U : RVal) :
    after ops2 (after ops1 U) (Proc.devRef .tc main_v1) = val_main_v1 (F := Ideal) (U (Proc.devRef .tc main_arg1)) :=
  (keep2 (after ops1 U) main_v1 (by ref_not_written)).trans (ref_layer1_v1 U)

/-- After the first two pieces the edges' destination row is still the vector the first piece made of it. -/
theorem ref_mid_v3 (U : RVal) :
    after ops2 (after ops1 U) (Proc.devRef .tc main_v3) = val_main_v3 (F := Ideal) (U (Proc.devRef .tc main_arg1)) :=
  (keep2 (after ops1 U) main_v3 (by ref_not_written)).trans (ref_layer1_v3 U)

/-- An argument the first two pieces do not write is, after them, as it was. -/
theorem ref_mid_arg2 (U : RVal) : after ops2 (after ops1 U) (Proc.devRef .tc main_arg2) = U (Proc.devRef .tc main_arg2) :=
  (keep2 (after ops1 U) main_arg2 (by ref_not_written)).trans (keep1 U main_arg2 (by ref_not_written))
theorem ref_mid_arg11 (U : RVal) : after ops2 (after ops1 U) (Proc.devRef .tc main_arg11) = U (Proc.devRef .tc main_arg11) :=
  (keep2 (after ops1 U) main_arg11 (by ref_not_written)).trans (keep1 U main_arg11 (by ref_not_written))
theorem ref_mid_arg12 (U : RVal) : after ops2 (after ops1 U) (Proc.devRef .tc main_arg12) = U (Proc.devRef .tc main_arg12) :=
  (keep2 (after ops1 U) main_arg12 (by ref_not_written)).trans (keep1 U main_arg12 (by ref_not_written))
theorem ref_mid_arg13 (U : RVal) : after ops2 (after ops1 U) (Proc.devRef .tc main_arg13) = U (Proc.devRef .tc main_arg13) :=
  (keep2 (after ops1 U) main_arg13 (by ref_not_written)).trans (keep1 U main_arg13 (by ref_not_written))
theorem ref_mid_arg14 (U : RVal) : after ops2 (after ops1 U) (Proc.devRef .tc main_arg14) = U (Proc.devRef .tc main_arg14) :=
  (keep2 (after ops1 U) main_arg14 (by ref_not_written)).trans (keep1 U main_arg14 (by ref_not_written))

/-! ## The layers' outputs -/

/-- The second layer's output after the first two pieces, as the staged value of the first eleven arguments. -/
theorem ref_stage2 (U : RVal) :
    after ops2 (after ops1 U) (Proc.devRef .tc main_v151)
      = val_main_v151 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) :=
  ref_layer2 (after ops1 U) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10))
    (ref_layer1 U) (ref_layer1_v1 U) (ref_layer1_v3 U)
    (keep1 U main_arg2 (by ref_not_written)) (keep1 U main_arg7 (by ref_not_written)) (keep1 U main_arg8 (by ref_not_written))
    (keep1 U main_arg9 (by ref_not_written)) (keep1 U main_arg10 (by ref_not_written))

/-- The result after all three pieces, as the staged value of the fifteen arguments. -/
theorem ref_stage3 (U : RVal) :
    after ops3 (after ops2 (after ops1 U)) (Proc.devRef .tc main_v224)
      = val_main_v224 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) :=
  ref_layer3 (after ops2 (after ops1 U)) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14))
    (ref_stage2 U) (ref_mid_v1 U) (ref_mid_v3 U)
    (ref_mid_arg2 U) (ref_mid_arg11 U) (ref_mid_arg12 U) (ref_mid_arg13 U) (ref_mid_arg14 U)

/-! ## The run -/

/-- Every execution of the reference ends with its result buffer at the staged value of the launched arguments,
    and the arguments as launched. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v224) = val_main_v224 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run (Cert.ReferenceIdeal.defs (F := Ideal)) _ _).mono
    (fun _ h c => ⟨(h c main_v224).trans (ref_stage3 (launchContents m c)),
      (h c main_arg0).trans (ref_kept_arg0 (launchContents m c)),
      (h c main_arg1).trans (ref_kept_arg1 (launchContents m c)),
      (h c main_arg2).trans (ref_kept_arg2 (launchContents m c)),
      (h c main_arg3).trans (ref_kept_arg3 (launchContents m c)),
      (h c main_arg4).trans (ref_kept_arg4 (launchContents m c)),
      (h c main_arg5).trans (ref_kept_arg5 (launchContents m c)),
      (h c main_arg6).trans (ref_kept_arg6 (launchContents m c)),
      (h c main_arg7).trans (ref_kept_arg7 (launchContents m c)),
      (h c main_arg8).trans (ref_kept_arg8 (launchContents m c)),
      (h c main_arg9).trans (ref_kept_arg9 (launchContents m c)),
      (h c main_arg10).trans (ref_kept_arg10 (launchContents m c)),
      (h c main_arg11).trans (ref_kept_arg11 (launchContents m c)),
      (h c main_arg12).trans (ref_kept_arg12 (launchContents m c)),
      (h c main_arg13).trans (ref_kept_arg13 (launchContents m c)),
      (h c main_arg14).trans (ref_kept_arg14 (launchContents m c))⟩)
    (run_fold (F := Ideal) m ρ)

end Cert.Bridge

end
-- ==== Proof.lean ====
/-
  The certificate of a three-layer graph network: a program whose matrix products, edge scalings and row
  normalizations are tiled kernels, against a reference that does everything with host operations.

  Both programs compute, from node features, an edge list with weights, and per-layer weights, biases, gains and
  shifts: per layer, the features times the weight matrix; the product's rows gathered by the source node of every
  edge and self loop; each gathered row scaled by its edge coefficient (the edge weight divided by the square roots
  of the weighted degrees of its two endpoints); the scaled rows added up by destination node; and then, row by row,
  plus the bias, minus the row mean, divided by the square root of the row variance plus a small constant, times
  the gain, plus the shift, clamped at zero except in the last layer.

  Over the extended reals every tiled kernel computes exactly the reference's host operation chain of the arrays it
  is entered with (a matrix product is the same sum over the contracted axis, a scaling the same product, a row
  normalization the same expression of the same row sums), and the host operations in between are the reference's
  own; so, boundary by boundary, the tiled program's buffers hold the reference's staged values, and its result
  buffer ends at the reference's result as a function of the launch contents of the arguments.  The reference's own
  run is folded one layer at a time to the same staged value.  No property of the inputs is used: no law of
  arithmetic is applied anywhere, only the definitions of the operations.  The idealization rewrote nothing, so the
  word-level program's idealization claim is trivial, and the three frames are the programs' runs with the result
  forgotten.
-/
import proofs.«148666_j65377992179783_1_alg».proof.Defs
import proofs.«148666_j65377992179783_1_alg».proof.Proof.Gen.Kernel
import proofs.«148666_j65377992179783_1_alg».proof.Proof.Gen.Kernel.Skeleton
import proofs.«148666_j65377992179783_1_alg».proof.Proof.Gen.Kernel.Launch
import proofs.«148666_j65377992179783_1_alg».proof.Proof.Gen.Kernel.Points
import proofs.«148666_j65377992179783_1_alg».proof.Proof.Gen.Kernel.Frame
import proofs.«148666_j65377992179783_1_alg».proof.Proof.Gen.KernelIdeal
import proofs.«148666_j65377992179783_1_alg».proof.Proof.Gen.KernelIdeal.Skeleton
import proofs.«148666_j65377992179783_1_alg».proof.Proof.Gen.KernelIdeal.Launch
import proofs.«148666_j65377992179783_1_alg».proof.Proof.Gen.KernelIdeal.Points
import proofs.«148666_j65377992179783_1_alg».proof.Proof.Gen.KernelIdeal.Frame
import proofs.«148666_j65377992179783_1_alg».proof.Proof.Gen.ReferenceIdeal
import proofs.«148666_j65377992179783_1_alg».proof.Proof.Gen.Pre_finite_inputs
import proofs.«148666_j65377992179783_1_alg».proof.Proof.KRun
import proofs.«148666_j65377992179783_1_alg».proof.Proof.Layers
import proofs.«148666_j65377992179783_1_alg».proof.Proof.RefValue
import Idealize.ShloMosaic.Adequacy
import Idealize.ShloMosaic.Init

set_option maxRecDepth 16384

noncomputable section

namespace Cert.Proof

open Idealize.ShloMosaic Idealize.SL.Sem

/-- The word-level program runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- The idealized tiled program runs and leaves its arguments alone. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Bridge.ref_run m ρ)

/-- From memories agreeing on the arguments both programs end with the reference's staged result of those
    arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v224 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono (fun _ h c => ⟨(h c).1.trans (Cert.Bridge.out3 m ρ c), (h c).2⟩)
      (Cert.Bridge.kernel_run (F := Ideal) m ρ)
  · refine (θ_run Cert.ReferenceIdeal.defs _ _).mono (fun _ h c => ⟨(h c).1.trans ?_, (h c).2⟩) (Cert.Bridge.ref_run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
